-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.truncf_extf.Statement Cert.KernelIdeal.S256x784 .f32 .bf16
  ∧ IdealRules.sign_bit.Statement Cert.KernelIdeal.S256x4096 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S4096x784 : Shape := ⟨2, ![4096, 784]⟩
abbrev S4096 : Shape := ⟨1, ![4096]⟩
abbrev S4096x4096 : Shape := ⟨2, ![4096, 4096]⟩
abbrev S10x4096 : Shape := ⟨2, ![10, 4096]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S4096x784 : S_.BroadcastsInDim S4096x784 (![] : Fin 0 → Fin S4096x784.rank)
  reducesTo_S4096x784_S_d0_1 : S4096x784.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S10x4096 : S_.BroadcastsInDim S10x4096 (![] : Fin 0 → Fin S10x4096.rank)
  reducesTo_S10x4096_S_d0_1 : S10x4096.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S10 .f32) (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg14 : FVec F S10 .f32) (main_arg15 : FVec F S10 .f32) (main_arg16 : FVec F S10 .f32) (main_arg17 : FVec F S10 .f32) (main_arg18 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S10 .f32 := Host.absf main_arg16
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  let main_v84 : FVec F S10 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S4096 .f32) (main_arg12 : FVec F S4096 .f32) (main_arg13 : FVec F S10x4096 .f32) (main_arg14 : FVec F S10 .f32) (main_arg15 : FVec F S10 .f32) (main_arg16 : FVec F S10 .f32) (main_arg17 : FVec F S10 .f32) (main_arg18 : FVec F S10 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S10x4096 .f32 := Host.absf main_arg13
  let main_cst_24 : FVec F S_ .f32 := constant S_ .f32 0x7F800000#32
  let main_v65 : FVec F S10x4096 .f32 := broadcastInDim S10x4096 ![] bcast_S_S10x4096 main_cst_24
  let main_v66 : IVec S10x4096 1 := cmpf .olt main_v64 main_v65
  let main_c_25 : IVec S_ 1 := constantI S_ 1 1#1
  let main_v67 : IVec S_ 1 := (fun x v => Host.reduce IntOp.andi x v reducesTo_S10x4096_S_d0_1 h_S_) main_v66 main_c_25
  fn_part4 (F := F) main_arg14 main_arg15 main_arg16 main_arg17 main_arg18 main_v63 main_v67

def fn_part2 {F : FTy → Type} [FloatOps F] (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S10x4096 .f32) (main_arg14 : FVec F S10 .f32) (main_arg15 : FVec F S10 .f32) (main_arg16 : FVec F S10 .f32) (main_arg17 : FVec F S10 .f32) (main_arg18 : FVec F S10 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S10x4096 .f32) (main_arg14 : FVec F S10 .f32) (main_arg15 : FVec F S10 .f32) (main_arg16 : FVec F S10 .f32) (main_arg17 : FVec F S10 .f32) (main_arg18 : FVec F S10 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x784 .f32) (main_arg1 : FVec F S4096x784 .f32) (main_arg2 : FVec F S4096 .f32) (main_arg3 : FVec F S4096 .f32) (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S10x4096 .f32) (main_arg14 : FVec F S10 .f32) (main_arg15 : FVec F S10 .f32) (main_arg16 : FVec F S10 .f32) (main_arg17 : FVec F S10 .f32) (main_arg18 : FVec F S10 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S4096x784 .f32 := Host.absf main_arg1
  let main_cst_0 : FVec F S_ .f32 := constant S_ .f32 0x7F800000#32
  let main_v5 : FVec F S4096x784 .f32 := broadcastInDim S4096x784 ![] bcast_S_S4096x784 main_cst_0
  let main_v6 : IVec S4096x784 1 := cmpf .olt main_v4 main_v5
  let main_c_1 : IVec S_ 1 := constantI S_ 1 1#1
  let main_v7 : IVec S_ 1 := (fun x v => Host.reduce IntOp.andi x v reducesTo_S4096x784_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x784 : Shape := ⟨2, ![16384, 784]⟩
abbrev S4096x784 : Shape := ⟨2, ![4096, 784]⟩
abbrev S4096 : Shape := ⟨1, ![4096]⟩
abbrev S4096x4096 : Shape := ⟨2, ![4096, 4096]⟩
abbrev S10x4096 : Shape := ⟨2, ![10, 4096]⟩
abbrev S10 : Shape := ⟨1, ![10]⟩
abbrev S1x4096 : Shape := ⟨2, ![1, 4096]⟩
abbrev S16384x4096 : Shape := ⟨2, ![16384, 4096]⟩
abbrev S256x784 : Shape := ⟨2, ![256, 784]⟩
abbrev S256x4096 : Shape := ⟨2, ![256, 4096]⟩
abbrev S784x4096 : Shape := ⟨2, ![784, 4096]⟩
abbrev S1024x2048 : Shape := ⟨2, ![1024, 2048]⟩
abbrev S1x1024 : Shape := ⟨2, ![1, 1024]⟩
abbrev S1024x1024 : Shape := ⟨2, ![1024, 1024]⟩
abbrev S2048x1024 : Shape := ⟨2, ![2048, 1024]⟩
abbrev S_ : Shape := ⟨0, ![]⟩
abbrev S128x4096 : Shape := ⟨2, ![128, 4096]⟩
abbrev S128 : Shape := ⟨1, ![128]⟩
abbrev S1x128 : Shape := ⟨2, ![1, 128]⟩
abbrev S16384x128 : Shape := ⟨2, ![16384, 128]⟩
abbrev S1024x4096 : Shape := ⟨2, ![1024, 4096]⟩
abbrev S1024x128 : Shape := ⟨2, ![1024, 128]⟩
abbrev S4096x128 : Shape := ⟨2, ![4096, 128]⟩
abbrev S16384x10 : Shape := ⟨2, ![16384, 10]⟩

abbrev nBuf : Space → Nat
  | .hbm => 62
  | .vmem => 37
  | .smem => 0
  | _ => 0

abbrev bufTy : (tb : Table) → Fin (tcTables nBuf tb) → BufTy
  | .hbm, ⟨0, _⟩ => ⟨S16384x784, .f32⟩
  | .hbm, ⟨1, _⟩ => ⟨S4096x784, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S10x4096, .f32⟩
  | .hbm, ⟨14, _⟩ => ⟨S10, .f32⟩
  | .hbm, ⟨15, _⟩ => ⟨S10, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S4096x784, .f32⟩
  | .hbm, ⟨20, _⟩ => ⟨S4096x784, .bf16⟩
  | .hbm, ⟨21, _⟩ => ⟨S4096x4096, .f32⟩
  | .hbm, ⟨22, _⟩ => ⟨S4096x4096, .bf16⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S16384x4096, .bf16⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S16384x4096, .bf16⟩
  | .hbm, ⟨35, _⟩ => ⟨S_, .i32⟩
  | .hbm, ⟨36, _⟩ => ⟨S_, .f32⟩
  | .hbm, ⟨37, _⟩ => ⟨S128x4096, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S_, .f32⟩
  | .hbm, ⟨52, _⟩ => ⟨S128, .f32⟩
  | .hbm, ⟨53, _⟩ => ⟨S128x4096, .f32⟩
  | .hbm, ⟨54, _⟩ => ⟨S128x4096, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S16384x128, .f32⟩
  | .hbm, ⟨61, _⟩ => ⟨S16384x10, .f32⟩
  | .local _ .vmem, ⟨0, _⟩ => ⟨S256x784, .f32⟩
  | .local _ .vmem, ⟨1, _⟩ => ⟨S256x784, .f32⟩
  | .local _ .vmem, ⟨2, _⟩ => ⟨S4096x784, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S256x4096, .bf16⟩
  | .local _ .vmem, ⟨9, _⟩ => ⟨S256x4096, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | .local _ .vmem, ⟨27, _⟩ => ⟨S1024x4096, .bf16⟩
  | .local _ .vmem, ⟨28, _⟩ => ⟨S1024x4096, .bf16⟩
  | .local _ .vmem, ⟨29, _⟩ => ⟨S128x4096, .bf16⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1024x128, .f32⟩
  | .local _ .vmem, ⟨36, _⟩ => ⟨S1024x128, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_call0_v0 : Ref sig .tc := ⟨.hbm, 36, rfl⟩
abbrev main_v16 : Ref sig .tc := ⟨.hbm, 37, rfl⟩
abbrev main_c_0 : Ref sig .tc := ⟨.hbm, 38, rfl⟩
abbrev main_call1_v0 : Ref sig .tc := ⟨.hbm, 39, rfl⟩
abbrev main_v17 : Ref sig .tc := ⟨.hbm, 40, rfl⟩
abbrev main_c_1 : Ref sig .tc := ⟨.hbm, 41, rfl⟩
abbrev main_call2_v0 : Ref sig .tc := ⟨.hbm, 42, rfl⟩
abbrev main_v18 : Ref sig .tc := ⟨.hbm, 43, rfl⟩
abbrev main_c_2 : Ref sig .tc := ⟨.hbm, 44, rfl⟩
abbrev main_call3_v0 : Ref sig .tc := ⟨.hbm, 45, rfl⟩
abbrev main_v19 : Ref sig .tc := ⟨.hbm, 46, rfl⟩
abbrev main_c_3 : Ref sig .tc := ⟨.hbm, 47, rfl⟩
abbrev main_call4_v0 : Ref sig .tc := ⟨.hbm, 48, rfl⟩
abbrev main_v20 : Ref sig .tc := ⟨.hbm, 49, rfl⟩
abbrev main_cst : Ref sig .tc := ⟨.hbm, 50, rfl⟩
abbrev main_call5_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![16, 4, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  shapeCasts_S4096_S1x4096 : S4096.ShapeCasts S1x4096
  inb_S256x784_S256x784_0_0 : ∀ a, (![0, 0] : Fin 2 → Nat) a + S256x784.size a ≤ S256x784.size a
  h_S256x784 : 0 < S256x784.numel
  inb_S4096x784_S4096x784_0_0 : ∀ a, (![0, 0] : Fin 2 → Nat) a + S4096x784.size a ≤ S4096x784.size a
  h_S4096x784 : 0 < S4096x784.numel
  shapeCasts_S4096x784_S4096x784 : S4096x784.ShapeCasts S4096x784
  transposes_S4096x784_p1_0_S784x4096 : S4096x784.Transposes [1, 0] S784x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  transposes_S1024x2048_p1_0_S2048x1024 : S1024x2048.Transposes [1, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  pads_S10x4096_S128x4096_01180_000 : S10x4096.Pads (![0, 0] : Fin 2 → Nat) ![118, 0] ![0, 0] S128x4096
  h_S_ : 0 < S_.numel
  pads_S10_S128_01180 : S10.Pads (![0] : Fin 1 → Nat) ![118] ![0] S128
  shapeCasts_S128_S1x128 : S128.ShapeCasts S1x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  transposes_S128x4096_p1_0_S4096x128 : S128x4096.Transposes [1, 0] S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S16384x128_S16384x10_0_0 : S16384x128.Slices ![0, 0] S16384x10
  dot_S256x784_S784x4096_S256x4096_1_0_0_1_n_n_wf : DotDims.WF S256x784 S784x4096 S256x4096 [1] [0] [0] [1] [] []
  dot_S1024x2048_S2048x1024_S1024x1024_1_0_0_1_n_n_wf : DotDims.WF S1024x2048 S2048x1024 S1024x1024 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S16384x784.size a
  hwx0_0 : ∀ i : grid0.Coords, EltTy.bits .f32 = 32 ∨ (Rect.block (s := S16384x784) S256x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x784.size a ≤ S4096x784.size a
  hwx0_1 : ∀ i : grid0.Coords, EltTy.bits .bf16 = 32 ∨ (Rect.block (s := S4096x784) S4096x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S16384x4096.size a
  hwx0_7 : ∀ i : grid0.Coords, EltTy.bits .bf16 = 32 ∨ (Rect.block (s := S16384x4096) S256x4096.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x4096.size a
  hwx1_0 : ∀ i : grid1.Coords, EltTy.bits .bf16 = 32 ∨ (Rect.block (s := S16384x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x4096.size a
  hwx1_6 : ∀ i : grid1.Coords, EltTy.bits .f32 = 32 ∨ (Rect.block (s := S1x4096) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S16384x4096.size a
  hwx1_7 : ∀ i : grid1.Coords, EltTy.bits .bf16 = 32 ∨ (Rect.block (s := S16384x4096) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S16384x4096.size a
  hwx2_0 : ∀ i : grid2.Coords, EltTy.bits .bf16 = 32 ∨ (Rect.block (s := S16384x4096) S1024x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S128x4096.size a
  hwx2_1 : ∀ i : grid2.Coords, EltTy.bits .bf16 = 32 ∨ (Rect.block (s := S128x4096) S128x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S16384x128.size a
  hwx2_7 : ∀ i : grid2.Coords, EltTy.bits .f32 = 32 ∨ (Rect.block (s := S16384x128) S1024x128.size (cc2_transform_7 i) (hinb2_7 i)).WholeWords (EltTy.packing .f32)

variable [Facts₀]

def dot_S256x784_S784x4096_S256x4096_1_0_0_1_n_n : DotDims S256x784 S784x4096 S256x4096 where
  lhsContracting := [1]
  rhsContracting := [0]
  lhsNonContracting := [0]
  rhsNonContracting := [1]
  lhsBatch := []
  rhsBatch := []
  wf := dot_S256x784_S784x4096_S256x4096_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v15) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S128x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S16384x784 : Shape := ⟨2, ![16384, 784]⟩
abbrev S4096x784 : Shape := ⟨2, ![4096, 784]⟩
abbrev S4096 : Shape := ⟨1, ![4096]⟩
abbrev S4096x4096 : Shape := ⟨2, ![4096, 4096]⟩
abbrev S10x4096 : Shape := ⟨2, ![10, 4096]⟩
abbrev S10 : Shape := ⟨1, ![10]⟩
abbrev S_ : Shape := ⟨0, ![]⟩
abbrev S784x4096 : Shape := ⟨2, ![784, 4096]⟩
abbrev S16384x4096 : Shape := ⟨2, ![16384, 4096]⟩
abbrev S1x4096 : Shape := ⟨2, ![1, 4096]⟩
abbrev S4096x10 : Shape := ⟨2, ![4096, 10]⟩
abbrev S16384x10 : Shape := ⟨2, ![16384, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S16384x784, .f32⟩
  | 1 => ⟨S4096x784, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S10x4096, .f32⟩
  | 14 => ⟨S10, .f32⟩
  | 15 => ⟨S10, .f32⟩
  | 16 => ⟨S10, .f32⟩
  | 17 => ⟨S10, .f32⟩
  | 18 => ⟨S10, .f32⟩
  | 19 => ⟨S_, .f32⟩
  | 20 => ⟨S_, .f32⟩
  | 21 => ⟨S_, .f32⟩
  | 22 => ⟨S4096x784, .f32⟩
  | 23 => ⟨S4096x784, .f32⟩
  | 24 => ⟨S_, .f32⟩
  | 25 => ⟨S4096x784, .f32⟩
  | 26 => ⟨S4096x784, .f32⟩
  | 27 => ⟨S4096x784, .f32⟩
  | 28 => ⟨S4096x784, .f32⟩
  | 29 => ⟨S4096x784, .f32⟩
  | 30 => ⟨S784x4096, .f32⟩
  | 31 => ⟨S16384x4096, .f32⟩
  | 32 => ⟨S1x4096, .f32⟩
  | 33 => ⟨S16384x4096, .f32⟩
  | 34 => ⟨S16384x4096, .f32⟩
  | 35 => ⟨S1x4096, .f32⟩
  | 36 => ⟨S16384x4096, .f32⟩
  | 37 => ⟨S16384x4096, .f32⟩
  | 38 => ⟨S_, .f32⟩
  | 39 => ⟨S4096, .f32⟩
  | 40 => ⟨S4096, .f32⟩
  | 41 => ⟨S4096, .f32⟩
  | 42 => ⟨S1x4096, .f32⟩
  | 43 => ⟨S16384x4096, .f32⟩
  | 44 => ⟨S16384x4096, .f32⟩
  | 45 => ⟨S1x4096, .f32⟩
  | 46 => ⟨S16384x4096, .f32⟩
  | 47 => ⟨S16384x4096, .f32⟩
  | 48 => ⟨S1x4096, .f32⟩
  | 49 => ⟨S16384x4096, .f32⟩
  | 50 => ⟨S16384x4096, .f32⟩
  | 51 => ⟨S_, .f32⟩
  | 52 => ⟨S_, .f32⟩
  | 53 => ⟨S_, .f32⟩
  | 54 => ⟨S16384x4096, .f32⟩
  | 55 => ⟨S16384x4096, .f32⟩
  | 56 => ⟨S_, .f32⟩
  | 57 => ⟨S16384x4096, .f32⟩
  | 58 => ⟨S16384x4096, .f32⟩
  | 59 => ⟨S16384x4096, .f32⟩
  | 60 => ⟨S16384x4096, .f32⟩
  | 61 => ⟨S16384x4096, .f32⟩
  | 62 => ⟨S_, .f32⟩
  | 63 => ⟨S_, .f32⟩
  | 64 => ⟨S_, .f32⟩
  | 65 => ⟨S4096x4096, .f32⟩
  | 66 => ⟨S4096x4096, .f32⟩
  | 67 => ⟨S_, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S16384x4096, .f32⟩
  | 75 => ⟨S1x4096, .f32⟩
  | 76 => ⟨S16384x4096, .f32⟩
  | 77 => ⟨S16384x4096, .f32⟩
  | 78 => ⟨S1x4096, .f32⟩
  | 79 => ⟨S16384x4096, .f32⟩
  | 80 => ⟨S16384x4096, .f32⟩
  | 81 => ⟨S_, .f32⟩
  | 82 => ⟨S4096, .f32⟩
  | 83 => ⟨S4096, .f32⟩
  | 84 => ⟨S4096, .f32⟩
  | 85 => ⟨S1x4096, .f32⟩
  | 86 => ⟨S16384x4096, .f32⟩
  | 87 => ⟨S16384x4096, .f32⟩
  | 88 => ⟨S1x4096, .f32⟩
  | 89 => ⟨S16384x4096, .f32⟩
  | 90 => ⟨S16384x4096, .f32⟩
  | 91 => ⟨S1x4096, .f32⟩
  | 92 => ⟨S16384x4096, .f32⟩
  | 93 => ⟨S16384x4096, .f32⟩
  | 94 => ⟨S_, .f32⟩
  | 95 => ⟨S_, .f32⟩
  | 96 => ⟨S_, .f32⟩
  | 97 => ⟨S16384x4096, .f32⟩
  | 98 => ⟨S16384x4096, .f32⟩
  | 99 => ⟨S_, .f32⟩
  | 100 => ⟨S16384x4096, .f32⟩
  | 101 => ⟨S16384x4096, .f32⟩
  | 102 => ⟨S16384x4096, .f32⟩
  | 103 => ⟨S16384x4096, .f32⟩
  | 104 => ⟨S16384x4096, .f32⟩
  | 105 => ⟨S_, .f32⟩
  | 106 => ⟨S_, .f32⟩
  | 107 => ⟨S_, .f32⟩
  | 108 => ⟨S10x4096, .f32⟩
  | 109 => ⟨S10x4096, .f32⟩
  | 110 => ⟨S_, .f32⟩
  | 111 => ⟨S10x4096, .f32⟩
  | 112 => ⟨S10x4096, .f32⟩
  | 113 => ⟨S10x4096, .f32⟩
  | 114 => ⟨S10x4096, .f32⟩
  | 115 => ⟨S10x4096, .f32⟩
  | 116 => ⟨S4096x10, .f32⟩
  | 117 => ⟨S16384x10, .f32⟩
  | 118 => ⟨S1x10, .f32⟩
  | 119 => ⟨S16384x10, .f32⟩
  | 120 => ⟨S16384x10, .f32⟩
  | 121 => ⟨S1x10, .f32⟩
  | 122 => ⟨S16384x10, .f32⟩
  | 123 => ⟨S16384x10, .f32⟩
  | 124 => ⟨S_, .f32⟩
  | 125 => ⟨S10, .f32⟩
  | 126 => ⟨S10, .f32⟩
  | 127 => ⟨S10, .f32⟩
  | _ => ⟨S16384x784, .f32⟩

abbrev hbmTy0_1 (i : Nat) : BufTy := match i % 128 with
  | 0 => ⟨S1x10, .f32⟩
  | 1 => ⟨S16384x10, .f32⟩
  | 2 => ⟨S16384x10, .f32⟩
  | 3 => ⟨S1x10, .f32⟩
  | 4 => ⟨S16384x10, .f32⟩
  | 5 => ⟨S16384x10, .f32⟩
  | 6 => ⟨S1x10, .f32⟩
  | 7 => ⟨S16384x10, .f32⟩
  | 8 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_cst_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_7 : Ref sig .tc := ⟨.hbm, 94, rfl⟩
abbrev main_cst_8 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_9 : Ref sig .tc := ⟨.hbm, 105, rfl⟩
abbrev main_cst_10 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_11 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩

abbrev nD : Nat := 1
abbrev τ : Topo := Topo.v7x

variable {F : FTy → Type} [FloatOps F]

class Facts₀ : Prop where
  bcast_S_S4096x784 : S_.BroadcastsInDim S4096x784 (![] : Fin 0 → Fin S4096x784.rank)
  transposes_S4096x784_S784x4096_1_0 : S4096x784.Transposes [1, 0] S784x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S4096 : S_.BroadcastsInDim S4096 (![] : Fin 0 → Fin S4096.rank)
  bcast_S_S16384x4096 : S_.BroadcastsInDim S16384x4096 (![] : Fin 0 → Fin S16384x4096.rank)
  bcast_S_S4096x4096 : S_.BroadcastsInDim S4096x4096 (![] : Fin 0 → Fin S4096x4096.rank)
  transposes_S4096x4096_S4096x4096_1_0 : S4096x4096.Transposes [1, 0] S4096x4096
  bcast_S_S10x4096 : S_.BroadcastsInDim S10x4096 (![] : Fin 0 → Fin S10x4096.rank)
  transposes_S10x4096_S4096x10_1_0 : S10x4096.Transposes [1, 0] S4096x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S10 : S_.BroadcastsInDim S10 (![] : Fin 0 → Fin S10.rank)
  dot_S16384x784_S784x4096_S16384x4096_1_0_0_1_n_n_wf : DotDims.WF S16384x784 S784x4096 S16384x4096 [1] [0] [0] [1] [] []
  dot_S16384x4096_S4096x4096_S16384x4096_1_0_0_1_n_n_wf : DotDims.WF S16384x4096 S4096x4096 S16384x4096 [1] [0] [0] [1] [] []
  dot_S16384x4096_S4096x10_S16384x10_1_0_0_1_n_n_wf : DotDims.WF S16384x4096 S4096x10 S16384x10 [1] [0] [0] [1] [] []

variable [Facts₀]

def dot_S16384x784_S784x4096_S16384x4096_1_0_0_1_n_n : DotDims S16384x784 S784x4096 S16384x4096 where
  lhsContracting := [1]
  rhsContracting := [0]
  lhsNonContracting := [0]
  rhsNonContracting := [1]
  lhsBatch := []
  rhsBatch := []
  wf := dot_S16384x784_S784x4096_S16384x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x10_S16384x10_1_0_0_1_n_n : DotDims S16384x4096 S4096x10 S16384x10 where
  lhsContracting := [1]
  rhsContracting := [0]
  lhsNonContracting := [0]
  rhsNonContracting := [1]
  lhsBatch := []
  rhsBatch := []
  wf := dot_S16384x4096_S4096x10_S16384x10_1_0_0_1_n_n_wf

class Facts : Prop extends Facts₀ where

variable [Facts]
-- ==== Proof.L1Frame.lean ====
import proofs.«112361_j47373489275136_2_alg».proof.Proof.Gen.KernelIdeal.Launch
import proofs.«112361_j47373489275136_2_alg».proof.Proof.Gen.KernelIdeal.Skeleton
import proofs.«112361_j47373489275136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first layer's grid: what one grid point does to its staging buffers

The first layer runs on a grid of 64 points. Each point reads a 256x784 block of the input, the whole 4096x784
sign-weight matrix and five 1x4096 rows (bias, scale, shift, running mean, running variance), and stores one 256x4096
block of activations. Every access is of a whole block, and the output block is stored exactly once, so after the
body the output's buffer holds that one stored block and the operands' buffers are as they were. This file states
that as the body's triple and hands the pipeline its obligation at every grid point, for any contents `V` of the
TensorCore's buffers at the start of the layer.
-/

-- membership in a rectangle with thousands of coordinates along an axis recurses once per coordinate
set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the layer's grid starts
variable (V : (c : Dev nD) → (b : Ref sig .tc) → Buf (Elt F) ((c : Thread nD τ).loc b))

/-! ## The blocks the grid point works on -/

/-- The block of operand `w` that grid point `t` works on, cut out of the operand's array as the layer finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-block accesses of the layer -/

/-- The whole 256x784 input block. -/
abbrev rIn : Rect S256x784 := Rect.unit (s := S256x784) ![0, 0] S256x784.size inb_S256x784_S256x784_0_0
/-- The whole 4096x784 weight matrix. -/
abbrev rWt : Rect S4096x784 := Rect.unit (s := S4096x784) ![0, 0] S4096x784.size inb_S4096x784_S4096x784_0_0
/-- A whole 1x4096 row. -/
abbrev rRow : Rect S1x4096 := Rect.unit (s := S1x4096) ![0, 0] S1x4096.size inb_S1x4096_S1x4096_0_0
/-- The whole 256x4096 output block. -/
abbrev rOut : Rect S256x4096 := Rect.unit (s := S256x4096) ![0, 0] S256x4096.size inb_S256x4096_S256x4096_0_0

/-! ## The layer's output block -/

/-- The output block after the body, from the operands' blocks `x0` (input), `x1` (weights), `x2` (bias), `x3` (scale),
    `x4` (shift), `x5` (running mean), `x6` (running variance): the single whole-block store of the layer's value. The
    value reads the rows in the order bias, mean, variance, scale, shift. -/
def stored (x0 : Vec F S256x784 .f32) (x1 : Vec F S4096x784 .bf16) (x2 x3 x4 x5 x6 : Vec F S1x4096 .f32) : Vec F S256x4096 .bf16 :=
  View.canon [⟨rOut, k0_pay1 (k0_pay2 (View.ld x0 rIn) (View.ld x1 rWt) (View.ld x2 rRow) (View.ld x5 rRow) (View.ld x6 rRow) (View.ld x3 rRow) (View.ld x4 rRow)) (k0_pay3 (View.ld x0 rIn) (View.ld x1 rWt) (View.ld x2 rRow) (View.ld x5 rRow) (View.ld x6 rRow) (View.ld x3 rRow) (View.ld x4 rRow)) (k0_pay4 (View.ld x0 rIn) (View.ld x1 rWt) (View.ld x2 rRow) (View.ld x5 rRow) (View.ld x6 rRow) (View.ld x3 rRow) (View.ld x4 rRow)) (Scalar.ofBits .f32 0x00000000#32)⟩]

/-- The one store is the whole block, so it covers it. -/
theorem stored_covers (p : Vec F S256x4096 .bf16) (y : S256x4096.Idx) :
    ∃ pc ∈ ([⟨rOut, p⟩] : List (View.Piece (Elt F) S256x4096 .bf16)), y ∈ pc.1.set :=
  View.cover_of_tiled [⟨rOut, p⟩] S256x4096.size (by rfl) y

/-! ## The layer's body on its staging buffers -/

set_option maxHeartbeats 4000000 in
/-- The body on whole staging buffers: the seven operands' buffers at contents `x0 … x6`, the output's at anything.
    It runs to a state where the operands' buffers are unchanged and the output's holds `stored x0 … x6`. The body
    loads the output buffer once before storing it; the loaded value is not used, so any contents do. -/
theorem sound_kernel (c : Dev nD) (E : Set ℕ) (i : grid0.Coords) (arg1 : Memref sig .tc .vmem S256x784 .f32) (harg1 : arg1.IsWhole) (arg2 : Memref sig .tc .vmem S4096x784 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .bf16) (harg8 : arg8.IsWhole)
    (x0 : Vec F S256x784 .f32) (x1 : Vec F S4096x784 .bf16) (x2 : Vec F S1x4096 .f32) (x3 : Vec F S1x4096 .f32) (x4 : Vec F S1x4096 .f32) (x5 : Vec F S1x4096 .f32) (x6 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E (cc0__l1_kernel i arg1 harg1 arg2 harg2 arg3 harg3 arg4 harg4 arg5 harg5 arg6 harg6 arg7 harg7 arg8 harg8) K := by
  simp only [cc0__l1_kernel_eq_skeleton]; unfold cc0__l1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-! ## The pipeline's proof data -/

/-- The proof data of the layer's pipeline on core `c`: the arrays as the layer finds them; after the body at point `t`
    every operand's buffer at its block and the output's at the stored block; the invariant that leaves everything
    else untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => stored (blk V c 0 t) (blk V c 1 t) (blk V c 2 t) (blk V c 3 t) (blk V c 4 t) (blk V c 5 t) (blk V c 6 t)
  Φ _ := Pipeline.ΦA spec0 c
  q _ := fullShare
  owed _ := 0

/-- The arrays of the proof data are the contents the layer starts from. -/
theorem dat_A (c : Dev nD) (w : Fin cfg0.W) : (dat V c).A w = V c (Pipeline.arrRef spec0 w) := by
  dsimp only [dat]

theorem dat_after_in0 (c : Dev nD) (t : Fin cfg0.N) : (dat V c).after 0 t = blk V c 0 t := by dsimp only [dat]
theorem dat_after_in1 (c : Dev nD) (t : Fin cfg0.N) : (dat V c).after 1 t = blk V c 1 t := by dsimp only [dat]
theorem dat_after_in2 (c : Dev nD) (t : Fin cfg0.N) : (dat V c).after 2 t = blk V c 2 t := by dsimp only [dat]
theorem dat_after_in3 (c : Dev nD) (t : Fin cfg0.N) : (dat V c).after 3 t = blk V c 3 t := by dsimp only [dat]
theorem dat_after_in4 (c : Dev nD) (t : Fin cfg0.N) : (dat V c).after 4 t = blk V c 4 t := by dsimp only [dat]
theorem dat_after_in5 (c : Dev nD) (t : Fin cfg0.N) : (dat V c).after 5 t = blk V c 5 t := by dsimp only [dat]
theorem dat_after_in6 (c : Dev nD) (t : Fin cfg0.N) : (dat V c).after 6 t = blk V c 6 t := by dsimp only [dat]
/-- After the body the output's staging buffer holds the stored block of the operands' blocks. -/
theorem dat_after_out (c : Dev nD) (t : Fin cfg0.N) : (dat V c).after 7 t = stored (blk V c 0 t) (blk V c 1 t) (blk V c 2 t) (blk V c 3 t) (blk V c 4 t) (blk V c 5 t) (blk V c 6 t) := by
  dsimp only [dat]

/-! ## Every operand's staging buffer holds its block at every grid point

An operand whose block index does not move between two points is not fetched again; its buffer still holds the
block of the earlier point, which is the block of this one. -/

theorem before_in0 (c : Dev nD) (t : Fin cfg0.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_in1 (c : Dev nD) (t : Fin cfg0.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_in2 (c : Dev nD) (t : Fin cfg0.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)
theorem before_in3 (c : Dev nD) (t : Fin cfg0.N) (d) : (dat V c).before 3 t d = blk V c 3 t :=
  ((dat V c).before_in_eq_fetched 3 rfl (fun _ => rfl) (fun _ _ _ => rfl)
    (fun t => by rw [dat_after_in3]; unfold Dat.blockOf blk; rw [dat_A]; try rfl) t d).trans
    (by unfold Dat.fetched Dat.blockOf blk; rw [dat_A]; try rfl)
theorem before_in4 (c : Dev nD) (t : Fin cfg0.N) (d) : (dat V c).before 4 t d = blk V c 4 t :=
  ((dat V c).before_in_eq_fetched 4 rfl (fun _ => rfl) (fun _ _ _ => rfl)
    (fun t => by rw [dat_after_in4]; unfold Dat.blockOf blk; rw [dat_A]; try rfl) t d).trans
    (by unfold Dat.fetched Dat.blockOf blk; rw [dat_A]; try rfl)
theorem before_in5 (c : Dev nD) (t : Fin cfg0.N) (d) : (dat V c).before 5 t d = blk V c 5 t :=
  ((dat V c).before_in_eq_fetched 5 rfl (fun _ => rfl) (fun _ _ _ => rfl)
    (fun t => by rw [dat_after_in5]; unfold Dat.blockOf blk; rw [dat_A]; try rfl) t d).trans
    (by unfold Dat.fetched Dat.blockOf blk; rw [dat_A]; try rfl)
theorem before_in6 (c : Dev nD) (t : Fin cfg0.N) (d) : (dat V c).before 6 t d = blk V c 6 t :=
  ((dat V c).before_in_eq_fetched 6 rfl (fun _ => rfl) (fun _ _ _ => rfl)
    (fun t => by rw [dat_after_in6]; unfold Dat.blockOf blk; rw [dat_A]; try rfl) t d).trans
    (by unfold Dat.fetched Dat.blockOf blk; rw [dat_A]; try rfl)

/-! ## The body at a grid point -/

/-- What the pipeline hands the body at point `t`: the invariant, what is owed, and the 8 staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What the body hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 1000000 in
/-- At every grid point the operands' buffers hold their blocks, so the body's triple applies; the invariant and
    what is owed pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4, before_in5, before_in6]
  rw [show (dat V c).Φ t.succ = (dat V c).Φ t.castSucc from rfl,
    show (dat V c).owesAt () t.succ = (dat V c).owesAt () t.castSucc from rfl,
    dat_after_in0, dat_after_in1, dat_after_in2, dat_after_in3, dat_after_in4, dat_after_in5, dat_after_in6, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every grid point. -/
theorem body_obligation (c : Dev nD) : BodyObligation (dat (F := F) V c) (defs₀ (F := F)) Variants.none () Set.univ := fun t => by
  rw [bigSep_W0, bigSep_W0]
  exact sound_body V c t

end Cert.KernelIdeal.L1

end
-- ==== Proof.L2Frame.lean ====
import proofs.«112361_j47373489275136_2_alg».proof.Proof.Gen.KernelIdeal.Launch
import proofs.«112361_j47373489275136_2_alg».proof.Proof.Gen.KernelIdeal.Skeleton
import proofs.«112361_j47373489275136_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.L2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the grid -/

/-- The first conditional's test: the reduction coordinate is 0. -/
abbrev condZ (i : grid1.Coords) : Prop := (Scalar.cmpi .ne (Scalar.extui (Scalar.cmpi .eq (BitVec.ofNat 32 (i 2).val) 0#32)) 0#32) = 1#1
/-- The second conditional's test: the reduction coordinate is the last one. -/
abbrev condE (i : grid1.Coords) : Prop := k1_cond2 i = 1#1

theorem hcondZ : ∀ t : Fin cfg1.N, condZ (grid1.coords t) ↔ t.val % 2 = 0 :=
  (by decide +kernel : ∀ t : Fin grid1.N, condZ (grid1.coords t) ↔ t.val % 2 = 0)
theorem hcondE : ∀ t : Fin cfg1.N, condE (grid1.coords t) ↔ t.val % 2 = 1 :=
  (by decide +kernel : ∀ t : Fin grid1.N, condE (grid1.coords t) ↔ t.val % 2 = 1)

/-! ## The rectangles the body reads and writes through (each the whole buffer) -/
abbrev rA : Rect S1024x1024 := Rect.unit (s := S1024x1024) ![0, 0] S1024x1024.size inb_S1024x1024_S1024x1024_0_0
abbrev rX : Rect S1024x2048 := Rect.unit (s := S1024x2048) ![0, 0] S1024x2048.size inb_S1024x2048_S1024x2048_0_0
abbrev rV : Rect S1x1024 := Rect.unit (s := S1x1024) ![0, 0] S1x1024.size inb_S1x1024_S1x1024_0_0

/-- A store through the whole-buffer rectangle covers the buffer, whatever came before it. -/
theorem cover_rA {e : EltTy} (w : rA.shape.Idx → Elt F e) (L : List (View.Piece (Elt F) S1024x1024 e)) (y : S1024x1024.Idx) :
    ∃ p ∈ ((⟨rA, w⟩ : View.Piece (Elt F) S1024x1024 e) :: L), y ∈ p.1.set := by
  obtain ⟨p, hp, hy⟩ := View.cover_of_tiled [(⟨rA, w⟩ : View.Piece (Elt F) S1024x1024 e)] S1024x1024.size (by rfl) y
  rw [List.mem_singleton] at hp; subst hp
  exact ⟨_, List.mem_cons_self, hy⟩

/-- So what it leaves is its payload alone. -/
theorem canon_rA_cons {e : EltTy} (w : rA.shape.Idx → Elt F e) (L : List (View.Piece (Elt F) S1024x1024 e)) :
    View.canon ((⟨rA, w⟩ : View.Piece (Elt F) S1024x1024 e) :: L) = View.canon [⟨rA, w⟩] := by
  funext y
  obtain ⟨p, hp, hy⟩ := View.cover_of_tiled [(⟨rA, w⟩ : View.Piece (Elt F) S1024x1024 e)] S1024x1024.size (by rfl) y
  rw [List.mem_singleton] at hp; subst hp
  obtain ⟨x, rfl⟩ : ∃ x, rA.emb x = y := rA.exists_idx_of_mem hy
  rw [View.canon_cons_emb, View.canon_cons_emb]

theorem read_writes_rA {e : EltTy} (v : View sig .tc .vmem S1024x1024 e) (f : v.ty.Contents (Elt F)) (w : rA.shape.Idx → Elt F e)
    (L : List (View.Piece (Elt F) S1024x1024 e)) :
    v.read (Elt F) (v.writes (Elt F) f ((⟨rA, w⟩ : View.Piece (Elt F) S1024x1024 e) :: L)) = View.canon [⟨rA, w⟩] := by
  rw [View.read_writes_eq_canon v f _ (cover_rA w L), canon_rA_cons]

/-- Read back through the same rectangle, the payload. -/
theorem ld_canon_rA {e : EltTy} (w : rA.shape.Idx → Elt F e) :
    View.ld (View.canon [(⟨rA, w⟩ : View.Piece (Elt F) S1024x1024 e)]) rA = w := by
  funext x; exact View.canon_cons_emb rA w [] x

/-- One accumulation step: onto the partial sums `p` (as read from the scratch) the product of the two operand blocks. -/
def accStep (p : Vec F S1024x1024 .f32) (x0 x1 : Vec F S1024x2048 .bf16) : Vec F S1024x1024 .f32 :=
  View.canon [⟨rA, k1_pay2 p (View.ld x0 rX) (View.ld x1 rX)⟩]

/-- The output block: the epilogue over the finished sums `a` and the five parameter rows. -/
def stored (a : Vec F S1024x1024 .f32) (b mm vv g be : Vec F S1x1024 .f32) : Vec F S1024x1024 .bf16 :=
  View.canon [⟨rA, k1_pay3 (View.ld a rA) (View.ld b rV) (View.ld mm rV) (View.ld vv rV) (View.ld g rV) (View.ld be rV)⟩]

set_option maxHeartbeats 1000000 in
/-- At a point where the reduction starts: the scratch is zeroed, then holds the first product. -/
theorem run_first (c : Dev nD) (E : Set ℕ) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
    (hc0 : condZ i) (hc1 : ¬condE i)
    (x0 x1 : Vec F S1024x2048 .bf16) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1 ∗ owns (c : Thread nD τ) arg11 fullShare (accStep (k1_pay1 (F := F)) x0 x1)) -∗ K ⟨⟩))
      ⊢ wp frame (wpE (defs₀ (F := F)) Variants.none c none) E (cc1__l2_kernel i arg3 harg3 arg4 harg4 arg5 harg5 arg6 harg6 arg7 harg7 arg8 harg8 arg9 harg9 arg10 harg10 arg11 harg11) K := by
  simp only [cc1__l2_kernel_eq_skeleton]; unfold cc1__l2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_rA]
  sl_unfold_run_names
  rw [View.readCov_cons_toLoadRect]
  rfl

set_option maxHeartbeats 1000000 in
/-- At a point where the reduction ends: the scratch gains the last product, and the output block is computed from it. -/
theorem run_last (c : Dev nD) (E : Set ℕ) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
    (hc0 : ¬condZ i) (hc1 : condE i)
    (x0 x1 : Vec F S1024x2048 .bf16) (b g be mm vv : Vec F S1x1024 .f32) (prev : Vec F S1024x1024 .f32) (K : PUnit → sProp 𝕄) :
    iprop(owns (c : Thread nD τ) arg3 fullShare x0 ∗ owns (c : Thread nD τ) arg4 fullShare x1
        ∗ owns (c : Thread nD τ) arg5 fullShare b ∗ owns (c : Thread nD τ) arg6 fullShare g ∗ owns (c : Thread nD τ) arg7 fullShare be
        ∗ owns (c : Thread nD τ) arg8 fullShare mm ∗ owns (c : Thread nD τ) arg9 fullShare vv
        ∗ (∃ d, owns (c : Thread nD τ) arg10 fullShare d) ∗ owns (c : Thread nD τ) arg11 fullShare prev
        ∗ (iprop(owns (c : Thread nD τ) arg3 fullShare x0 ∗ owns (c : Thread nD τ) arg4 fullShare x1
            ∗ owns (c : Thread nD τ) arg5 fullShare b ∗ owns (c : Thread nD τ) arg6 fullShare g ∗ owns (c : Thread nD τ) arg7 fullShare be
            ∗ owns (c : Thread nD τ) arg8 fullShare mm ∗ owns (c : Thread nD τ) arg9 fullShare vv
            ∗ owns (c : Thread nD τ) arg10 fullShare (stored (accStep (View.ld prev rA) x0 x1) b mm vv g be)
            ∗ owns (c : Thread nD τ) arg11 fullShare (accStep (View.ld prev rA) x0 x1)) -∗ K ⟨⟩))
      ⊢ wp frame (wpE (defs₀ (F := F)) Variants.none c none) E (cc1__l2_kernel i arg3 harg3 arg4 harg4 arg5 harg5 arg6 harg6 arg7 harg7 arg8 harg8 arg9 harg9 arg10 harg10 arg11 harg11) K := by
  simp only [cc1__l2_kernel_eq_skeleton]; unfold cc1__l2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [read_writes_rA]
    rw [View.readCov_cons_toLoadRect]
    unfold stored accStep
    rw [ld_canon_rA]
    rfl
  iexists _; isplitr
  swap; · iexact HS
  ipureintro
  sl_unfold_run_names
  rw [read_writes_rA]
  rfl

/-! ## The region's entry contents, the windows' blocks, the accumulator point by point -/

section Region
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The partial sums the scratch holds after point `n`: restarted from zero where the reduction coordinate is 0,
    else continued from the point before. -/
def acc (c : Dev nD) : (n : ℕ) → n < cfg1.N → Vec F S1024x1024 .f32
  | 0, hn => accStep (k1_pay1 (F := F)) (blk V c 0 ⟨0, hn⟩) (blk V c 1 ⟨0, hn⟩)
  | n + 1, hn =>
    if (n + 1) % 2 = 0 then accStep (k1_pay1 (F := F)) (blk V c 0 ⟨n + 1, hn⟩) (blk V c 1 ⟨n + 1, hn⟩)
    else accStep (View.ld (acc c n (Nat.lt_of_succ_lt hn)) rA) (blk V c 0 ⟨n + 1, hn⟩) (blk V c 1 ⟨n + 1, hn⟩)

/-- Where the reduction starts: the first product alone. -/
theorem acc_even (c : Dev nD) (t : Fin cfg1.N) (h : t.val % 2 = 0) :
    acc V c t.val t.isLt = accStep (k1_pay1 (F := F)) (blk V c 0 t) (blk V c 1 t) := by
  obtain ⟨n, hn⟩ := t
  cases n with
  | zero => rfl
  | succ n => exact if_pos h

/-- Elsewhere: the sums of the point before plus this point's product. -/
theorem acc_odd (c : Dev nD) (t : Fin cfg1.N) (h : t.val % 2 = 1) :
    acc V c t.val t.isLt = accStep (View.ld (acc V c (t.val - 1) (Nat.lt_of_le_of_lt (Nat.sub_le _ _) t.isLt)) rA) (blk V c 0 t) (blk V c 1 t) := by
  obtain ⟨n, hn⟩ := t
  cases n with
  | zero => exact absurd h (by dsimp only; decide)
  | succ n => exact if_neg (fun h0 => by dsimp only at h h0; omega)

/-! ## The invariant -/

/-- The accumulator scratch as a memref: the whole buffer. -/
abbrev scM : Memref sig .tc .vmem S1024x1024 .f32 := Memref.whole cc1_scratch0

/-- The core's other scoped buffers that are no staging buffer of this region, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f))

theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r)) := by
  unfold Pipeline.ΦA; rw [scopedRest1_eq]; simp only [scM, owns_whole]; try rfl

/-- The region's entry invariant, the scratch's conjunct set apart. -/
theorem PhiA_split (c : Dev nD) :
    (Pipeline.ΦA spec1 c : sProp 𝕄) = iprop(others (F := F) c ∗ (∃ d, owns (c : Thread nD τ) scM fullShare d) ∗ (∃ r, prngReg c r)) := by
  rw [PhiA_eq]
  have h₁ : iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r))
      ⊢ (iprop(others (F := F) c ∗ (∃ d, owns (c : Thread nD τ) scM fullShare d) ∗ (∃ r, prngReg c r)) : sProp 𝕄) := by
    iintro ⟨⟨R0, R1, R2, R3, R4, R5, R6, R7, R8, R9, HS, R11, R12, R13, R14, R15, R16, R17, R18, R19, R20⟩, Hg⟩
    isplitl [R0 R1 R2 R3 R4 R5 R6 R7 R8 R9 R11 R12 R13 R14 R15 R16 R17 R18 R19 R20]
    · unfold others
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      iexact R20
    isplitl [HS]; · iexact HS
    iexact Hg
  have h₂ : (iprop(others (F := F) c ∗ (∃ d, owns (c : Thread nD τ) scM fullShare d) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r)) := by
    unfold others
    iintro ⟨⟨R0, R1, R2, R3, R4, R5, R6, R7, R8, R9, R11, R12, R13, R14, R15, R16, R17, R18, R19, R20⟩, HS, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS]; · iexact HS
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  exact BI.equiv_iff.mp ⟨h₁, h₂⟩

/-- Before point `n`: at the first point the entry invariant; afterwards the other scoped buffers at anything, the
    scratch at the sums the point before left, the generator register at some state. -/
def PhiS (c : Dev nD) : (n : ℕ) → n ≤ cfg1.N → sProp 𝕄
  | 0, _ => Pipeline.ΦA spec1 c
  | n + 1, hn => iprop(others (F := F) c ∗ owns (c : Thread nD τ) scM fullShare (acc V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (acc V c n hn) ∗ (∃ r, prngReg c r)) := rfl

theorem PhiS_pos (c : Dev nD) (n : ℕ) (h : n ≤ cfg1.N) (hz : n ≠ 0) :
    PhiS V c n h = iprop(others (F := F) c ∗ owns (c : Thread nD τ) scM fullShare (acc V c (n - 1) (by omega)) ∗ (∃ r, prngReg c r)) := by
  cases n with
  | zero => exact absurd rfl hz
  | succ n => rfl

/-- At any point the invariant gives the scratch at some contents. -/
theorem PhiS_weak (c : Dev nD) (n : ℕ) (h : n ≤ cfg1.N) :
    PhiS V c n h ⊢ iprop(others (F := F) c ∗ (∃ d, owns (c : Thread nD τ) scM fullShare d) ∗ (∃ r, prngReg c r)) := by
  cases n with
  | zero => rw [PhiS_zero V c 0 h rfl, PhiA_split]; try exact .rfl
  | succ n =>
    rw [PhiS_succ]
    iintro ⟨Hoth, HS, Hg⟩
    isplitl [Hoth]; · iexact Hoth
    isplitl [HS]; · iexists _; iexact HS
    iexact Hg

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => stored (acc V c t.val t.isLt) (blk V c 2 t) (blk V c 5 t) (blk V c 6 t) (blk V c 3 t) (blk V c 4 t)
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; try simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = stored (acc V c t.val t.isLt) (blk V c 2 t) (blk V c 5 t) (blk V c 6 t) (blk V c 3 t) (blk V c 4 t) := by dsimp only [dat]

/-- The output block after a point that ends a reduction. -/
theorem dat_after_out (c : Dev nD) (t : Fin cfg1.N) (ht : t.val % 2 = 1) :
    (dat V c).after 7 t = stored (acc V c t.val t.isLt) (blk V c 2 t) (blk V c 5 t) (blk V c 6 t) (blk V c 3 t) (blk V c 4 t) := after_7 V c t

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [dat_A]; try rfl) t d).trans
    (by unfold Dat.fetched Dat.blockOf blk; rw [dat_A]; try rfl)

/-! ## Where the windows are idle -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
theorem liveAt_5 : ∀ t : Fin cfg1.N, cfg1.idle 5 (grid1.coords t) = false := fun _ => rfl
theorem liveAt_6 : ∀ t : Fin cfg1.N, cfg1.idle 6 (grid1.coords t) = false := fun _ => rfl
theorem liveAt_7 : ∀ t : Fin cfg1.N, t.val % 2 = 1 → cfg1.idle 7 (grid1.coords t) = false := by decide +kernel
theorem idleAt_7 : ∀ t : Fin cfg1.N, t.val % 2 = 0 → cfg1.idle 7 (grid1.coords t) = true := by decide +kernel
theorem noFlush_7 : ∀ t : Fin cfg1.N, t.val % 2 = 0 → (cfg1.win 7).flush t = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [liveAt_0 t], after_0]
  rw [show (dat V c).leavesExact 1 t = owns (c : Thread nD τ) (st1_1 t) fullShare ((dat V c).after 1 t) from by
    unfold Dat.leavesExact; rw [liveAt_1 t], after_1]
  rw [show (dat V c).leavesExact 2 t = owns (c : Thread nD τ) (st1_2 t) fullShare ((dat V c).after 2 t) from by
    unfold Dat.leavesExact; rw [liveAt_2 t], after_2]
  rw [show (dat V c).leavesExact 3 t = owns (c : Thread nD τ) (st1_3 t) fullShare ((dat V c).after 3 t) from by
    unfold Dat.leavesExact; rw [liveAt_3 t], after_3]
  rw [show (dat V c).leavesExact 4 t = owns (c : Thread nD τ) (st1_4 t) fullShare ((dat V c).after 4 t) from by
    unfold Dat.leavesExact; rw [liveAt_4 t], after_4]
  rw [show (dat V c).leavesExact 5 t = owns (c : Thread nD τ) (st1_5 t) fullShare ((dat V c).after 5 t) from by
    unfold Dat.leavesExact; rw [liveAt_5 t], after_5]
  rw [show (dat V c).leavesExact 6 t = owns (c : Thread nD τ) (st1_6 t) fullShare ((dat V c).after 6 t) from by
    unfold Dat.leavesExact; rw [liveAt_6 t], after_6]
  rw [PhiS_castSucc]
  by_cases h : t.val % 2 = 0
  · have hZ : condZ (grid1.coords t) := (hcondZ t).mpr h
    have hE : ¬condE (grid1.coords t) := fun hh => by have := (hcondE t).mp hh; omega
    rw [Dat.leavesExact_idle (dat V c) 7 t (idleAt_7 t h) (noFlush_7 t h)]
    rw [acc_even V c t h]
    refine (sep_mono (PhiS_weak V c _ _) .rfl).trans ?_
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid1.coords t) _ _ _ _ _ _ _ _ _ _ _ _ _ _ _ _ _ _ hZ hE (blk V c 0 t) (blk V c 1 t) _)
    isplitl [H0]; · iexact H0
    isplitl [H1]; · iexact H1
    isplitl [HS]; · iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have h1 : t.val % 2 = 1 := by omega
    have hz : t.val ≠ 0 := fun h0 => by rw [h0] at h; exact h rfl
    have hZ : ¬condZ (grid1.coords t) := fun hh => h ((hcondZ t).mp hh)
    have hE : condE (grid1.coords t) := (hcondE t).mpr h1
    rw [show (dat V c).leavesExact 7 t = owns (c : Thread nD τ) (st1_7 t) fullShare ((dat V c).after 7 t) from by
      unfold Dat.leavesExact; rw [liveAt_7 t h1], after_7]
    rw [acc_odd V c t h1]
    rw [PhiS_pos V c _ _ hz]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c Set.univ (grid1.coords t) _ _ _ _ _ _ _ _ _ _ _ _ _ _ _ _ _ _ hZ hE (blk V c 0 t) (blk V c 1 t) (blk V c 2 t) (blk V c 3 t) (blk V c 4 t) (blk V c 5 t) (blk V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact .rfl

theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_split]
  exact PhiS_weak V c _ _

end Region

end Cert.KernelIdeal.L2

end
-- ==== Proof.L3Frame.lean ====
import proofs.«112361_j47373489275136_2_alg».proof.Proof.Gen.KernelIdeal.Launch
import proofs.«112361_j47373489275136_2_alg».proof.Proof.Gen.KernelIdeal.Skeleton
import proofs.«112361_j47373489275136_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third layer's grid: what one grid point does to its staging buffers

The third layer runs on a grid of 16 points. Each point reads a 1024x4096 block of the second layer's activations,
the whole 128x4096 sign-weight matrix (the ten output rows padded to 128) and five 1x128 rows (bias, scale, shift,
running mean, running variance), and stores one 1024x128 block of outputs. Every access is of a whole block, and the
output block is stored exactly once, so after the body the output's buffer holds that one stored block and the
operands' buffers are as they were. This file states that as the body's triple and hands the pipeline its obligation
at every grid point, for any contents `V` of the TensorCore's buffers at the start of the layer.
-/

-- membership in a rectangle with thousands of coordinates along an axis recurses once per coordinate
set_option maxRecDepth 16384

noncomputable section

namespace Cert.KernelIdeal.L3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the layer's grid starts
variable (V : (c : Dev nD) → (b : Ref sig .tc) → Buf (Elt F) ((c : Thread nD τ).loc b))

/-! ## The blocks the grid point works on -/

/-- The block of operand `w` that grid point `t` works on, cut out of the operand's array as the layer finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The whole-block accesses of the layer -/

/-- The whole 1024x4096 activation block. -/
abbrev rIn : Rect S1024x4096 := Rect.unit (s := S1024x4096) ![0, 0] S1024x4096.size inb_S1024x4096_S1024x4096_0_0
/-- The whole 128x4096 weight matrix. -/
abbrev rWt : Rect S128x4096 := Rect.unit (s := S128x4096) ![0, 0] S128x4096.size inb_S128x4096_S128x4096_0_0
/-- A whole 1x128 row. -/
abbrev rRow : Rect S1x128 := Rect.unit (s := S1x128) ![0, 0] S1x128.size inb_S1x128_S1x128_0_0
/-- The whole 1024x128 output block. -/
abbrev rOut : Rect S1024x128 := Rect.unit (s := S1024x128) ![0, 0] S1024x128.size inb_S1024x128_S1024x128_0_0

/-! ## The layer's output block -/

/-- The output block after the body, from the operands' blocks `x0` (activations), `x1` (weights), `x2` (bias), `x3`
    (scale), `x4` (shift), `x5` (running mean), `x6` (running variance): the single whole-block store of the layer's
    value. The value reads the rows in the order bias, mean, variance, scale, shift. -/
def stored (x0 : Vec F S1024x4096 .bf16) (x1 : Vec F S128x4096 .bf16) (x2 x3 x4 x5 x6 : Vec F S1x128 .f32) : Vec F S1024x128 .f32 :=
  View.canon [⟨rOut, k2_pay1 (View.ld x0 rIn) (View.ld x1 rWt) (View.ld x2 rRow) (View.ld x5 rRow) (View.ld x6 rRow) (View.ld x3 rRow) (View.ld x4 rRow)⟩]

/-- The one store is the whole block, so it covers it. -/
theorem stored_covers (p : Vec F S1024x128 .f32) (y : S1024x128.Idx) :
    ∃ pc ∈ ([⟨rOut, p⟩] : List (View.Piece (Elt F) S1024x128 .f32)), y ∈ pc.1.set :=
  View.cover_of_tiled [⟨rOut, p⟩] S1024x128.size (by rfl) y

/-! ## The layer's body on its staging buffers -/

set_option maxHeartbeats 4000000 in
/-- The body on whole staging buffers: the seven operands' buffers at contents `x0 … x6`, the output's at anything.
    It runs to a state where the operands' buffers are unchanged and the output's holds `stored x0 … x6`. The body
    loads the output buffer once before storing it; the loaded value is not used, so any contents do. -/
theorem sound_kernel (c : Dev nD) (E : Set ℕ) (i : grid2.Coords) (arg1 : Memref sig .tc .vmem S1024x4096 .bf16) (harg1 : arg1.IsWhole) (arg2 : Memref sig .tc .vmem S128x4096 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole)
    (x0 : Vec F S1024x4096 .bf16) (x1 : Vec F S128x4096 .bf16) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E (cc2__l3_kernel i arg1 harg1 arg2 harg2 arg3 harg3 arg4 harg4 arg5 harg5 arg6 harg6 arg7 harg7 arg8 harg8) K := by
  simp only [cc2__l3_kernel_eq_skeleton]; unfold cc2__l3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-! ## The pipeline's proof data -/

/-- The proof data of the layer's pipeline on core `c`: the arrays as the layer finds them; after the body at point `t`
    every operand's buffer at its block and the output's at the stored block; the invariant that leaves everything
    else untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => stored (blk V c 0 t) (blk V c 1 t) (blk V c 2 t) (blk V c 3 t) (blk V c 4 t) (blk V c 5 t) (blk V c 6 t)
  Φ _ := Pipeline.ΦA spec2 c
  q _ := fullShare
  owed _ := 0

/-- The arrays of the proof data are the contents the layer starts from. -/
theorem dat_A (c : Dev nD) (w : Fin cfg2.W) : (dat V c).A w = V c (Pipeline.arrRef spec2 w) := by
  dsimp only [dat]

theorem dat_after_in0 (c : Dev nD) (t : Fin cfg2.N) : (dat V c).after 0 t = blk V c 0 t := by dsimp only [dat]
theorem dat_after_in1 (c : Dev nD) (t : Fin cfg2.N) : (dat V c).after 1 t = blk V c 1 t := by dsimp only [dat]
theorem dat_after_in2 (c : Dev nD) (t : Fin cfg2.N) : (dat V c).after 2 t = blk V c 2 t := by dsimp only [dat]
theorem dat_after_in3 (c : Dev nD) (t : Fin cfg2.N) : (dat V c).after 3 t = blk V c 3 t := by dsimp only [dat]
theorem dat_after_in4 (c : Dev nD) (t : Fin cfg2.N) : (dat V c).after 4 t = blk V c 4 t := by dsimp only [dat]
theorem dat_after_in5 (c : Dev nD) (t : Fin cfg2.N) : (dat V c).after 5 t = blk V c 5 t := by dsimp only [dat]
theorem dat_after_in6 (c : Dev nD) (t : Fin cfg2.N) : (dat V c).after 6 t = blk V c 6 t := by dsimp only [dat]
/-- After the body the output's staging buffer holds the stored block of the operands' blocks. -/
theorem dat_after_out (c : Dev nD) (t : Fin cfg2.N) : (dat V c).after 7 t = stored (blk V c 0 t) (blk V c 1 t) (blk V c 2 t) (blk V c 3 t) (blk V c 4 t) (blk V c 5 t) (blk V c 6 t) := by
  dsimp only [dat]

/-! ## Every operand's staging buffer holds its block at every grid point

An operand whose block index does not move between two points is not fetched again; its buffer still holds the
block of the earlier point, which is the block of this one. -/

theorem before_in0 (c : Dev nD) (t : Fin cfg2.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_in1 (c : Dev nD) (t : Fin cfg2.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_in2 (c : Dev nD) (t : Fin cfg2.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)
theorem before_in3 (c : Dev nD) (t : Fin cfg2.N) (d) : (dat V c).before 3 t d = blk V c 3 t :=
  ((dat V c).before_in_eq_fetched 3 rfl (fun _ => rfl) (fun _ _ _ => rfl)
    (fun t => by rw [dat_after_in3]; unfold Dat.blockOf blk; rw [dat_A]; try rfl) t d).trans
    (by unfold Dat.fetched Dat.blockOf blk; rw [dat_A]; try rfl)
theorem before_in4 (c : Dev nD) (t : Fin cfg2.N) (d) : (dat V c).before 4 t d = blk V c 4 t :=
  ((dat V c).before_in_eq_fetched 4 rfl (fun _ => rfl) (fun _ _ _ => rfl)
    (fun t => by rw [dat_after_in4]; unfold Dat.blockOf blk; rw [dat_A]; try rfl) t d).trans
    (by unfold Dat.fetched Dat.blockOf blk; rw [dat_A]; try rfl)
theorem before_in5 (c : Dev nD) (t : Fin cfg2.N) (d) : (dat V c).before 5 t d = blk V c 5 t :=
  ((dat V c).before_in_eq_fetched 5 rfl (fun _ => rfl) (fun _ _ _ => rfl)
    (fun t => by rw [dat_after_in5]; unfold Dat.blockOf blk; rw [dat_A]; try rfl) t d).trans
    (by unfold Dat.fetched Dat.blockOf blk; rw [dat_A]; try rfl)
theorem before_in6 (c : Dev nD) (t : Fin cfg2.N) (d) : (dat V c).before 6 t d = blk V c 6 t :=
  ((dat V c).before_in_eq_fetched 6 rfl (fun _ => rfl) (fun _ _ _ => rfl)
    (fun t => by rw [dat_after_in6]; unfold Dat.blockOf blk; rw [dat_A]; try rfl) t d).trans
    (by unfold Dat.fetched Dat.blockOf blk; rw [dat_A]; try rfl)

/-! ## The body at a grid point -/

/-- What the pipeline hands the body at point `t`: the invariant, what is owed, and the 8 staging buffers. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- What the body hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

set_option maxHeartbeats 1000000 in
/-- At every grid point the operands' buffers hold their blocks, so the body's triple applies; the invariant and
    what is owed pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in0, before_in1, before_in2, before_in3, before_in4, before_in5, before_in6]
  rw [show (dat V c).Φ t.succ = (dat V c).Φ t.castSucc from rfl,
    show (dat V c).owesAt () t.succ = (dat V c).owesAt () t.castSucc from rfl,
    dat_after_in0, dat_after_in1, dat_after_in2, dat_after_in3, dat_after_in4, dat_after_in5, dat_after_in6, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every grid point. -/
theorem body_obligation (c : Dev nD) : BodyObligation (dat (F := F) V c) (defs₀ (F := F)) Variants.none () Set.univ := fun t => by
  rw [bigSep_W2, bigSep_W2]
  exact sound_body V c t

end Cert.KernelIdeal.L3

end
-- ==== Proof.RunCond.lean ====
/-
  The run of the three-region program with its final memory named buffer by buffer: the conditional form, over the
  regions' segment records. The frame (arguments unchanged) and the value of the result buffer are both read off it.
-/
import proofs.«112361_j47373489275136_2_alg».proof.Proof.Gen.KernelIdeal.Regions

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

set_option backward.isDefEq.respectTransparency.types false in
/-- The run of @main from the regions' records, with every unscoped buffer NAMED at the end: for any rest states the
    launch makes on every core and that end owing nothing, any contents the regions leave and any proof data, given per
    region a segment record entered from the thread state before it and left at the one after it, every weakly fair
    execution of @main from memory `m` with zero counters terminates, and in every final memory each unscoped
    buffer of core `c` holds the last valuation `V19 m outs c` — the result buffer among them. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V19 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, hpost1 c, .rfl, .rfl, .rfl, .rfl, .rfl, .rfl, .rfl, .rfl, .rfl, .rfl, .rfl, .rfl, hpre2 c, hpost2 c, sep_mono .rfl (hE3 c)⟩)
    (hinit := ?_) (QY := fun c s => ∀ b ∈ Pipeline.ucRefs τ sig, s.mem ((c : Thread nD τ).1, b) = V19 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

end Cert.KernelIdeal.Net

end
-- ==== Proof.Run.lean ====
/-
  The idealized program's run, region by region. Each of the three kernel regions is a segment of @main entered with the
  TensorCore's unscoped buffers at known contents and left with the output array of the region at the fold of its grid
  points' write-backs and every other buffer unchanged; the host stretches between them are the generated segments. The
  launch theorem for several regions then gives one run whose final memory is named buffer by buffer.
-/
import proofs.«112361_j47373489275136_2_alg».proof.Proof.L1Frame
import proofs.«112361_j47373489275136_2_alg».proof.Proof.L2Frame
import proofs.«112361_j47373489275136_2_alg».proof.Proof.L3Frame
import proofs.«112361_j47373489275136_2_alg».proof.Proof.RunCond

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core-indexed valuation read at the TensorCore's references: what a region's proof data take. -/
abbrev atTc (W : Dev nD → Valuation τ sig (Elt F)) : (c : Dev nD) → (b : Ref sig .tc) → Buf (Elt F) ((c : Thread nD τ).loc b) :=
  fun c b => W c b

/-! ## What the regions leave

Region 0 is entered at `V1 m` (the launch memory after the first host stretch); what it leaves decides region 1's entry
contents, and so on: the three definitions below are stacked in that order. -/

/-- After region 0: its arrays at what its pipeline leaves, every other buffer as entered. -/
def W2 (c : Dev nD) : Valuation τ sig (Elt F) :=
  Pipeline.withArrays spec0 c (V1 m c) fun w => (L1.dat (atTc (V1 m)) c).arrAt w cfg0.N
/-- The regions' leavings as far as region 0 decides them. -/
def o1 : Outs (F := F) := fun _ r c => W2 m c r
/-- After region 1, entered at `V3 m (o1 m)`. -/
def W4 (c : Dev nD) : Valuation τ sig (Elt F) :=
  Pipeline.withArrays spec1 c (V3 m (o1 m) c) fun w => (L2.dat (atTc (V3 m (o1 m))) c).arrAt w cfg1.N
/-- The regions' leavings as far as regions 0 and 1 decide them. -/
def o2 : Outs (F := F) := fun J r c => if J = 2 then W2 m c r else W4 m c r
/-- After region 2, entered at `V17 m (o2 m)`. -/
def W18 (c : Dev nD) : Valuation τ sig (Elt F) :=
  Pipeline.withArrays spec2 c (V17 m (o2 m) c) fun w => (L3.dat (atTc (V17 m (o2 m))) c).arrAt w cfg2.N
/-- What each region leaves in the buffer it may change. -/
def outs : Outs (F := F) := fun J r c => if J = 2 then W2 m c r else if J = 4 then W4 m c r else W18 m c r

/-- Region 1's entry contents depend on the leavings only through region 0's. -/
theorem V3_outs (c : Dev nD) : V3 m (outs m) c = V3 m (o1 m) c := rfl
/-- Region 2's entry contents depend on the leavings only through those of regions 0 and 1. -/
theorem V17_outs (c : Dev nD) : V17 m (outs m) c = V17 m (o2 m) c := rfl

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => L1.dat (atTc (V1 m)) c
  | ⟨1, _⟩ => fun c => L2.dat (atTc (V3 m (o1 m))) c
  | ⟨2, _⟩ => fun c => L3.dat (atTc (V17 m (o2 m))) c

/-- No core owes another anything: no level is assigned. -/
abbrev noLv : GSem nD τ sig → Finset Unit := fun _ => ∅
abbrev zeroLv : GSem nD τ sig → Unit → ℕ := fun _ _ => 0
/-- Beside the buffers, through every segment: the core's generator register at some state, and the core owing nothing. -/
abbrev rest (c : Dev nD) : sProp 𝕄 := iprop((∃ r, prngReg c r) ∗ ∃ W, owes (c : Thread nD τ) (0 : CellTallies nD τ sig Unit) W)

/-! ## Each region's exit contents against its entry contents -/

/-- A buffer region 0 does not write holds after it what it held at the region's entry. -/
theorem toIn0 (c : Dev nD) (r : Ref sig .tc) (h : r ∉ ([main_v9] : List (Ref sig .tc))) :
    atTc (V2 m (outs m)) c r = atTc (V1 m) c r :=
  (V2_of m (outs m) c r h).trans rfl

/-- After region 0 each of its arrays holds what the pipeline leaves: an input's array its entry contents, the
    output's array the fold of the write-backs. -/
theorem left0 (c : Dev nD) (w : Fin cfg0.W) :
    (pdats m 0 c).arrAt w cfg0.N = atTc (V2 m (outs m)) c (Pipeline.arrRef spec0 w) := by
  have hin : ∀ w : Fin cfg0.W, (cfg0.win w).isOut = false → Pipeline.arrRef spec0 w ∉ ([main_v9] : List (Ref sig .tc)) →
      (pdats m 0 c).arrAt w cfg0.N = atTc (V2 m (outs m)) c (Pipeline.arrRef spec0 w) := fun w hw hne =>
    ((pdats m 0 c).arrAt_in w hw _).trans ((L1.dat_A (atTc (V1 m)) c w).trans (toIn0 m c (Pipeline.arrRef spec0 w) hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show _ = V2 m (outs m) c (Proc.devRef .tc main_v9)
    simp only [V2, Function.update_self]
    show _ = W2 m c (Proc.devRef .tc main_v9)
    unfold W2
    exact (Pipeline.withArrays_arr spec0 launch0.win.arr_inj c (V1 m c) (fun w => (L1.dat (atTc (V1 m)) c).arrAt w cfg0.N) 7).symm

/-- Every buffer that is no array of region 0's windows is as the region found it. -/
theorem kept0 (c : Dev nD) : ∀ b, b ∉ Finset.univ.image (Pipeline.arrRef spec0) → atTc (V2 m (outs m)) c b = atTc (V1 m) c b :=
  fun b hb => toIn0 m c b (by
    intro hmem
    rw [List.mem_singleton] at hmem
    exact hb (hmem ▸ Finset.mem_image.mpr ⟨7, Finset.mem_univ _, rfl⟩))

/-- A buffer region 1 does not write holds after it what it held at the region's entry. -/
theorem toIn1 (c : Dev nD) (r : Ref sig .tc) (h : r ∉ ([main_v15] : List (Ref sig .tc))) :
    atTc (V4 m (outs m)) c r = atTc (V3 m (o1 m)) c r :=
  (V4_of m (outs m) c r h).trans (congrFun (V3_outs m c) _)

/-- After region 1 each of its arrays holds what the pipeline leaves: an input's array its entry contents, the
    output's array the fold of the write-backs. -/
theorem left1 (c : Dev nD) (w : Fin cfg1.W) :
    (pdats m 1 c).arrAt w cfg1.N = atTc (V4 m (outs m)) c (Pipeline.arrRef spec1 w) := by
  have hin : ∀ w : Fin cfg1.W, (cfg1.win w).isOut = false → Pipeline.arrRef spec1 w ∉ ([main_v15] : List (Ref sig .tc)) →
      (pdats m 1 c).arrAt w cfg1.N = atTc (V4 m (outs m)) c (Pipeline.arrRef spec1 w) := fun w hw hne =>
    ((pdats m 1 c).arrAt_in w hw _).trans ((L2.dat_A (atTc (V3 m (o1 m))) c w).trans (toIn1 m c (Pipeline.arrRef spec1 w) hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show _ = V4 m (outs m) c (Proc.devRef .tc main_v15)
    simp only [V4, Function.update_self]
    show _ = W4 m c (Proc.devRef .tc main_v15)
    unfold W4
    exact (Pipeline.withArrays_arr spec1 launch1.win.arr_inj c (V3 m (o1 m) c) (fun w => (L2.dat (atTc (V3 m (o1 m))) c).arrAt w cfg1.N) 7).symm

/-- Every buffer that is no array of region 1's windows is as the region found it. -/
theorem kept1 (c : Dev nD) : ∀ b, b ∉ Finset.univ.image (Pipeline.arrRef spec1) → atTc (V4 m (outs m)) c b = atTc (V3 m (o1 m)) c b :=
  fun b hb => toIn1 m c b (by
    intro hmem
    rw [List.mem_singleton] at hmem
    exact hb (hmem ▸ Finset.mem_image.mpr ⟨7, Finset.mem_univ _, rfl⟩))

/-- A buffer region 2 does not write holds after it what it held at the region's entry. -/
theorem toIn2 (c : Dev nD) (r : Ref sig .tc) (h : r ∉ ([main_v29] : List (Ref sig .tc))) :
    atTc (V18 m (outs m)) c r = atTc (V17 m (o2 m)) c r :=
  (V18_of m (outs m) c r h).trans (congrFun (V17_outs m c) _)

/-- After region 2 each of its arrays holds what the pipeline leaves: an input's array its entry contents, the
    output's array the fold of the write-backs. -/
theorem left2 (c : Dev nD) (w : Fin cfg2.W) :
    (pdats m 2 c).arrAt w cfg2.N = atTc (V18 m (outs m)) c (Pipeline.arrRef spec2 w) := by
  have hin : ∀ w : Fin cfg2.W, (cfg2.win w).isOut = false → Pipeline.arrRef spec2 w ∉ ([main_v29] : List (Ref sig .tc)) →
      (pdats m 2 c).arrAt w cfg2.N = atTc (V18 m (outs m)) c (Pipeline.arrRef spec2 w) := fun w hw hne =>
    ((pdats m 2 c).arrAt_in w hw _).trans ((L3.dat_A (atTc (V17 m (o2 m))) c w).trans (toIn2 m c (Pipeline.arrRef spec2 w) hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show _ = V18 m (outs m) c (Proc.devRef .tc main_v29)
    simp only [V18, Function.update_self]
    show _ = W18 m c (Proc.devRef .tc main_v29)
    unfold W18
    exact (Pipeline.withArrays_arr spec2 launch2.win.arr_inj c (V17 m (o2 m) c) (fun w => (L3.dat (atTc (V17 m (o2 m))) c).arrAt w cfg2.N) 7).symm

/-- Every buffer that is no array of region 2's windows is as the region found it. -/
theorem kept2 (c : Dev nD) : ∀ b, b ∉ Finset.univ.image (Pipeline.arrRef spec2) → atTc (V18 m (outs m)) c b = atTc (V17 m (o2 m)) c b :=
  fun b hb => toIn2 m c b (by
    intro hmem
    rw [List.mem_singleton] at hmem
    exact hb (hmem ▸ Finset.mem_image.mpr ⟨7, Finset.mem_univ _, rfl⟩))

/-! ## The regions as segments -/

set_option backward.isDefEq.respectTransparency.types false in
/-- Region 0 as a segment: entered with every unscoped buffer at `V1`, left with them at `V2`. Its windows'
    arrays are split out of the unscoped buffers at entry and put back at exit, the output's array then holding the
    fold of the points' write-backs; the generator register goes into the body's invariant and comes back; nothing is owed. -/
def reg0 : Pipeline.RegionSeg (pcfgs (F := F)) adm (pdats m) () defs₀ Variants.none noLv zeroLv 0 where
  win := launch0.win.to₀
  block_pos := launch0.block_pos
  stage_whole := launch0.stage_whole
  K := PEmpty
  osem k := k.elim
  ho := Pipeline.OwnSemFacts.none _
  hbody c := (L1.body_obligation (atTc (V1 m)) c).loose
  hwaits := Pipeline.hwaits_of_owed_zero _ _ _ _ noLv zeroLv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outs m)) c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `V3`, left with them at `V4`. Its windows'
    arrays are split out of the unscoped buffers at entry and put back at exit, the output's array then holding the
    fold of the points' write-backs; the generator register goes into the body's invariant and comes back; nothing is owed. -/
def reg1 : Pipeline.RegionSeg (pcfgs (F := F)) adm (pdats m) () defs₀ Variants.none noLv zeroLv 1 where
  win := launch1.win.to₀
  block_pos := launch1.block_pos
  stage_whole := launch1.stage_whole
  K := PEmpty
  osem k := k.elim
  ho := Pipeline.OwnSemFacts.none _
  hbody c := (L2.body_obligation (atTc (V3 m (o1 m))) c).loose
  hwaits := Pipeline.hwaits_of_owed_zero _ _ _ _ noLv zeroLv 1 fun _ _ => rfl
  pre c := iprop(StableHlo.held (c : Thread nD τ) (Pipeline.ucRefs τ sig) (V3 m (o1 m) c) ∗ rest c)
  post c := iprop(StableHlo.held (c : Thread nD τ) (Pipeline.ucRefs τ sig) (V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atTc (V3 m (o1 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V3 m (o1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (L2.hin (atTc (V3 m (o1 m))) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (L2.hout (atTc (V3 m (o1 m))) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V3 m (o1 m)) c) (atTc (V4 m (outs m)) c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `V17`, left with them at `V18`. Its windows'
    arrays are split out of the unscoped buffers at entry and put back at exit, the output's array then holding the
    fold of the points' write-backs; the generator register goes into the body's invariant and comes back; nothing is owed. -/
def reg2 : Pipeline.RegionSeg (pcfgs (F := F)) adm (pdats m) () defs₀ Variants.none noLv zeroLv 2 where
  win := launch2.win.to₀
  block_pos := launch2.block_pos
  stage_whole := launch2.stage_whole
  K := PEmpty
  osem k := k.elim
  ho := Pipeline.OwnSemFacts.none _
  hbody c := (L3.body_obligation (atTc (V17 m (o2 m))) c).loose
  hwaits := Pipeline.hwaits_of_owed_zero _ _ _ _ noLv zeroLv 2 fun _ _ => rfl
  pre c := iprop(StableHlo.held (c : Thread nD τ) (Pipeline.ucRefs τ sig) (V17 m (o2 m) c) ∗ rest c)
  post c := iprop(StableHlo.held (c : Thread nD τ) (Pipeline.ucRefs τ sig) (V18 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (atTc (V17 m (o2 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V17 m (o2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V17 m (o2 m)) c) (atTc (V18 m (outs m)) c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Every weakly fair execution of the idealized program from `m` terminates, faulting nowhere, and in every final memory
    each unscoped buffer of core `c` holds the last valuation, `V19 m (outs m) c`. -/
theorem run : θ_run defs (onTc (τ := τ) (main (F := F))) ⟨m, fun _ => 0, ρ⟩ (fun r => ∀ c : Dev nD,
      ∀ b ∈ Pipeline.ucRefs τ sig, r.2.mem ((c : Thread nD τ).1, b) = V19 m (outs m) c b) :=
  run_cond m emb₁ () Variants.none noLv zeroLv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => rest)
    (by
      have h1 : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) ⊢ (rest c : sProp 𝕄) := fun c => by
        iintro ⟨-, HO, -, Hp, -⟩
        isplitl [Hp]; · iexists _; iexact Hp
        iexists ∅; iexact HO
      have h2 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄))) ⊢ (bigSep Finset.univ rest : sProp 𝕄) :=
        bigSep_mono fun c _ => h1 c
      iintro ⟨H, -⟩
      imodintro
      iapply h2
      iexact H)
    (fun c => by iintro ⟨-, HO⟩; iexact HO)
    (reg0 m) (fun c => .rfl) (fun c => .rfl)
    (reg1 m) (fun c => by rw [V3_outs]; exact .rfl) (fun c => .rfl)
    (reg2 m) (fun c => by rw [V17_outs]; exact .rfl) (fun c => .rfl)

end Cert.KernelIdeal.Net

end
-- ==== Proof.KL1Frame.lean ====
import proofs.«112361_j47373489275136_2_alg».proof.Proof.Gen.Kernel.Launch
import proofs.«112361_j47373489275136_2_alg».proof.Proof.Gen.Kernel.Skeleton
import proofs.«112361_j47373489275136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The first layer's grid: what one grid point does to its staging buffers

The first layer runs on a grid of 64 points. Each point reads a 256x784 block of the input, the whole 4096x784
sign-weight matrix and five 1x4096 rows (bias, scale, shift, running mean, running variance), and stores one 256x4096
block of activations. Every access is of a whole block, and the output block is stored exactly once, so after the
body the output's buffer holds that one stored block and the operands' buffers are as they were. This file states
that as the body's triple and hands the pipeline its obligation at every grid point, for any contents `V` of the
TensorCore's buffers at the start of the layer.
-/

-- membership in a rectangle with thousands of coordinates along an axis recurses once per coordinate
set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- what the TensorCore's buffers hold when the layer's grid starts
variable (V : (c : Dev nD) → (b : Ref sig .tc) → Buf (Elt F) ((c : Thread nD τ).loc b))

/-! ## The blocks the grid point works on -/

/-- The block of operand `w` that grid point `t` works on, cut out of the operand's array as the layer finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The whole-block accesses of the layer -/

/-- The whole 256x784 input block. -/
abbrev rIn : Rect S256x784 := Rect.unit (s := S256x784) ![0, 0] S256x784.size inb_S256x784_S256x784_0_0
/-- The whole 4096x784 weight matrix. -/
abbrev rWt : Rect S4096x784 := Rect.unit (s := S4096x784) ![0, 0] S4096x784.size inb_S4096x784_S4096x784_0_0
/-- A whole 1x4096 row. -/
abbrev rRow : Rect S1x4096 := Rect.unit (s := S1x4096) ![0, 0] S1x4096.size inb_S1x4096_S1x4096_0_0
/-- The whole 256x4096 output block. -/
abbrev rOut : Rect S256x4096 := Rect.unit (s := S256x4096) ![0, 0] S256x4096.size inb_S256x4096_S256x4096_0_0

/-! ## The layer's output block -/

/-- The output block after the body, from the operands' blocks `x0` (input), `x1` (weights), `x2` (bias), `x3` (scale),
    `x4` (shift), `x5` (running mean), `x6` (running variance): the single whole-block store of the layer's value. The
    value reads the rows in the order bias, mean, variance, scale, shift. -/
def stored (x0 : Vec F S256x784 .f32) (x1 : Vec F S4096x784 .bf16) (x2 x3 x4 x5 x6 : Vec F S1x4096 .f32) : Vec F S256x4096 .bf16 :=
  View.canon [⟨rOut, k0_pay1 (k0_pay2 (View.ld x0 rIn) (View.ld x1 rWt) (View.ld x2 rRow) (View.ld x5 rRow) (View.ld x6 rRow) (View.ld x3 rRow) (View.ld x4 rRow)) (k0_pay3 (View.ld x0 rIn) (View.ld x1 rWt) (View.ld x2 rRow) (View.ld x5 rRow) (View.ld x6 rRow) (View.ld x3 rRow) (View.ld x4 rRow))⟩]

/-- The one store is the whole block, so it covers it. -/
theorem stored_covers (p : Vec F S256x4096 .bf16) (y : S256x4096.Idx) :
    ∃ pc ∈ ([⟨rOut, p⟩] : List (View.Piece (Elt F) S256x4096 .bf16)), y ∈ pc.1.set :=
  View.cover_of_tiled [⟨rOut, p⟩] S256x4096.size (by rfl) y

/-! ## The layer's body on its staging buffers -/

set_option maxHeartbeats 4000000 in
/-- The body on whole staging buffers: the seven operands' buffers at contents `x0 … x6`, the output's at anything.
    It runs to a state where the operands' buffers are unchanged and the output's holds `stored x0 … x6`. The body
    loads the output buffer once before storing it; the loaded value is not used, so any contents do. -/
theorem sound_kernel (c : Dev nD) (E : Set ℕ) (i : grid0.Coords) (arg1 : Memref sig .tc .vmem S256x784 .f32) (harg1 : arg1.IsWhole) (arg2 : Memref sig .tc .vmem S4096x784 .bf16) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .bf16) (harg8 : arg8.IsWhole)
    (x0 : Vec F S256x784 .f32) (x1 : Vec F S4096x784 .bf16) (x2 : Vec F S1x4096 .f32) (x3 : Vec F S1x4096 .f32) (x4 : Vec F S1x4096 .f32) (x5 : Vec F S1x4096 .f32) (x6 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E (cc0__l1_kernel i arg1 harg1 arg2 harg2 arg3 harg3 arg4 harg4 arg5 harg5 arg6 harg6 arg7 harg7 arg8 harg8) K := by
  simp only [cc0__l1_kernel_eq_skeleton]; unfold cc0__l1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-! ## The pipeline's proof data -/

/-- The proof data of the layer's pipeline on core `c`: the arrays as the layer finds them; after the body at point `t`
    every operand's buffer at its block and the output's at the stored block; the invariant that leaves everything
    else untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => stored (blk V c 0 t) (blk V c 1 t) (blk V c 2 t) (blk V c 3 t) (blk V c 4 t) (blk V c 5 t) (blk V c 6 t)
  Φ _ := Pipeline.ΦA spec0 c
  q _ := fullShare
  owed _ := 0

/-- The arrays of the proof data are the contents the layer starts from. -/
theorem dat_A (c : Dev nD) (w : Fin cfg0.W) : (dat V c).A w = V c (Pipeline.arrRef spec0 w) := by
  dsimp only [dat]

theorem dat_after_in0 (c : Dev nD) (t : Fin cfg0.N) : (dat V c).after 0 t = blk V c 0 t := by dsimp only [dat]
theorem dat_after_in1 (c : Dev nD) (t : Fin cfg0.N) : (dat V c).after 1 t = blk V c 1 t := by dsimp only [dat]
theorem dat_after_in2 (c : Dev nD) (t : Fin cfg0.N) : (dat V c).after 2 t = blk V c 2 t := by dsimp only [dat]
theorem dat_after_in3 (c : Dev nD) (t : Fin cfg0.N) : (dat V c).after 3 t = blk V c 3 t := by dsimp only [dat]
theorem dat_after_in4 (c : Dev nD) (t : Fin cfg0.N) : (dat V c).after 4 t = blk V c 4 t := by dsimp only [dat]
theorem dat_after_in5 (c : Dev nD) (t : Fin cfg0.N) : (dat V c).after 5 t = blk V c 5 t := by dsimp only [dat]
theorem dat_after_in6 (c : Dev nD) (t : Fin cfg0.N) : (dat V c).after 6 t = blk V c 6 t := by dsimp only [dat]
/-- After the body the output's staging buffer holds the stored block of the operands' blocks. -/
theorem dat_after_out (c : Dev nD) (t : Fin cfg0.N) : (dat V c).after 7 t = stored (blk V c 0 t) (blk V c 1 t) (blk V c 2 t) (blk V c 3 t) (blk V c 4 t) (blk V c 5 t) (blk V c 6 t) := by
  dsimp only [dat]

/-! ## Every operand's staging buffer holds its block at every grid point

An operand whose block index does not move between two points is not fetched again; its buffer still holds the
block of the earlier point, which is the block of this one. -/

theorem before_in0 (c : Dev nD) (t : Fin cfg0.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_in1 (c : Dev nD) (t : Fin cfg0.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_in2 (c : Dev nD) (t : Fin cfg0.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)
theorem before_in3 (c : Dev nD) (t : Fin cfg0.N) (d) : (dat V c).before 3 t d = blk V c 3 t :=
  ((dat V c).before_in_eq_fetched 3 rfl (fun _ => rfl) (fun _ _ _ => rfl)
    (fun t => by rw [dat_after_in3]; unfold Dat.blockOf blk; rw [dat_A]; try rfl) t d).trans
    (by unfold Dat.fetched Dat.blockOf blk; rw [dat_A]; try rfl)
theorem before_in4 (c : Dev nD) (t : Fin cfg0.N) (d) : (dat V c).before 4 t d = blk V c 4 t :=
  ((dat V c).before_in_eq_fetched 4 rfl (fun _ => rfl) (fun _ _ _ => rfl)
    (fun t => by rw [dat_after_in4]; unfold Dat.blockOf blk; rw [dat_A]; try rfl) t d).trans
    (by unfold Dat.fetched Dat.blockOf blk; rw [dat_A]; try rfl)
theorem before_in5 (c : Dev nD) (t : Fin cfg0.N) (d) : (dat V c).before 5 t d = blk V c 5 t :=
  ((dat V c).before_in_eq_fetched 5 rfl (fun _ => rfl) (fun _ _ _ => rfl)
    (fun t => by rw [dat_after_in5]; unfold Dat.blockOf blk; rw [dat_A]; try rfl) t d).trans
    (by unfold Dat.fetched Dat.blockOf blk; rw [dat_A]; try rfl)
theorem before_in6 (c : Dev nD) (t : Fin cfg0.N) (d) : (dat V c).before 6 t d = blk V c 6 t :=
  ((dat V c).before_in_eq_fetched 6 rfl (fun _ => rfl) (fun _ _ _ => rfl)
    (fun t => by rw [dat_after_in6]; unfold Dat.blockOf blk; rw [dat_A]; try rfl) t d).trans
    (by unfold Dat.fetched Dat.blockOf blk; rw [dat_A]; try rfl)

/-! ## The body at a grid point -/

/-- What the pipeline hands the body at point `t`: the invariant, what is owed, and the 8 staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What the body hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 1000000 in
/-- At every grid point the operands' buffers hold their blocks, so the body's triple applies; the invariant and
    what is owed pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4, before_in5, before_in6]
  rw [show (dat V c).Φ t.succ = (dat V c).Φ t.castSucc from rfl,
    show (dat V c).owesAt () t.succ = (dat V c).owesAt () t.castSucc from rfl,
    dat_after_in0, dat_after_in1, dat_after_in2, dat_after_in3, dat_after_in4, dat_after_in5, dat_after_in6, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every grid point. -/
theorem body_obligation (c : Dev nD) : BodyObligation (dat (F := F) V c) (defs₀ (F := F)) Variants.none () Set.univ := fun t => by
  rw [bigSep_W0, bigSep_W0]
  exact sound_body V c t

end Cert.Kernel.L1

end
-- ==== Proof.KL2Frame.lean ====
import proofs.«112361_j47373489275136_2_alg».proof.Proof.Gen.Kernel.Launch
import proofs.«112361_j47373489275136_2_alg».proof.Proof.Gen.Kernel.Skeleton
import proofs.«112361_j47373489275136_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.L2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions, in closed form over the grid -/

/-- The first conditional's test: the reduction coordinate is 0. -/
abbrev condZ (i : grid1.Coords) : Prop := (Scalar.cmpi .ne (Scalar.extui (Scalar.cmpi .eq (BitVec.ofNat 32 (i 2).val) 0#32)) 0#32) = 1#1
/-- The second conditional's test: the reduction coordinate is the last one. -/
abbrev condE (i : grid1.Coords) : Prop := k1_cond2 i = 1#1

theorem hcondZ : ∀ t : Fin cfg1.N, condZ (grid1.coords t) ↔ t.val % 2 = 0 :=
  (by decide +kernel : ∀ t : Fin grid1.N, condZ (grid1.coords t) ↔ t.val % 2 = 0)
theorem hcondE : ∀ t : Fin cfg1.N, condE (grid1.coords t) ↔ t.val % 2 = 1 :=
  (by decide +kernel : ∀ t : Fin grid1.N, condE (grid1.coords t) ↔ t.val % 2 = 1)

/-! ## The rectangles the body reads and writes through (each the whole buffer) -/
abbrev rA : Rect S1024x1024 := Rect.unit (s := S1024x1024) ![0, 0] S1024x1024.size inb_S1024x1024_S1024x1024_0_0
abbrev rX : Rect S1024x2048 := Rect.unit (s := S1024x2048) ![0, 0] S1024x2048.size inb_S1024x2048_S1024x2048_0_0
abbrev rV : Rect S1x1024 := Rect.unit (s := S1x1024) ![0, 0] S1x1024.size inb_S1x1024_S1x1024_0_0

/-- A store through the whole-buffer rectangle covers the buffer, whatever came before it. -/
theorem cover_rA {e : EltTy} (w : rA.shape.Idx → Elt F e) (L : List (View.Piece (Elt F) S1024x1024 e)) (y : S1024x1024.Idx) :
    ∃ p ∈ ((⟨rA, w⟩ : View.Piece (Elt F) S1024x1024 e) :: L), y ∈ p.1.set := by
  obtain ⟨p, hp, hy⟩ := View.cover_of_tiled [(⟨rA, w⟩ : View.Piece (Elt F) S1024x1024 e)] S1024x1024.size (by rfl) y
  rw [List.mem_singleton] at hp; subst hp
  exact ⟨_, List.mem_cons_self, hy⟩

/-- So what it leaves is its payload alone. -/
theorem canon_rA_cons {e : EltTy} (w : rA.shape.Idx → Elt F e) (L : List (View.Piece (Elt F) S1024x1024 e)) :
    View.canon ((⟨rA, w⟩ : View.Piece (Elt F) S1024x1024 e) :: L) = View.canon [⟨rA, w⟩] := by
  funext y
  obtain ⟨p, hp, hy⟩ := View.cover_of_tiled [(⟨rA, w⟩ : View.Piece (Elt F) S1024x1024 e)] S1024x1024.size (by rfl) y
  rw [List.mem_singleton] at hp; subst hp
  obtain ⟨x, rfl⟩ : ∃ x, rA.emb x = y := rA.exists_idx_of_mem hy
  rw [View.canon_cons_emb, View.canon_cons_emb]

theorem read_writes_rA {e : EltTy} (v : View sig .tc .vmem S1024x1024 e) (f : v.ty.Contents (Elt F)) (w : rA.shape.Idx → Elt F e)
    (L : List (View.Piece (Elt F) S1024x1024 e)) :
    v.read (Elt F) (v.writes (Elt F) f ((⟨rA, w⟩ : View.Piece (Elt F) S1024x1024 e) :: L)) = View.canon [⟨rA, w⟩] := by
  rw [View.read_writes_eq_canon v f _ (cover_rA w L), canon_rA_cons]

/-- Read back through the same rectangle, the payload. -/
theorem ld_canon_rA {e : EltTy} (w : rA.shape.Idx → Elt F e) :
    View.ld (View.canon [(⟨rA, w⟩ : View.Piece (Elt F) S1024x1024 e)]) rA = w := by
  funext x; exact View.canon_cons_emb rA w [] x

/-- One accumulation step: onto the partial sums `p` (as read from the scratch) the product of the two operand blocks. -/
def accStep (p : Vec F S1024x1024 .f32) (x0 x1 : Vec F S1024x2048 .bf16) : Vec F S1024x1024 .f32 :=
  View.canon [⟨rA, k1_pay2 p (View.ld x0 rX) (View.ld x1 rX)⟩]

/-- The output block: the epilogue over the finished sums `a` and the five parameter rows. -/
def stored (a : Vec F S1024x1024 .f32) (b mm vv g be : Vec F S1x1024 .f32) : Vec F S1024x1024 .bf16 :=
  View.canon [⟨rA, k1_pay3 (View.ld a rA) (View.ld b rV) (View.ld mm rV) (View.ld vv rV) (View.ld g rV) (View.ld be rV)⟩]

set_option maxHeartbeats 1000000 in
/-- At a point where the reduction starts: the scratch is zeroed, then holds the first product. -/
theorem run_first (c : Dev nD) (E : Set ℕ) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
    (hc0 : condZ i) (hc1 : ¬condE i)
    (x0 x1 : Vec F S1024x2048 .bf16) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1 ∗ owns (c : Thread nD τ) arg11 fullShare (accStep (k1_pay1 (F := F)) x0 x1)) -∗ K ⟨⟩))
      ⊢ wp frame (wpE (defs₀ (F := F)) Variants.none c none) E (cc1__l2_kernel i arg3 harg3 arg4 harg4 arg5 harg5 arg6 harg6 arg7 harg7 arg8 harg8 arg9 harg9 arg10 harg10 arg11 harg11) K := by
  simp only [cc1__l2_kernel_eq_skeleton]; unfold cc1__l2_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_rA]
  sl_unfold_run_names
  rw [View.readCov_cons_toLoadRect]
  rfl

set_option maxHeartbeats 1000000 in
/-- At a point where the reduction ends: the scratch gains the last product, and the output block is computed from it. -/
theorem run_last (c : Dev nD) (E : Set ℕ) (i : grid1.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)
    (hc0 : ¬condZ i) (hc1 : condE i)
    (x0 x1 : Vec F S1024x2048 .bf16) (b g be mm vv : Vec F S1x1024 .f32) (prev : Vec F S1024x1024 .f32) (K : PUnit → sProp 𝕄) :
    iprop(owns (c : Thread nD τ) arg3 fullShare x0 ∗ owns (c : Thread nD τ) arg4 fullShare x1
        ∗ owns (c : Thread nD τ) arg5 fullShare b ∗ owns (c : Thread nD τ) arg6 fullShare g ∗ owns (c : Thread nD τ) arg7 fullShare be
        ∗ owns (c : Thread nD τ) arg8 fullShare mm ∗ owns (c : Thread nD τ) arg9 fullShare vv
        ∗ (∃ d, owns (c : Thread nD τ) arg10 fullShare d) ∗ owns (c : Thread nD τ) arg11 fullShare prev
        ∗ (iprop(owns (c : Thread nD τ) arg3 fullShare x0 ∗ owns (c : Thread nD τ) arg4 fullShare x1
            ∗ owns (c : Thread nD τ) arg5 fullShare b ∗ owns (c : Thread nD τ) arg6 fullShare g ∗ owns (c : Thread nD τ) arg7 fullShare be
            ∗ owns (c : Thread nD τ) arg8 fullShare mm ∗ owns (c : Thread nD τ) arg9 fullShare vv
            ∗ owns (c : Thread nD τ) arg10 fullShare (stored (accStep (View.ld prev rA) x0 x1) b mm vv g be)
            ∗ owns (c : Thread nD τ) arg11 fullShare (accStep (View.ld prev rA) x0 x1)) -∗ K ⟨⟩))
      ⊢ wp frame (wpE (defs₀ (F := F)) Variants.none c none) E (cc1__l2_kernel i arg3 harg3 arg4 harg4 arg5 harg5 arg6 harg6 arg7 harg7 arg8 harg8 arg9 harg9 arg10 harg10 arg11 harg11) K := by
  simp only [cc1__l2_kernel_eq_skeleton]; unfold cc1__l2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0; subst hf1; subst hf2; subst hf3; subst hf4; subst hf5; subst hf6; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [read_writes_rA]
    rw [View.readCov_cons_toLoadRect]
    unfold stored accStep
    rw [ld_canon_rA]
    rfl
  iexists _; isplitr
  swap; · iexact HS
  ipureintro
  sl_unfold_run_names
  rw [read_writes_rA]
  rfl

/-! ## The region's entry contents, the windows' blocks, the accumulator point by point -/

section Region
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The partial sums the scratch holds after point `n`: restarted from zero where the reduction coordinate is 0,
    else continued from the point before. -/
def acc (c : Dev nD) : (n : ℕ) → n < cfg1.N → Vec F S1024x1024 .f32
  | 0, hn => accStep (k1_pay1 (F := F)) (blk V c 0 ⟨0, hn⟩) (blk V c 1 ⟨0, hn⟩)
  | n + 1, hn =>
    if (n + 1) % 2 = 0 then accStep (k1_pay1 (F := F)) (blk V c 0 ⟨n + 1, hn⟩) (blk V c 1 ⟨n + 1, hn⟩)
    else accStep (View.ld (acc c n (Nat.lt_of_succ_lt hn)) rA) (blk V c 0 ⟨n + 1, hn⟩) (blk V c 1 ⟨n + 1, hn⟩)

/-- Where the reduction starts: the first product alone. -/
theorem acc_even (c : Dev nD) (t : Fin cfg1.N) (h : t.val % 2 = 0) :
    acc V c t.val t.isLt = accStep (k1_pay1 (F := F)) (blk V c 0 t) (blk V c 1 t) := by
  obtain ⟨n, hn⟩ := t
  cases n with
  | zero => rfl
  | succ n => exact if_pos h

/-- Elsewhere: the sums of the point before plus this point's product. -/
theorem acc_odd (c : Dev nD) (t : Fin cfg1.N) (h : t.val % 2 = 1) :
    acc V c t.val t.isLt = accStep (View.ld (acc V c (t.val - 1) (Nat.lt_of_le_of_lt (Nat.sub_le _ _) t.isLt)) rA) (blk V c 0 t) (blk V c 1 t) := by
  obtain ⟨n, hn⟩ := t
  cases n with
  | zero => exact absurd h (by dsimp only; decide)
  | succ n => exact if_neg (fun h0 => by dsimp only at h h0; omega)

/-! ## The invariant -/

/-- The accumulator scratch as a memref: the whole buffer. -/
abbrev scM : Memref sig .tc .vmem S1024x1024 .f32 := Memref.whole cc1_scratch0

/-- The core's other scoped buffers that are no staging buffer of this region, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f))

theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r)) := by
  unfold Pipeline.ΦA; rw [scopedRest1_eq]; simp only [scM, owns_whole]; try rfl

/-- The region's entry invariant, the scratch's conjunct set apart. -/
theorem PhiA_split (c : Dev nD) :
    (Pipeline.ΦA spec1 c : sProp 𝕄) = iprop(others (F := F) c ∗ (∃ d, owns (c : Thread nD τ) scM fullShare d) ∗ (∃ r, prngReg c r)) := by
  rw [PhiA_eq]
  have h₁ : iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r))
      ⊢ (iprop(others (F := F) c ∗ (∃ d, owns (c : Thread nD τ) scM fullShare d) ∗ (∃ r, prngReg c r)) : sProp 𝕄) := by
    iintro ⟨⟨R0, R1, R2, R3, R4, R5, R6, R7, R8, R9, HS, R11, R12, R13, R14, R15, R16, R17, R18, R19, R20⟩, Hg⟩
    isplitl [R0 R1 R2 R3 R4 R5 R6 R7 R8 R9 R11 R12 R13 R14 R15 R16 R17 R18 R19 R20]
    · unfold others
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      iexact R20
    isplitl [HS]; · iexact HS
    iexact Hg
  have h₂ : (iprop(others (F := F) c ∗ (∃ d, owns (c : Thread nD τ) scM fullShare d) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r)) := by
    unfold others
    iintro ⟨⟨R0, R1, R2, R3, R4, R5, R6, R7, R8, R9, R11, R12, R13, R14, R15, R16, R17, R18, R19, R20⟩, HS, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS]; · iexact HS
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  exact BI.equiv_iff.mp ⟨h₁, h₂⟩

/-- Before point `n`: at the first point the entry invariant; afterwards the other scoped buffers at anything, the
    scratch at the sums the point before left, the generator register at some state. -/
def PhiS (c : Dev nD) : (n : ℕ) → n ≤ cfg1.N → sProp 𝕄
  | 0, _ => Pipeline.ΦA spec1 c
  | n + 1, hn => iprop(others (F := F) c ∗ owns (c : Thread nD τ) scM fullShare (acc V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (acc V c n hn) ∗ (∃ r, prngReg c r)) := rfl

theorem PhiS_pos (c : Dev nD) (n : ℕ) (h : n ≤ cfg1.N) (hz : n ≠ 0) :
    PhiS V c n h = iprop(others (F := F) c ∗ owns (c : Thread nD τ) scM fullShare (acc V c (n - 1) (by omega)) ∗ (∃ r, prngReg c r)) := by
  cases n with
  | zero => exact absurd rfl hz
  | succ n => rfl

/-- At any point the invariant gives the scratch at some contents. -/
theorem PhiS_weak (c : Dev nD) (n : ℕ) (h : n ≤ cfg1.N) :
    PhiS V c n h ⊢ iprop(others (F := F) c ∗ (∃ d, owns (c : Thread nD τ) scM fullShare d) ∗ (∃ r, prngReg c r)) := by
  cases n with
  | zero => rw [PhiS_zero V c 0 h rfl, PhiA_split]; try exact .rfl
  | succ n =>
    rw [PhiS_succ]
    iintro ⟨Hoth, HS, Hg⟩
    isplitl [Hoth]; · iexact Hoth
    isplitl [HS]; · iexists _; iexact HS
    iexact Hg

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => stored (acc V c t.val t.isLt) (blk V c 2 t) (blk V c 5 t) (blk V c 6 t) (blk V c 3 t) (blk V c 4 t)
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; try simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t = stored (acc V c t.val t.isLt) (blk V c 2 t) (blk V c 5 t) (blk V c 6 t) (blk V c 3 t) (blk V c 4 t) := by dsimp only [dat]

/-- The output block after a point that ends a reduction. -/
theorem dat_after_out (c : Dev nD) (t : Fin cfg1.N) (ht : t.val % 2 = 1) :
    (dat V c).after 7 t = stored (acc V c t.val t.isLt) (blk V c 2 t) (blk V c 5 t) (blk V c 6 t) (blk V c 3 t) (blk V c 4 t) := after_7 V c t

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [dat_A]; try rfl) t d).trans
    (by unfold Dat.fetched Dat.blockOf blk; rw [dat_A]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [dat_A]; try rfl) t d).trans
    (by unfold Dat.fetched Dat.blockOf blk; rw [dat_A]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [dat_A]; try rfl) t d).trans
    (by unfold Dat.fetched Dat.blockOf blk; rw [dat_A]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [dat_A]; try rfl) t d).trans
    (by unfold Dat.fetched Dat.blockOf blk; rw [dat_A]; try rfl)
theorem before_6 (c : Dev nD) (t : Fin cfg1.N) (d) : (dat V c).before 6 t d = blk V c 6 t :=
  ((dat V c).before_in_eq_fetched 6 rfl (fun _ => rfl) (fun _ _ _ => rfl) (fun t => by rw [after_6]; unfold Dat.blockOf blk; rw [dat_A]; try rfl) t d).trans
    (by unfold Dat.fetched Dat.blockOf blk; rw [dat_A]; try rfl)

/-! ## Where the windows are idle -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
theorem liveAt_5 : ∀ t : Fin cfg1.N, cfg1.idle 5 (grid1.coords t) = false := fun _ => rfl
theorem liveAt_6 : ∀ t : Fin cfg1.N, cfg1.idle 6 (grid1.coords t) = false := fun _ => rfl
theorem liveAt_7 : ∀ t : Fin cfg1.N, t.val % 2 = 1 → cfg1.idle 7 (grid1.coords t) = false := by decide +kernel
theorem idleAt_7 : ∀ t : Fin cfg1.N, t.val % 2 = 0 → cfg1.idle 7 (grid1.coords t) = true := by decide +kernel
theorem noFlush_7 : ∀ t : Fin cfg1.N, t.val % 2 = 0 → (cfg1.win 7).flush t = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [liveAt_0 t], after_0]
  rw [show (dat V c).leavesExact 1 t = owns (c : Thread nD τ) (st1_1 t) fullShare ((dat V c).after 1 t) from by
    unfold Dat.leavesExact; rw [liveAt_1 t], after_1]
  rw [show (dat V c).leavesExact 2 t = owns (c : Thread nD τ) (st1_2 t) fullShare ((dat V c).after 2 t) from by
    unfold Dat.leavesExact; rw [liveAt_2 t], after_2]
  rw [show (dat V c).leavesExact 3 t = owns (c : Thread nD τ) (st1_3 t) fullShare ((dat V c).after 3 t) from by
    unfold Dat.leavesExact; rw [liveAt_3 t], after_3]
  rw [show (dat V c).leavesExact 4 t = owns (c : Thread nD τ) (st1_4 t) fullShare ((dat V c).after 4 t) from by
    unfold Dat.leavesExact; rw [liveAt_4 t], after_4]
  rw [show (dat V c).leavesExact 5 t = owns (c : Thread nD τ) (st1_5 t) fullShare ((dat V c).after 5 t) from by
    unfold Dat.leavesExact; rw [liveAt_5 t], after_5]
  rw [show (dat V c).leavesExact 6 t = owns (c : Thread nD τ) (st1_6 t) fullShare ((dat V c).after 6 t) from by
    unfold Dat.leavesExact; rw [liveAt_6 t], after_6]
  rw [PhiS_castSucc]
  by_cases h : t.val % 2 = 0
  · have hZ : condZ (grid1.coords t) := (hcondZ t).mpr h
    have hE : ¬condE (grid1.coords t) := fun hh => by have := (hcondE t).mp hh; omega
    rw [Dat.leavesExact_idle (dat V c) 7 t (idleAt_7 t h) (noFlush_7 t h)]
    rw [acc_even V c t h]
    refine (sep_mono (PhiS_weak V c _ _) .rfl).trans ?_
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid1.coords t) _ _ _ _ _ _ _ _ _ _ _ _ _ _ _ _ _ _ hZ hE (blk V c 0 t) (blk V c 1 t) _)
    isplitl [H0]; · iexact H0
    isplitl [H1]; · iexact H1
    isplitl [HS]; · iexact HS
    iintro ⟨H0, H1, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have h1 : t.val % 2 = 1 := by omega
    have hz : t.val ≠ 0 := fun h0 => by rw [h0] at h; exact h rfl
    have hZ : ¬condZ (grid1.coords t) := fun hh => h ((hcondZ t).mp hh)
    have hE : condE (grid1.coords t) := (hcondE t).mpr h1
    rw [show (dat V c).leavesExact 7 t = owns (c : Thread nD τ) (st1_7 t) fullShare ((dat V c).after 7 t) from by
      unfold Dat.leavesExact; rw [liveAt_7 t h1], after_7]
    rw [acc_odd V c t h1]
    rw [PhiS_pos V c _ _ hz]
    iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_last c Set.univ (grid1.coords t) _ _ _ _ _ _ _ _ _ _ _ _ _ _ _ _ _ _ hZ hE (blk V c 0 t) (blk V c 1 t) (blk V c 2 t) (blk V c 3 t) (blk V c 4 t) (blk V c 5 t) (blk V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact .rfl

theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl, PhiA_split]
  exact PhiS_weak V c _ _

end Region

end Cert.Kernel.L2

end
-- ==== Proof.KL3Frame.lean ====
import proofs.«112361_j47373489275136_2_alg».proof.Proof.Gen.Kernel.Launch
import proofs.«112361_j47373489275136_2_alg».proof.Proof.Gen.Kernel.Skeleton
import proofs.«112361_j47373489275136_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third layer's grid: what one grid point does to its staging buffers

The third layer runs on a grid of 16 points. Each point reads a 1024x4096 block of the second layer's activations,
the whole 128x4096 sign-weight matrix (the ten output rows padded to 128) and five 1x128 rows (bias, scale, shift,
running mean, running variance), and stores one 1024x128 block of outputs. Every access is of a whole block, and the
output block is stored exactly once, so after the body the output's buffer holds that one stored block and the
operands' buffers are as they were. This file states that as the body's triple and hands the pipeline its obligation
at every grid point, for any contents `V` of the TensorCore's buffers at the start of the layer.
-/

-- membership in a rectangle with thousands of coordinates along an axis recurses once per coordinate
set_option maxRecDepth 16384

noncomputable section

namespace Cert.Kernel.L3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- what the TensorCore's buffers hold when the layer's grid starts
variable (V : (c : Dev nD) → (b : Ref sig .tc) → Buf (Elt F) ((c : Thread nD τ).loc b))

/-! ## The blocks the grid point works on -/

/-- The block of operand `w` that grid point `t` works on, cut out of the operand's array as the layer finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The whole-block accesses of the layer -/

/-- The whole 1024x4096 activation block. -/
abbrev rIn : Rect S1024x4096 := Rect.unit (s := S1024x4096) ![0, 0] S1024x4096.size inb_S1024x4096_S1024x4096_0_0
/-- The whole 128x4096 weight matrix. -/
abbrev rWt : Rect S128x4096 := Rect.unit (s := S128x4096) ![0, 0] S128x4096.size inb_S128x4096_S128x4096_0_0
/-- A whole 1x128 row. -/
abbrev rRow : Rect S1x128 := Rect.unit (s := S1x128) ![0, 0] S1x128.size inb_S1x128_S1x128_0_0
/-- The whole 1024x128 output block. -/
abbrev rOut : Rect S1024x128 := Rect.unit (s := S1024x128) ![0, 0] S1024x128.size inb_S1024x128_S1024x128_0_0

/-! ## The layer's output block -/

/-- The output block after the body, from the operands' blocks `x0` (activations), `x1` (weights), `x2` (bias), `x3`
    (scale), `x4` (shift), `x5` (running mean), `x6` (running variance): the single whole-block store of the layer's
    value. The value reads the rows in the order bias, mean, variance, scale, shift. -/
def stored (x0 : Vec F S1024x4096 .bf16) (x1 : Vec F S128x4096 .bf16) (x2 x3 x4 x5 x6 : Vec F S1x128 .f32) : Vec F S1024x128 .f32 :=
  View.canon [⟨rOut, k2_pay1 (View.ld x0 rIn) (View.ld x1 rWt) (View.ld x2 rRow) (View.ld x5 rRow) (View.ld x6 rRow) (View.ld x3 rRow) (View.ld x4 rRow)⟩]

/-- The one store is the whole block, so it covers it. -/
theorem stored_covers (p : Vec F S1024x128 .f32) (y : S1024x128.Idx) :
    ∃ pc ∈ ([⟨rOut, p⟩] : List (View.Piece (Elt F) S1024x128 .f32)), y ∈ pc.1.set :=
  View.cover_of_tiled [⟨rOut, p⟩] S1024x128.size (by rfl) y

/-! ## The layer's body on its staging buffers -/

set_option maxHeartbeats 4000000 in
/-- The body on whole staging buffers: the seven operands' buffers at contents `x0 … x6`, the output's at anything.
    It runs to a state where the operands' buffers are unchanged and the output's holds `stored x0 … x6`. The body
    loads the output buffer once before storing it; the loaded value is not used, so any contents do. -/
theorem sound_kernel (c : Dev nD) (E : Set ℕ) (i : grid2.Coords) (arg1 : Memref sig .tc .vmem S1024x4096 .bf16) (harg1 : arg1.IsWhole) (arg2 : Memref sig .tc .vmem S128x4096 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole)
    (x0 : Vec F S1024x4096 .bf16) (x1 : Vec F S128x4096 .bf16) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E (cc2__l3_kernel i arg1 harg1 arg2 harg2 arg3 harg3 arg4 harg4 arg5 harg5 arg6 harg6 arg7 harg7 arg8 harg8) K := by
  simp only [cc2__l3_kernel_eq_skeleton]; unfold cc2__l3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-! ## The pipeline's proof data -/

/-- The proof data of the layer's pipeline on core `c`: the arrays as the layer finds them; after the body at point `t`
    every operand's buffer at its block and the output's at the stored block; the invariant that leaves everything
    else untouched; nothing owed; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => stored (blk V c 0 t) (blk V c 1 t) (blk V c 2 t) (blk V c 3 t) (blk V c 4 t) (blk V c 5 t) (blk V c 6 t)
  Φ _ := Pipeline.ΦA spec2 c
  q _ := fullShare
  owed _ := 0

/-- The arrays of the proof data are the contents the layer starts from. -/
theorem dat_A (c : Dev nD) (w : Fin cfg2.W) : (dat V c).A w = V c (Pipeline.arrRef spec2 w) := by
  dsimp only [dat]

theorem dat_after_in0 (c : Dev nD) (t : Fin cfg2.N) : (dat V c).after 0 t = blk V c 0 t := by dsimp only [dat]
theorem dat_after_in1 (c : Dev nD) (t : Fin cfg2.N) : (dat V c).after 1 t = blk V c 1 t := by dsimp only [dat]
theorem dat_after_in2 (c : Dev nD) (t : Fin cfg2.N) : (dat V c).after 2 t = blk V c 2 t := by dsimp only [dat]
theorem dat_after_in3 (c : Dev nD) (t : Fin cfg2.N) : (dat V c).after 3 t = blk V c 3 t := by dsimp only [dat]
theorem dat_after_in4 (c : Dev nD) (t : Fin cfg2.N) : (dat V c).after 4 t = blk V c 4 t := by dsimp only [dat]
theorem dat_after_in5 (c : Dev nD) (t : Fin cfg2.N) : (dat V c).after 5 t = blk V c 5 t := by dsimp only [dat]
theorem dat_after_in6 (c : Dev nD) (t : Fin cfg2.N) : (dat V c).after 6 t = blk V c 6 t := by dsimp only [dat]
/-- After the body the output's staging buffer holds the stored block of the operands' blocks. -/
theorem dat_after_out (c : Dev nD) (t : Fin cfg2.N) : (dat V c).after 7 t = stored (blk V c 0 t) (blk V c 1 t) (blk V c 2 t) (blk V c 3 t) (blk V c 4 t) (blk V c 5 t) (blk V c 6 t) := by
  dsimp only [dat]

/-! ## Every operand's staging buffer holds its block at every grid point

An operand whose block index does not move between two points is not fetched again; its buffer still holds the
block of the earlier point, which is the block of this one. -/

theorem before_in0 (c : Dev nD) (t : Fin cfg2.N) (d) : (dat V c).before 0 t d = blk V c 0 t :=
  ((dat V c).before_in_eq_fetched 0 rfl (fun _ => rfl) (fun _ _ _ => rfl)
    (fun t => by rw [dat_after_in0]; unfold Dat.blockOf blk; rw [dat_A]; try rfl) t d).trans
    (by unfold Dat.fetched Dat.blockOf blk; rw [dat_A]; try rfl)
theorem before_in1 (c : Dev nD) (t : Fin cfg2.N) (d) : (dat V c).before 1 t d = blk V c 1 t :=
  ((dat V c).before_in_eq_fetched 1 rfl (fun _ => rfl) (fun _ _ _ => rfl)
    (fun t => by rw [dat_after_in1]; unfold Dat.blockOf blk; rw [dat_A]; try rfl) t d).trans
    (by unfold Dat.fetched Dat.blockOf blk; rw [dat_A]; try rfl)
theorem before_in2 (c : Dev nD) (t : Fin cfg2.N) (d) : (dat V c).before 2 t d = blk V c 2 t :=
  ((dat V c).before_in_eq_fetched 2 rfl (fun _ => rfl) (fun _ _ _ => rfl)
    (fun t => by rw [dat_after_in2]; unfold Dat.blockOf blk; rw [dat_A]; try rfl) t d).trans
    (by unfold Dat.fetched Dat.blockOf blk; rw [dat_A]; try rfl)
theorem before_in3 (c : Dev nD) (t : Fin cfg2.N) (d) : (dat V c).before 3 t d = blk V c 3 t :=
  ((dat V c).before_in_eq_fetched 3 rfl (fun _ => rfl) (fun _ _ _ => rfl)
    (fun t => by rw [dat_after_in3]; unfold Dat.blockOf blk; rw [dat_A]; try rfl) t d).trans
    (by unfold Dat.fetched Dat.blockOf blk; rw [dat_A]; try rfl)
theorem before_in4 (c : Dev nD) (t : Fin cfg2.N) (d) : (dat V c).before 4 t d = blk V c 4 t :=
  ((dat V c).before_in_eq_fetched 4 rfl (fun _ => rfl) (fun _ _ _ => rfl)
    (fun t => by rw [dat_after_in4]; unfold Dat.blockOf blk; rw [dat_A]; try rfl) t d).trans
    (by unfold Dat.fetched Dat.blockOf blk; rw [dat_A]; try rfl)
theorem before_in5 (c : Dev nD) (t : Fin cfg2.N) (d) : (dat V c).before 5 t d = blk V c 5 t :=
  ((dat V c).before_in_eq_fetched 5 rfl (fun _ => rfl) (fun _ _ _ => rfl)
    (fun t => by rw [dat_after_in5]; unfold Dat.blockOf blk; rw [dat_A]; try rfl) t d).trans
    (by unfold Dat.fetched Dat.blockOf blk; rw [dat_A]; try rfl)
theorem before_in6 (c : Dev nD) (t : Fin cfg2.N) (d) : (dat V c).before 6 t d = blk V c 6 t :=
  ((dat V c).before_in_eq_fetched 6 rfl (fun _ => rfl) (fun _ _ _ => rfl)
    (fun t => by rw [dat_after_in6]; unfold Dat.blockOf blk; rw [dat_A]; try rfl) t d).trans
    (by unfold Dat.fetched Dat.blockOf blk; rw [dat_A]; try rfl)

/-! ## The body at a grid point -/

/-- What the pipeline hands the body at point `t`: the invariant, what is owed, and the 8 staging buffers. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d)))

/-- What the body hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t))

set_option maxHeartbeats 1000000 in
/-- At every grid point the operands' buffers hold their blocks, so the body's triple applies; the invariant and
    what is owed pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in0, before_in1, before_in2, before_in3, before_in4, before_in5, before_in6]
  rw [show (dat V c).Φ t.succ = (dat V c).Φ t.castSucc from rfl,
    show (dat V c).owesAt () t.succ = (dat V c).owesAt () t.castSucc from rfl,
    dat_after_in0, dat_after_in1, dat_after_in2, dat_after_in3, dat_after_in4, dat_after_in5, dat_after_in6, dat_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every grid point. -/
theorem body_obligation (c : Dev nD) : BodyObligation (dat (F := F) V c) (defs₀ (F := F)) Variants.none () Set.univ := fun t => by
  rw [bigSep_W2, bigSep_W2]
  exact sound_body V c t

end Cert.Kernel.L3

end
-- ==== Proof.KRunCond.lean ====
/-
  The run of the three-region program with its final memory named buffer by buffer: the conditional form, over the
  regions' segment records. The frame (arguments unchanged) and the value of the result buffer are both read off it.
-/
import proofs.«112361_j47373489275136_2_alg».proof.Proof.Gen.Kernel.Regions

noncomputable section

namespace Cert.Kernel.Net

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [BitOps F]

variable (m : (ℓ : Loc nD τ sig) → Buf (Elt F) ℓ) (outs : Outs (F := F))

set_option backward.isDefEq.respectTransparency.types false in
/-- The run of @main from the regions' records, with every unscoped buffer NAMED at the end: for any rest states the
    launch makes on every core and that end owing nothing, any contents the regions leave and any proof data, given per
    region a segment record entered from the thread state before it and left at the one after it, every weakly fair
    execution of @main from memory `m` with zero counters terminates, and in every final memory each unscoped
    buffer of core `c` holds the last valuation `V19 m outs c` — the result buffer among them. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V17 m outs c) ∗ E 2 c) ⊢ R2.pre c)
    (hpost2 : ∀ c : Dev nD, R2.post c ⊢ iprop(StableHlo.held (c : Thread nD τ) (Pipeline.ucRefs τ sig) (V18 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V19 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, hpost1 c, .rfl, .rfl, .rfl, .rfl, .rfl, .rfl, .rfl, .rfl, .rfl, .rfl, .rfl, .rfl, hpre2 c, hpost2 c, sep_mono .rfl (hE3 c)⟩)
    (hinit := ?_) (QY := fun c s => ∀ b ∈ Pipeline.ucRefs τ sig, s.mem ((c : Thread nD τ).1, b) = V19 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact h
    · iexact HSI

end Cert.Kernel.Net

end
-- ==== Proof.KRun.lean ====
/-
  The word-level program's run, region by region. Each of the three kernel regions is a segment of @main entered with the
  TensorCore's unscoped buffers at known contents and left with the output array of the region at the fold of its grid
  points' write-backs and every other buffer unchanged; the host stretches between them are the generated segments. The
  launch theorem for several regions then gives one run whose final memory is named buffer by buffer.
-/
import proofs.«112361_j47373489275136_2_alg».proof.Proof.KL1Frame
import proofs.«112361_j47373489275136_2_alg».proof.Proof.KL2Frame
import proofs.«112361_j47373489275136_2_alg».proof.Proof.KL3Frame
import proofs.«112361_j47373489275136_2_alg».proof.Proof.KRunCond

set_option maxRecDepth 16384

noncomputable section

namespace Cert.Kernel.Net

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A core-indexed valuation read at the TensorCore's references: what a region's proof data take. -/
abbrev atTc (W : Dev nD → Valuation τ sig (Elt F)) : (c : Dev nD) → (b : Ref sig .tc) → Buf (Elt F) ((c : Thread nD τ).loc b) :=
  fun c b => W c b

/-! ## What the regions leave

Region 0 is entered at `V1 m` (the launch memory after the first host stretch); what it leaves decides region 1's entry
contents, and so on: the three definitions below are stacked in that order. -/

/-- After region 0: its arrays at what its pipeline leaves, every other buffer as entered. -/
def W2 (c : Dev nD) : Valuation τ sig (Elt F) :=
  Pipeline.withArrays spec0 c (V1 m c) fun w => (L1.dat (atTc (V1 m)) c).arrAt w cfg0.N
/-- The regions' leavings as far as region 0 decides them. -/
def o1 : Outs (F := F) := fun _ r c => W2 m c r
/-- After region 1, entered at `V3 m (o1 m)`. -/
def W4 (c : Dev nD) : Valuation τ sig (Elt F) :=
  Pipeline.withArrays spec1 c (V3 m (o1 m) c) fun w => (L2.dat (atTc (V3 m (o1 m))) c).arrAt w cfg1.N
/-- The regions' leavings as far as regions 0 and 1 decide them. -/
def o2 : Outs (F := F) := fun J r c => if J = 2 then W2 m c r else W4 m c r
/-- After region 2, entered at `V17 m (o2 m)`. -/
def W18 (c : Dev nD) : Valuation τ sig (Elt F) :=
  Pipeline.withArrays spec2 c (V17 m (o2 m) c) fun w => (L3.dat (atTc (V17 m (o2 m))) c).arrAt w cfg2.N
/-- What each region leaves in the buffer it may change. -/
def outs : Outs (F := F) := fun J r c => if J = 2 then W2 m c r else if J = 4 then W4 m c r else W18 m c r

/-- Region 1's entry contents depend on the leavings only through region 0's. -/
theorem V3_outs (c : Dev nD) : V3 m (outs m) c = V3 m (o1 m) c := rfl
/-- Region 2's entry contents depend on the leavings only through those of regions 0 and 1. -/
theorem V17_outs (c : Dev nD) : V17 m (outs m) c = V17 m (o2 m) c := rfl

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => L1.dat (atTc (V1 m)) c
  | ⟨1, _⟩ => fun c => L2.dat (atTc (V3 m (o1 m))) c
  | ⟨2, _⟩ => fun c => L3.dat (atTc (V17 m (o2 m))) c

/-- No core owes another anything: no level is assigned. -/
abbrev noLv : GSem nD τ sig → Finset Unit := fun _ => ∅
abbrev zeroLv : GSem nD τ sig → Unit → ℕ := fun _ _ => 0
/-- Beside the buffers, through every segment: the core's generator register at some state, and the core owing nothing. -/
abbrev rest (c : Dev nD) : sProp 𝕄 := iprop((∃ r, prngReg c r) ∗ ∃ W, owes (c : Thread nD τ) (0 : CellTallies nD τ sig Unit) W)

/-! ## Each region's exit contents against its entry contents -/

/-- A buffer region 0 does not write holds after it what it held at the region's entry. -/
theorem toIn0 (c : Dev nD) (r : Ref sig .tc) (h : r ∉ ([main_v9] : List (Ref sig .tc))) :
    atTc (V2 m (outs m)) c r = atTc (V1 m) c r :=
  (V2_of m (outs m) c r h).trans rfl

/-- After region 0 each of its arrays holds what the pipeline leaves: an input's array its entry contents, the
    output's array the fold of the write-backs. -/
theorem left0 (c : Dev nD) (w : Fin cfg0.W) :
    (pdats m 0 c).arrAt w cfg0.N = atTc (V2 m (outs m)) c (Pipeline.arrRef spec0 w) := by
  have hin : ∀ w : Fin cfg0.W, (cfg0.win w).isOut = false → Pipeline.arrRef spec0 w ∉ ([main_v9] : List (Ref sig .tc)) →
      (pdats m 0 c).arrAt w cfg0.N = atTc (V2 m (outs m)) c (Pipeline.arrRef spec0 w) := fun w hw hne =>
    ((pdats m 0 c).arrAt_in w hw _).trans ((L1.dat_A (atTc (V1 m)) c w).trans (toIn0 m c (Pipeline.arrRef spec0 w) hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show _ = V2 m (outs m) c (Proc.devRef .tc main_v9)
    simp only [V2, Function.update_self]
    show _ = W2 m c (Proc.devRef .tc main_v9)
    unfold W2
    exact (Pipeline.withArrays_arr spec0 launch0.win.arr_inj c (V1 m c) (fun w => (L1.dat (atTc (V1 m)) c).arrAt w cfg0.N) 7).symm

/-- Every buffer that is no array of region 0's windows is as the region found it. -/
theorem kept0 (c : Dev nD) : ∀ b, b ∉ Finset.univ.image (Pipeline.arrRef spec0) → atTc (V2 m (outs m)) c b = atTc (V1 m) c b :=
  fun b hb => toIn0 m c b (by
    intro hmem
    rw [List.mem_singleton] at hmem
    exact hb (hmem ▸ Finset.mem_image.mpr ⟨7, Finset.mem_univ _, rfl⟩))

/-- A buffer region 1 does not write holds after it what it held at the region's entry. -/
theorem toIn1 (c : Dev nD) (r : Ref sig .tc) (h : r ∉ ([main_v15] : List (Ref sig .tc))) :
    atTc (V4 m (outs m)) c r = atTc (V3 m (o1 m)) c r :=
  (V4_of m (outs m) c r h).trans (congrFun (V3_outs m c) _)

/-- After region 1 each of its arrays holds what the pipeline leaves: an input's array its entry contents, the
    output's array the fold of the write-backs. -/
theorem left1 (c : Dev nD) (w : Fin cfg1.W) :
    (pdats m 1 c).arrAt w cfg1.N = atTc (V4 m (outs m)) c (Pipeline.arrRef spec1 w) := by
  have hin : ∀ w : Fin cfg1.W, (cfg1.win w).isOut = false → Pipeline.arrRef spec1 w ∉ ([main_v15] : List (Ref sig .tc)) →
      (pdats m 1 c).arrAt w cfg1.N = atTc (V4 m (outs m)) c (Pipeline.arrRef spec1 w) := fun w hw hne =>
    ((pdats m 1 c).arrAt_in w hw _).trans ((L2.dat_A (atTc (V3 m (o1 m))) c w).trans (toIn1 m c (Pipeline.arrRef spec1 w) hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show _ = V4 m (outs m) c (Proc.devRef .tc main_v15)
    simp only [V4, Function.update_self]
    show _ = W4 m c (Proc.devRef .tc main_v15)
    unfold W4
    exact (Pipeline.withArrays_arr spec1 launch1.win.arr_inj c (V3 m (o1 m) c) (fun w => (L2.dat (atTc (V3 m (o1 m))) c).arrAt w cfg1.N) 7).symm

/-- Every buffer that is no array of region 1's windows is as the region found it. -/
theorem kept1 (c : Dev nD) : ∀ b, b ∉ Finset.univ.image (Pipeline.arrRef spec1) → atTc (V4 m (outs m)) c b = atTc (V3 m (o1 m)) c b :=
  fun b hb => toIn1 m c b (by
    intro hmem
    rw [List.mem_singleton] at hmem
    exact hb (hmem ▸ Finset.mem_image.mpr ⟨7, Finset.mem_univ _, rfl⟩))

/-- A buffer region 2 does not write holds after it what it held at the region's entry. -/
theorem toIn2 (c : Dev nD) (r : Ref sig .tc) (h : r ∉ ([main_v29] : List (Ref sig .tc))) :
    atTc (V18 m (outs m)) c r = atTc (V17 m (o2 m)) c r :=
  (V18_of m (outs m) c r h).trans (congrFun (V17_outs m c) _)

/-- After region 2 each of its arrays holds what the pipeline leaves: an input's array its entry contents, the
    output's array the fold of the write-backs. -/
theorem left2 (c : Dev nD) (w : Fin cfg2.W) :
    (pdats m 2 c).arrAt w cfg2.N = atTc (V18 m (outs m)) c (Pipeline.arrRef spec2 w) := by
  have hin : ∀ w : Fin cfg2.W, (cfg2.win w).isOut = false → Pipeline.arrRef spec2 w ∉ ([main_v29] : List (Ref sig .tc)) →
      (pdats m 2 c).arrAt w cfg2.N = atTc (V18 m (outs m)) c (Pipeline.arrRef spec2 w) := fun w hw hne =>
    ((pdats m 2 c).arrAt_in w hw _).trans ((L3.dat_A (atTc (V17 m (o2 m))) c w).trans (toIn2 m c (Pipeline.arrRef spec2 w) hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ =>
    show _ = V18 m (outs m) c (Proc.devRef .tc main_v29)
    simp only [V18, Function.update_self]
    show _ = W18 m c (Proc.devRef .tc main_v29)
    unfold W18
    exact (Pipeline.withArrays_arr spec2 launch2.win.arr_inj c (V17 m (o2 m) c) (fun w => (L3.dat (atTc (V17 m (o2 m))) c).arrAt w cfg2.N) 7).symm

/-- Every buffer that is no array of region 2's windows is as the region found it. -/
theorem kept2 (c : Dev nD) : ∀ b, b ∉ Finset.univ.image (Pipeline.arrRef spec2) → atTc (V18 m (outs m)) c b = atTc (V17 m (o2 m)) c b :=
  fun b hb => toIn2 m c b (by
    intro hmem
    rw [List.mem_singleton] at hmem
    exact hb (hmem ▸ Finset.mem_image.mpr ⟨7, Finset.mem_univ _, rfl⟩))

/-! ## The regions as segments -/

set_option backward.isDefEq.respectTransparency.types false in
/-- Region 0 as a segment: entered with every unscoped buffer at `V1`, left with them at `V2`. Its windows'
    arrays are split out of the unscoped buffers at entry and put back at exit, the output's array then holding the
    fold of the points' write-backs; the generator register goes into the body's invariant and comes back; nothing is owed. -/
def reg0 : Pipeline.RegionSeg (pcfgs (F := F)) adm (pdats m) () defs₀ Variants.none noLv zeroLv 0 where
  win := launch0.win.to₀
  block_pos := launch0.block_pos
  stage_whole := launch0.stage_whole
  K := PEmpty
  osem k := k.elim
  ho := Pipeline.OwnSemFacts.none _
  hbody c := (L1.body_obligation (atTc (V1 m)) c).loose
  hwaits := Pipeline.hwaits_of_owed_zero _ _ _ _ noLv zeroLv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atTc (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V1 m) c) (atTc (V2 m (outs m)) c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `V3`, left with them at `V4`. Its windows'
    arrays are split out of the unscoped buffers at entry and put back at exit, the output's array then holding the
    fold of the points' write-backs; the generator register goes into the body's invariant and comes back; nothing is owed. -/
def reg1 : Pipeline.RegionSeg (pcfgs (F := F)) adm (pdats m) () defs₀ Variants.none noLv zeroLv 1 where
  win := launch1.win.to₀
  block_pos := launch1.block_pos
  stage_whole := launch1.stage_whole
  K := PEmpty
  osem k := k.elim
  ho := Pipeline.OwnSemFacts.none _
  hbody c := (L2.body_obligation (atTc (V3 m (o1 m))) c).loose
  hwaits := Pipeline.hwaits_of_owed_zero _ _ _ _ noLv zeroLv 1 fun _ _ => rfl
  pre c := iprop(StableHlo.held (c : Thread nD τ) (Pipeline.ucRefs τ sig) (V3 m (o1 m) c) ∗ rest c)
  post c := iprop(StableHlo.held (c : Thread nD τ) (Pipeline.ucRefs τ sig) (V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atTc (V3 m (o1 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V3 m (o1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1 ∗ Pipeline.scopedRest (Pipeline.pin (pcfgs (F := F)) adm 1).spec c)
        ⊢ (Pipeline.ΦA spec1 c : sProp 𝕄) := by
      unfold Pipeline.ΦA
      iintro ⟨Hp, -, Hr⟩
      isplitl [Hr]; · iexact Hr
      iexact Hp
    exact h.trans (L2.hin (atTc (V3 m (o1 m))) c)
  hout c := by
    rw [Pipeline.ownSems0_none]
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (L2.hout (atTc (V3 m (o1 m))) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V3 m (o1 m)) c) (atTc (V4 m (outs m)) c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `V17`, left with them at `V18`. Its windows'
    arrays are split out of the unscoped buffers at entry and put back at exit, the output's array then holding the
    fold of the points' write-backs; the generator register goes into the body's invariant and comes back; nothing is owed. -/
def reg2 : Pipeline.RegionSeg (pcfgs (F := F)) adm (pdats m) () defs₀ Variants.none noLv zeroLv 2 where
  win := launch2.win.to₀
  block_pos := launch2.block_pos
  stage_whole := launch2.stage_whole
  K := PEmpty
  osem k := k.elim
  ho := Pipeline.OwnSemFacts.none _
  hbody c := (L3.body_obligation (atTc (V17 m (o2 m))) c).loose
  hwaits := Pipeline.hwaits_of_owed_zero _ _ _ _ noLv zeroLv 2 fun _ _ => rfl
  pre c := iprop(StableHlo.held (c : Thread nD τ) (Pipeline.ucRefs τ sig) (V17 m (o2 m) c) ∗ rest c)
  post c := iprop(StableHlo.held (c : Thread nD τ) (Pipeline.ucRefs τ sig) (V18 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (atTc (V17 m (o2 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V17 m (o2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V17 m (o2 m)) c) (atTc (V18 m (outs m)) c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Every weakly fair execution of the word-level program from `m` terminates, faulting nowhere, and in every final memory
    each unscoped buffer of core `c` holds the last valuation, `V19 m (outs m) c`. -/
theorem run : θ_run defs (onTc (τ := τ) (main (F := F))) ⟨m, fun _ => 0, ρ⟩ (fun r => ∀ c : Dev nD,
      ∀ b ∈ Pipeline.ucRefs τ sig, r.2.mem ((c : Thread nD τ).1, b) = V19 m (outs m) c b) :=
  run_cond m emb₁ () Variants.none noLv zeroLv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => rest)
    (by
      have h1 : ∀ c : Dev nD, iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)) ⊢ (rest c : sProp 𝕄) := fun c => by
        iintro ⟨-, HO, -, Hp, -⟩
        isplitl [Hp]; · iexists _; iexact Hp
        iexists ∅; iexact HO
      have h2 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄))) ⊢ (bigSep Finset.univ rest : sProp 𝕄) :=
        bigSep_mono fun c _ => h1 c
      iintro ⟨H, -⟩
      imodintro
      iapply h2
      iexact H)
    (fun c => by iintro ⟨-, HO⟩; iexact HO)
    (reg0 m) (fun c => .rfl) (fun c => .rfl)
    (reg1 m) (fun c => by rw [V3_outs]; exact .rfl) (fun c => .rfl)
    (reg2 m) (fun c => by rw [V17_outs]; exact .rfl) (fun c => .rfl)

end Cert.Kernel.Net

end
-- ==== Proof.Frames.lean ====
/-
  The three frame conjuncts and the idealization conjunct. Each program's run names its final memory buffer by buffer;
  the argument arrays are read back off it. The reference is a host program: its frame is its run with the result dropped.
-/
import proofs.«112361_j47373489275136_2_alg».proof.Defs
import proofs.«112361_j47373489275136_2_alg».proof.Proof.Run
import proofs.«112361_j47373489275136_2_alg».proof.Proof.KRun
import proofs.«112361_j47373489275136_2_alg».proof.Proof.Gen.ReferenceIdeal.Run
import proofs.«112361_j47373489275136_2_alg».proof.Proof.Gen.Pre_finite_inputs
import proofs.«112361_j47373489275136_2_alg».proof.Proof.Gen.ReferenceIdeal

noncomputable section

namespace Cert.KernelIdeal.Net

open Cert.KernelIdeal Cert.KernelIdeal.Gen
open Idealize.ShloMosaic Idealize.ShloMosaic.TcCoe Idealize.SL.Sem

variable {F : FTy → Type} [FloatOps F]

/-- A memory that holds the last valuation at every unscoped buffer holds each argument array as launched: no host
    stretch writes an argument and no region may change one. -/
theorem args_kept (m : (ℓ : Loc nD τ sig) → Buf (Elt F) ℓ) (outs : Outs (F := F)) (s : MemSt nD τ sig (Elt F)) (c : Dev nD)
    (h : ∀ b ∈ Pipeline.ucRefs τ sig, s.mem ((c : Thread nD τ).1, b) = V19 m outs c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18) :=
  ⟨(h (Proc.devRef .tc main_arg0) (Finset.mem_filter.mpr ⟨StableHlo.devRef_mem_tcRefs main_arg0, by decide⟩)).trans (V19_main_arg0 m outs c),
    (h (Proc.devRef .tc main_arg1) (Finset.mem_filter.mpr ⟨StableHlo.devRef_mem_tcRefs main_arg1, by decide⟩)).trans (V19_main_arg1 m outs c),
    (h (Proc.devRef .tc main_arg2) (Finset.mem_filter.mpr ⟨StableHlo.devRef_mem_tcRefs main_arg2, by decide⟩)).trans (V19_main_arg2 m outs c),
    (h (Proc.devRef .tc main_arg3) (Finset.mem_filter.mpr ⟨StableHlo.devRef_mem_tcRefs main_arg3, by decide⟩)).trans (V19_main_arg3 m outs c),
    (h (Proc.devRef .tc main_arg4) (Finset.mem_filter.mpr ⟨StableHlo.devRef_mem_tcRefs main_arg4, by decide⟩)).trans (V19_main_arg4 m outs c),
    (h (Proc.devRef .tc main_arg5) (Finset.mem_filter.mpr ⟨StableHlo.devRef_mem_tcRefs main_arg5, by decide⟩)).trans (V19_main_arg5 m outs c),
    (h (Proc.devRef .tc main_arg6) (Finset.mem_filter.mpr ⟨StableHlo.devRef_mem_tcRefs main_arg6, by decide⟩)).trans (V19_main_arg6 m outs c),
    (h (Proc.devRef .tc main_arg7) (Finset.mem_filter.mpr ⟨StableHlo.devRef_mem_tcRefs main_arg7, by decide⟩)).trans (V19_main_arg7 m outs c),
    (h (Proc.devRef .tc main_arg8) (Finset.mem_filter.mpr ⟨StableHlo.devRef_mem_tcRefs main_arg8, by decide⟩)).trans (V19_main_arg8 m outs c),
    (h (Proc.devRef .tc main_arg9) (Finset.mem_filter.mpr ⟨StableHlo.devRef_mem_tcRefs main_arg9, by decide⟩)).trans (V19_main_arg9 m outs c),
    (h (Proc.devRef .tc main_arg10) (Finset.mem_filter.mpr ⟨StableHlo.devRef_mem_tcRefs main_arg10, by decide⟩)).trans (V19_main_arg10 m outs c),
    (h (Proc.devRef .tc main_arg11) (Finset.mem_filter.mpr ⟨StableHlo.devRef_mem_tcRefs main_arg11, by decide⟩)).trans (V19_main_arg11 m outs c),
    (h (Proc.devRef .tc main_arg12) (Finset.mem_filter.mpr ⟨StableHlo.devRef_mem_tcRefs main_arg12, by decide⟩)).trans (V19_main_arg12 m outs c),
    (h (Proc.devRef .tc main_arg13) (Finset.mem_filter.mpr ⟨StableHlo.devRef_mem_tcRefs main_arg13, by decide⟩)).trans (V19_main_arg13 m outs c),
    (h (Proc.devRef .tc main_arg14) (Finset.mem_filter.mpr ⟨StableHlo.devRef_mem_tcRefs main_arg14, by decide⟩)).trans (V19_main_arg14 m outs c),
    (h (Proc.devRef .tc main_arg15) (Finset.mem_filter.mpr ⟨StableHlo.devRef_mem_tcRefs main_arg15, by decide⟩)).trans (V19_main_arg15 m outs c),
    (h (Proc.devRef .tc main_arg16) (Finset.mem_filter.mpr ⟨StableHlo.devRef_mem_tcRefs main_arg16, by decide⟩)).trans (V19_main_arg16 m outs c),
    (h (Proc.devRef .tc main_arg17) (Finset.mem_filter.mpr ⟨StableHlo.devRef_mem_tcRefs main_arg17, by decide⟩)).trans (V19_main_arg17 m outs c),
    (h (Proc.devRef .tc main_arg18) (Finset.mem_filter.mpr ⟨StableHlo.devRef_mem_tcRefs main_arg18, by decide⟩)).trans (V19_main_arg18 m outs c)⟩

end Cert.KernelIdeal.Net

namespace Cert.Kernel.Net

open Cert.Kernel Cert.Kernel.Gen
open Idealize.ShloMosaic Idealize.ShloMosaic.TcCoe Idealize.SL.Sem

variable {F : FTy → Type} [BitOps F]

/-- A memory that holds the last valuation at every unscoped buffer holds each argument array as launched: no host
    stretch writes an argument and no region may change one. -/
theorem args_kept (m : (ℓ : Loc nD τ sig) → Buf (Elt F) ℓ) (outs : Outs (F := F)) (s : MemSt nD τ sig (Elt F)) (c : Dev nD)
    (h : ∀ b ∈ Pipeline.ucRefs τ sig, s.mem ((c : Thread nD τ).1, b) = V19 m outs c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18) :=
  ⟨(h (Proc.devRef .tc main_arg0) (Finset.mem_filter.mpr ⟨StableHlo.devRef_mem_tcRefs main_arg0, by decide⟩)).trans (V19_main_arg0 m outs c),
    (h (Proc.devRef .tc main_arg1) (Finset.mem_filter.mpr ⟨StableHlo.devRef_mem_tcRefs main_arg1, by decide⟩)).trans (V19_main_arg1 m outs c),
    (h (Proc.devRef .tc main_arg2) (Finset.mem_filter.mpr ⟨StableHlo.devRef_mem_tcRefs main_arg2, by decide⟩)).trans (V19_main_arg2 m outs c),
    (h (Proc.devRef .tc main_arg3) (Finset.mem_filter.mpr ⟨StableHlo.devRef_mem_tcRefs main_arg3, by decide⟩)).trans (V19_main_arg3 m outs c),
    (h (Proc.devRef .tc main_arg4) (Finset.mem_filter.mpr ⟨StableHlo.devRef_mem_tcRefs main_arg4, by decide⟩)).trans (V19_main_arg4 m outs c),
    (h (Proc.devRef .tc main_arg5) (Finset.mem_filter.mpr ⟨StableHlo.devRef_mem_tcRefs main_arg5, by decide⟩)).trans (V19_main_arg5 m outs c),
    (h (Proc.devRef .tc main_arg6) (Finset.mem_filter.mpr ⟨StableHlo.devRef_mem_tcRefs main_arg6, by decide⟩)).trans (V19_main_arg6 m outs c),
    (h (Proc.devRef .tc main_arg7) (Finset.mem_filter.mpr ⟨StableHlo.devRef_mem_tcRefs main_arg7, by decide⟩)).trans (V19_main_arg7 m outs c),
    (h (Proc.devRef .tc main_arg8) (Finset.mem_filter.mpr ⟨StableHlo.devRef_mem_tcRefs main_arg8, by decide⟩)).trans (V19_main_arg8 m outs c),
    (h (Proc.devRef .tc main_arg9) (Finset.mem_filter.mpr ⟨StableHlo.devRef_mem_tcRefs main_arg9, by decide⟩)).trans (V19_main_arg9 m outs c),
    (h (Proc.devRef .tc main_arg10) (Finset.mem_filter.mpr ⟨StableHlo.devRef_mem_tcRefs main_arg10, by decide⟩)).trans (V19_main_arg10 m outs c),
    (h (Proc.devRef .tc main_arg11) (Finset.mem_filter.mpr ⟨StableHlo.devRef_mem_tcRefs main_arg11, by decide⟩)).trans (V19_main_arg11 m outs c),
    (h (Proc.devRef .tc main_arg12) (Finset.mem_filter.mpr ⟨StableHlo.devRef_mem_tcRefs main_arg12, by decide⟩)).trans (V19_main_arg12 m outs c),
    (h (Proc.devRef .tc main_arg13) (Finset.mem_filter.mpr ⟨StableHlo.devRef_mem_tcRefs main_arg13, by decide⟩)).trans (V19_main_arg13 m outs c),
    (h (Proc.devRef .tc main_arg14) (Finset.mem_filter.mpr ⟨StableHlo.devRef_mem_tcRefs main_arg14, by decide⟩)).trans (V19_main_arg14 m outs c),
    (h (Proc.devRef .tc main_arg15) (Finset.mem_filter.mpr ⟨StableHlo.devRef_mem_tcRefs main_arg15, by decide⟩)).trans (V19_main_arg15 m outs c),
    (h (Proc.devRef .tc main_arg16) (Finset.mem_filter.mpr ⟨StableHlo.devRef_mem_tcRefs main_arg16, by decide⟩)).trans (V19_main_arg16 m outs c),
    (h (Proc.devRef .tc main_arg17) (Finset.mem_filter.mpr ⟨StableHlo.devRef_mem_tcRefs main_arg17, by decide⟩)).trans (V19_main_arg17 m outs c),
    (h (Proc.devRef .tc main_arg18) (Finset.mem_filter.mpr ⟨StableHlo.devRef_mem_tcRefs main_arg18, by decide⟩)).trans (V19_main_arg18 m outs c)⟩

end Cert.Kernel.Net

namespace Cert.Proof.Frames

open Idealize.ShloMosaic Idealize.SL.Sem

variable [hKernel : Cert.Kernel.Facts] [hKernelIdeal : Cert.KernelIdeal.Facts] [hReferenceIdeal : Cert.ReferenceIdeal.Facts]
  [hPre : Cert.Pre_finite_inputs.Facts]

/-- The word-level program runs to the end and leaves its arguments as launched. -/
theorem frame_kernel : Cert.frame_Kernel := fun m ρ _ =>
  (θ_run Cert.Kernel.defs _ _).mono (fun r h c => Cert.Kernel.Net.args_kept m _ r.2 c (h c)) (Cert.Kernel.Net.run (F := Bits) m ρ)

/-- So does the idealized program. -/
theorem frame_kernelIdeal : Cert.frame_KernelIdeal := fun m ρ _ =>
  (θ_run Cert.KernelIdeal.defs _ _).mono (fun r h c => Cert.KernelIdeal.Net.args_kept m _ r.2 c (h c)) (Cert.KernelIdeal.Net.run (F := Ideal) m ρ)

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's three rewrites, each its rule's statement at the site's shape: a narrowing to bf16 followed by the
    widening back is the identity on the extended reals, and one with an operand's sign bit is the sign's select form. -/
theorem preserves : Cert.preserves_Kernel_KernelIdeal :=
  ⟨IdealRules.truncf_extf.statement Cert.KernelIdeal.S256x784 .f32 .bf16,
   IdealRules.sign_bit.statement Cert.KernelIdeal.S256x4096 .f32,
   IdealRules.sign_bit.statement Cert.KernelIdeal.S1024x1024 .f32⟩

end Cert.Proof.Frames

end
-- ==== Proof.Spec.lean ====
/-
  The network as one function of its argument arrays, on the extended reals.

  Each layer is a binarized affine map followed by an inference-mode batch normalization:
  for an activation row `a` and a weight row `w` the pre-activation is `∑ k, a k * sgn (w k)`,
  and the normalization of `h` with bias `b`, scale `g`, shift `be`, running mean `mu` and running
  variance `v` is `((h + b) - mu) * rsqrt (v + ε) * g + be`, the operations taken in exactly this
  order and grouping. Layers one and two end with the sign; layer three does not.
-/
import Idealize.ShloMosaic.PureOps.Ideal
import Idealize.ShloMosaic.Lib.ValueIdx

noncomputable section

namespace Cert.Spec

open Idealize.ShloMosaic

/-- A rank-two array read at a row and a column. -/
def mat {a b : ℕ} (x : (⟨2, ![a, b]⟩ : Shape).Idx → EReal) (i : Fin a) (j : Fin b) : EReal := x (ValueIdx.ix2 i j)

/-- A rank-one array read at a position. -/
def vec {a : ℕ} (x : (⟨1, ![a]⟩ : Shape).Idx → EReal) (i : Fin a) : EReal := x (ValueIdx.ix1 i)

/-- The variance offset: the binary32 pattern nearest to `1e-5`, read as the real it denotes. -/
def eps : EReal := Ideal.ofBits .f32 0x3727C5AC#32

/-- The sign on the extended reals: `-1`, `0` or `1` by the order. -/
def sgn (x : EReal) : EReal := Ideal.sign x

/-- One entry of a binarized affine map: the activations against the signs of the weights. -/
def lin {K : ℕ} (a w : Fin K → EReal) : EReal := ∑ k, a k * sgn (w k)

/-- Inference-mode batch normalization of one pre-activation. -/
def bn (h b g be mu v : EReal) : EReal := ((h + b) - mu) * Ideal.rsqrt (v + eps) * g + be

/-- The first hidden layer's activations. -/
def act1 (x : Fin 16384 → Fin 784 → EReal) (W1 : Fin 4096 → Fin 784 → EReal) (b1 g1 be1 m1 v1 : Fin 4096 → EReal)
    (i : Fin 16384) (j : Fin 4096) : EReal :=
  sgn (bn (lin (x i) (W1 j)) (b1 j) (g1 j) (be1 j) (m1 j) (v1 j))

/-- The second hidden layer's activations, from the first's. -/
def act2 (a1 : Fin 16384 → Fin 4096 → EReal) (W2 : Fin 4096 → Fin 4096 → EReal) (b2 g2 be2 m2 v2 : Fin 4096 → EReal)
    (i : Fin 16384) (j : Fin 4096) : EReal :=
  sgn (bn (lin (a1 i) (W2 j)) (b2 j) (g2 j) (be2 j) (m2 j) (v2 j))

/-- The output layer, from the second hidden layer's activations: no sign at the end. -/
def out3 (a2 : Fin 16384 → Fin 4096 → EReal) (W3 : Fin 10 → Fin 4096 → EReal) (b3 g3 be3 m3 v3 : Fin 10 → EReal)
    (i : Fin 16384) (o : Fin 10) : EReal :=
  bn (lin (a2 i) (W3 o)) (b3 o) (g3 o) (be3 o) (m3 o) (v3 o)

/-- The whole network. -/
def net (x : Fin 16384 → Fin 784 → EReal)
    (W1 : Fin 4096 → Fin 784 → EReal) (b1 g1 be1 m1 v1 : Fin 4096 → EReal)
    (W2 : Fin 4096 → Fin 4096 → EReal) (b2 g2 be2 m2 v2 : Fin 4096 → EReal)
    (W3 : Fin 10 → Fin 4096 → EReal) (b3 g3 be3 m3 v3 : Fin 10 → EReal)
    (i : Fin 16384) (o : Fin 10) : EReal :=
  out3 (act2 (act1 x W1 b1 g1 be1 m1 v1) W2 b2 g2 be2 m2 v2) W3 b3 g3 be3 m3 v3 i o

/-- The straight-through binarization of the reference, `y + (sgn x - y)` with `y` the clip of `x` to
    `[-1, 1]`, is the sign: the clip is a real number, so the sum telescopes. -/
theorem clip_add_sgn_sub_clip (x : EReal) :
    min 1 (max (-1) x) + (sgn x - min 1 (max (-1) x)) = sgn x := by
  have hy : ∃ y : ℝ, min (1 : EReal) (max (-1) x) = (y : EReal) := by
    have h1 : min (1 : EReal) (max (-1) x) ≤ 1 := min_le_left _ _
    have hm : (-1 : EReal) = ((-1 : ℝ) : EReal) := by rw [EReal.coe_neg, EReal.coe_one]
    have h11 : (-1 : EReal) ≤ 1 := by
      rw [hm, ← EReal.coe_one]; exact EReal.coe_le_coe_iff.mpr (by norm_num)
    have h2 : (-1 : EReal) ≤ min (1 : EReal) (max (-1) x) := le_min h11 (le_max_left _ _)
    have hone : (1 : EReal) ≠ ⊤ := by exact_mod_cast EReal.coe_ne_top (1 : ℝ)
    have hmone : (-1 : EReal) ≠ ⊥ := by rw [hm]; exact EReal.coe_ne_bot _
    have hne_top : min (1 : EReal) (max (-1) x) ≠ ⊤ := ne_top_of_le_ne_top hone h1
    have hne_bot : min (1 : EReal) (max (-1) x) ≠ ⊥ := ne_bot_of_le_ne_bot hmone h2
    exact ⟨_, (EReal.coe_toReal hne_top hne_bot).symm⟩
  obtain ⟨y, hy⟩ := hy
  have hs : ∃ s : ℝ, sgn x = (s : EReal) := by
    unfold sgn
    induction x using EReal.rec with
    | bot => exact ⟨-1, by simp⟩
    | coe r => exact ⟨_, Ideal.sign_coe r⟩
    | top => exact ⟨1, by simp⟩
  obtain ⟨s, hs⟩ := hs
  rw [hy, hs, ← EReal.coe_sub, ← EReal.coe_add]
  congr 1; ring

end Cert.Spec

end
-- ==== Proof.RefValue.lean ====
/-
  The reference program's result, read index by index, is the network `Cert.Spec.net` of its argument arrays.

  The reference is three times the same chain: the weight is replaced by its sign (written as the clip to
  `[-1, 1]` plus the difference of the sign and the clip, which telescopes because the clip is a real number),
  the activations are contracted against it, and the result is normalized, `((h + b) - mu) * rsqrt (v + ε) * g + be`.
  After layers one and two the same telescoping sum replaces the normalized value by its sign.
-/
import proofs.«112361_j47373489275136_2_alg».proof.Proof.Gen.ReferenceIdeal.Run
import proofs.«112361_j47373489275136_2_alg».proof.Proof.Gen.ReferenceIdeal.Read
import proofs.«112361_j47373489275136_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.SL.Sem

/-- The binary32 pattern `0xBF800000` is minus one. -/
theorem ofBits_neg_one_f32 : Ideal.ofBits .f32 0xBF800000#32 = (-1 : EReal) := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The clip to `[-1, 1]` plus the difference of the sign and the clip is the sign, with the bounds written as
    their binary32 patterns. -/
theorem binarize_eq_sgn (x : EReal) :
    min (Ideal.ofBits .f32 0x3F800000#32) (max (Ideal.ofBits .f32 0xBF800000#32) x)
      + (Ideal.sign x - min (Ideal.ofBits .f32 0x3F800000#32) (max (Ideal.ofBits .f32 0xBF800000#32) x)) = Cert.Spec.sgn x := by
  rw [Ideal.ofBits_one_f32, ofBits_neg_one_f32]
  exact Cert.Spec.clip_add_sgn_sub_clip x

/-! ## Layer one -/

/-- The first layer's binarized weight is the sign of the weight. -/
theorem w1_sgn (x1 : (⟨S4096x784, .f32⟩ : BufTy).Contents (Elt Ideal)) (i : S4096x784.Idx) :
    Read.val_main_v3 (F := Ideal) x1 i = Cert.Spec.sgn (x1 i) := by
  simp only [Read.val_main_v3_apply, Read.val_main_v2_apply, Read.val_main_v1_apply, Read.val_main_v0_apply,
    Read.val_main_call0_v4_apply, Read.val_main_call0_v3_apply, Read.val_main_cst_0_apply,
    Read.val_main_call0_v2_apply, Read.val_main_call0_v1_apply, Read.val_main_call0_v0_apply, Read.val_main_cst_apply,
    Ideal.addf_def, Ideal.subf_def, Ideal.maximumf_def, Ideal.minimumf_def, Ideal.hostUnary_sign_def, Ideal.ofBits_def]
  exact binarize_eq_sgn (x1 i)

/-- The first layer's pre-activation is the input row against the signs of the weight row. -/
theorem l1_lin (x0 : (⟨S16384x784, .f32⟩ : BufTy).Contents (Elt Ideal)) (x1 : (⟨S4096x784, .f32⟩ : BufTy).Contents (Elt Ideal)) (i : Fin 16384) (j : Fin 4096) :
    Read.val_main_v5 (F := Ideal) x0 x1 (ValueIdx.ix2 i j) = Cert.Spec.lin (Cert.Spec.mat x0 i) (Cert.Spec.mat x1 j) := by
  rw [Read.val_main_v5_apply]
  unfold Cert.Spec.lin Cert.Spec.mat
  refine Finset.sum_congr rfl fun k _ => ?_
  rw [Read.val_main_v4_apply, w1_sgn]
  have e1 : Read.lidx_main_v5 (ValueIdx.ix2 i j) k = ValueIdx.ix2 i k :=
    funext fun a => Fin.ext (by match a with | ⟨0, _⟩ => rfl | ⟨1, _⟩ => rfl)
  have e2 : Read.idx_main_v4 (Read.ridx_main_v5 (ValueIdx.ix2 i j) k) = ValueIdx.ix2 j k :=
    funext fun a => Fin.ext (by match a with | ⟨0, _⟩ => rfl | ⟨1, _⟩ => rfl)
  rw [e1, e2]

/-- The first layer's normalization, read at a row and a column, from its pre-activation. -/
theorem l1_bn (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (i : Fin 16384) (j : Fin 4096) :
    Read.val_main_v23 (F := Ideal) x0 x1 x2 x3 x4 x5 x6 (ValueIdx.ix2 i j)
      = Cert.Spec.bn (Read.val_main_v5 (F := Ideal) x0 x1 (ValueIdx.ix2 i j))
          (Cert.Spec.vec x2 j) (Cert.Spec.vec x3 j) (Cert.Spec.vec x4 j) (Cert.Spec.vec x5 j) (Cert.Spec.vec x6 j) := by
  have eb : Read.idx_main_v6 (Read.idx_main_v7 (ValueIdx.ix2 i j)) = ValueIdx.ix1 j :=
    funext fun a => Fin.ext (by match a with | ⟨0, _⟩ => rfl)
  have em : Read.idx_main_v9 (Read.idx_main_v10 (ValueIdx.ix2 i j)) = ValueIdx.ix1 j :=
    funext fun a => Fin.ext (by match a with | ⟨0, _⟩ => rfl)
  have ev : Read.idx_main_v15 (Read.idx_main_v16 (ValueIdx.ix2 i j)) = ValueIdx.ix1 j :=
    funext fun a => Fin.ext (by match a with | ⟨0, _⟩ => rfl)
  have eg : Read.idx_main_v18 (Read.idx_main_v19 (ValueIdx.ix2 i j)) = ValueIdx.ix1 j :=
    funext fun a => Fin.ext (by match a with | ⟨0, _⟩ => rfl)
  have ebe : Read.idx_main_v21 (Read.idx_main_v22 (ValueIdx.ix2 i j)) = ValueIdx.ix1 j :=
    funext fun a => Fin.ext (by match a with | ⟨0, _⟩ => rfl)
  simp only [Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_cst_1_apply,
    Ideal.addf_def, Ideal.subf_def, Ideal.mulf_def, Ideal.hostUnary_rsqrt_def, Ideal.ofBits_def]
  rw [eb, em, ev, eg, ebe]
  rfl

/-- The first layer's straight-through binarization of the normalized value is its sign. -/
theorem l1_binarize (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (q : S16384x4096.Idx) :
    Read.val_main_v27 (F := Ideal) x0 x1 x2 x3 x4 x5 x6 q = Cert.Spec.sgn (Read.val_main_v23 (F := Ideal) x0 x1 x2 x3 x4 x5 x6 q) := by
  simp only [Read.val_main_v27_apply, Read.val_main_v26_apply, Read.val_main_v25_apply, Read.val_main_v24_apply, Read.val_main_call1_v4_apply, Read.val_main_call1_v3_apply, Read.val_main_cst_3_apply, Read.val_main_call1_v2_apply, Read.val_main_call1_v1_apply, Read.val_main_call1_v0_apply, Read.val_main_cst_2_apply,
    Ideal.addf_def, Ideal.subf_def, Ideal.maximumf_def, Ideal.minimumf_def, Ideal.hostUnary_sign_def, Ideal.ofBits_def]
  exact binarize_eq_sgn _

/-- The first hidden layer of the reference is the specification's. -/
theorem l1_act (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (i : Fin 16384) (j : Fin 4096) :
    Read.val_main_v27 (F := Ideal) x0 x1 x2 x3 x4 x5 x6 (ValueIdx.ix2 i j)
      = Cert.Spec.act1 (Cert.Spec.mat x0) (Cert.Spec.mat x1) (Cert.Spec.vec x2) (Cert.Spec.vec x3) (Cert.Spec.vec x4) (Cert.Spec.vec x5) (Cert.Spec.vec x6) i j := by
  rw [l1_binarize, l1_bn, l1_lin]
  rfl

/-! ## Layer two -/

/-- The second layer's binarized weight is the sign of the weight. -/
theorem w2_sgn (x7 : (⟨S4096x4096, .f32⟩ : BufTy).Contents (Elt Ideal)) (q : S4096x4096.Idx) :
    Read.val_main_v31 (F := Ideal) x7 q = Cert.Spec.sgn (x7 q) := by
  simp only [Read.val_main_v31_apply, Read.val_main_v30_apply, Read.val_main_v29_apply, Read.val_main_v28_apply, Read.val_main_call2_v4_apply, Read.val_main_call2_v3_apply, Read.val_main_cst_5_apply, Read.val_main_call2_v2_apply, Read.val_main_call2_v1_apply, Read.val_main_call2_v0_apply, Read.val_main_cst_4_apply,
    Ideal.addf_def, Ideal.subf_def, Ideal.maximumf_def, Ideal.minimumf_def, Ideal.hostUnary_sign_def, Ideal.ofBits_def]
  exact binarize_eq_sgn (x7 q)

/-- The second layer's pre-activation is the first layer's activation row against the signs of the weight row. -/
theorem l2_lin (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (x7 : (⟨S4096x4096, .f32⟩ : BufTy).Contents (Elt Ideal)) (i : Fin 16384) (j : Fin 4096) :
    Read.val_main_v33 (F := Ideal) x0 x1 x2 x3 x4 x5 x6 x7 (ValueIdx.ix2 i j)
      = Cert.Spec.lin (fun k => Read.val_main_v27 (F := Ideal) x0 x1 x2 x3 x4 x5 x6 (ValueIdx.ix2 i k)) (Cert.Spec.mat x7 j) := by
  rw [Read.val_main_v33_apply]
  unfold Cert.Spec.lin Cert.Spec.mat
  refine Finset.sum_congr rfl fun k _ => ?_
  rw [Read.val_main_v32_apply, w2_sgn]
  have e1 : Read.lidx_main_v33 (ValueIdx.ix2 i j) k = ValueIdx.ix2 i k :=
    funext fun a => Fin.ext (by match a with | ⟨0, _⟩ => rfl | ⟨1, _⟩ => rfl)
  have e2 : Read.idx_main_v32 (Read.ridx_main_v33 (ValueIdx.ix2 i j) k) = ValueIdx.ix2 j k :=
    funext fun a => Fin.ext (by match a with | ⟨0, _⟩ => rfl | ⟨1, _⟩ => rfl)
  rw [e1, e2]

/-- The second layer's normalization, read at a row and a column, from its pre-activation. -/
theorem l2_bn (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (i : Fin 16384) (j : Fin 4096) :
    Read.val_main_v51 (F := Ideal) x0 x1 x2 x3 x4 x5 x6 x7 x8 x9 x10 x11 x12 (ValueIdx.ix2 i j)
      = Cert.Spec.bn (Read.val_main_v33 (F := Ideal) x0 x1 x2 x3 x4 x5 x6 x7 (ValueIdx.ix2 i j))
          (Cert.Spec.vec x8 j) (Cert.Spec.vec x9 j) (Cert.Spec.vec x10 j) (Cert.Spec.vec x11 j) (Cert.Spec.vec x12 j) := by
  have eb : Read.idx_main_v34 (Read.idx_main_v35 (ValueIdx.ix2 i j)) = ValueIdx.ix1 j :=
    funext fun a => Fin.ext (by match a with | ⟨0, _⟩ => rfl)
  have em : Read.idx_main_v37 (Read.idx_main_v38 (ValueIdx.ix2 i j)) = ValueIdx.ix1 j :=
    funext fun a => Fin.ext (by match a with | ⟨0, _⟩ => rfl)
  have ev : Read.idx_main_v43 (Read.idx_main_v44 (ValueIdx.ix2 i j)) = ValueIdx.ix1 j :=
    funext fun a => Fin.ext (by match a with | ⟨0, _⟩ => rfl)
  have eg : Read.idx_main_v46 (Read.idx_main_v47 (ValueIdx.ix2 i j)) = ValueIdx.ix1 j :=
    funext fun a => Fin.ext (by match a with | ⟨0, _⟩ => rfl)
  have ebe : Read.idx_main_v49 (Read.idx_main_v50 (ValueIdx.ix2 i j)) = ValueIdx.ix1 j :=
    funext fun a => Fin.ext (by match a with | ⟨0, _⟩ => rfl)
  simp only [Read.val_main_v51_apply, Read.val_main_v50_apply, Read.val_main_v49_apply, Read.val_main_v48_apply, Read.val_main_v47_apply, Read.val_main_v46_apply, Read.val_main_v45_apply, Read.val_main_v44_apply, Read.val_main_v43_apply, Read.val_main_v42_apply, Read.val_main_v41_apply, Read.val_main_v40_apply, Read.val_main_v39_apply, Read.val_main_v38_apply, Read.val_main_v37_apply, Read.val_main_v36_apply, Read.val_main_v35_apply, Read.val_main_v34_apply, Read.val_main_cst_6_apply,
    Ideal.addf_def, Ideal.subf_def, Ideal.mulf_def, Ideal.hostUnary_rsqrt_def, Ideal.ofBits_def]
  rw [eb, em, ev, eg, ebe]
  rfl

/-- The second layer's straight-through binarization of the normalized value is its sign. -/
theorem l2_binarize (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (q : S16384x4096.Idx) :
    Read.val_main_v55 (F := Ideal) x0 x1 x2 x3 x4 x5 x6 x7 x8 x9 x10 x11 x12 q = Cert.Spec.sgn (Read.val_main_v51 (F := Ideal) x0 x1 x2 x3 x4 x5 x6 x7 x8 x9 x10 x11 x12 q) := by
  simp only [Read.val_main_v55_apply, Read.val_main_v54_apply, Read.val_main_v53_apply, Read.val_main_v52_apply, Read.val_main_call3_v4_apply, Read.val_main_call3_v3_apply, Read.val_main_cst_8_apply, Read.val_main_call3_v2_apply, Read.val_main_call3_v1_apply, Read.val_main_call3_v0_apply, Read.val_main_cst_7_apply,
    Ideal.addf_def, Ideal.subf_def, Ideal.maximumf_def, Ideal.minimumf_def, Ideal.hostUnary_sign_def, Ideal.ofBits_def]
  exact binarize_eq_sgn _

/-- The second hidden layer of the reference is the specification's. -/
theorem l2_act (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (i : Fin 16384) (j : Fin 4096) :
    Read.val_main_v55 (F := Ideal) x0 x1 x2 x3 x4 x5 x6 x7 x8 x9 x10 x11 x12 (ValueIdx.ix2 i j)
      = Cert.Spec.act2 (Cert.Spec.act1 (Cert.Spec.mat x0) (Cert.Spec.mat x1) (Cert.Spec.vec x2) (Cert.Spec.vec x3) (Cert.Spec.vec x4) (Cert.Spec.vec x5) (Cert.Spec.vec x6))
          (Cert.Spec.mat x7) (Cert.Spec.vec x8) (Cert.Spec.vec x9) (Cert.Spec.vec x10) (Cert.Spec.vec x11) (Cert.Spec.vec x12) i j := by
  rw [l2_binarize, l2_bn, l2_lin]
  have h : (fun k => Read.val_main_v27 (F := Ideal) x0 x1 x2 x3 x4 x5 x6 (ValueIdx.ix2 i k))
      = Cert.Spec.act1 (Cert.Spec.mat x0) (Cert.Spec.mat x1) (Cert.Spec.vec x2) (Cert.Spec.vec x3) (Cert.Spec.vec x4) (Cert.Spec.vec x5) (Cert.Spec.vec x6) i :=
    funext fun k => l1_act x0 x1 x2 x3 x4 x5 x6 i k
  rw [h]
  rfl

/-! ## Layer three -/

/-- The third layer's binarized weight is the sign of the weight. -/
theorem w3_sgn (x13 : (⟨S10x4096, .f32⟩ : BufTy).Contents (Elt Ideal)) (q : S10x4096.Idx) :
    Read.val_main_v59 (F := Ideal) x13 q = Cert.Spec.sgn (x13 q) := by
  simp only [Read.val_main_v59_apply, Read.val_main_v58_apply, Read.val_main_v57_apply, Read.val_main_v56_apply, Read.val_main_call4_v4_apply, Read.val_main_call4_v3_apply, Read.val_main_cst_10_apply, Read.val_main_call4_v2_apply, Read.val_main_call4_v1_apply, Read.val_main_call4_v0_apply, Read.val_main_cst_9_apply,
    Ideal.addf_def, Ideal.subf_def, Ideal.maximumf_def, Ideal.minimumf_def, Ideal.hostUnary_sign_def, Ideal.ofBits_def]
  exact binarize_eq_sgn (x13 q)

/-- The third layer's pre-activation is the second layer's activation row against the signs of the weight row. -/
theorem l3_lin (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (x13 : (⟨S10x4096, .f32⟩ : BufTy).Contents (Elt Ideal)) (i : Fin 16384) (j : Fin 10) :
    Read.val_main_v61 (F := Ideal) x0 x1 x2 x3 x4 x5 x6 x7 x8 x9 x10 x11 x12 x13 (ValueIdx.ix2 i j)
      = Cert.Spec.lin (fun k => Read.val_main_v55 (F := Ideal) x0 x1 x2 x3 x4 x5 x6 x7 x8 x9 x10 x11 x12 (ValueIdx.ix2 i k)) (Cert.Spec.mat x13 j) := by
  rw [Read.val_main_v61_apply]
  unfold Cert.Spec.lin Cert.Spec.mat
  refine Finset.sum_congr rfl fun k _ => ?_
  rw [Read.val_main_v60_apply, w3_sgn]
  have e1 : Read.lidx_main_v61 (ValueIdx.ix2 i j) k = ValueIdx.ix2 i k :=
    funext fun a => Fin.ext (by match a with | ⟨0, _⟩ => rfl | ⟨1, _⟩ => rfl)
  have e2 : Read.idx_main_v60 (Read.ridx_main_v61 (ValueIdx.ix2 i j) k) = ValueIdx.ix2 j k :=
    funext fun a => Fin.ext (by match a with | ⟨0, _⟩ => rfl | ⟨1, _⟩ => rfl)
  rw [e1, e2]

/-- The third layer's normalization, read at a row and a column, from its pre-activation. -/
theorem l3_bn (x0 : (⟨S16384x784, .f32⟩ : BufTy).Contents (Elt Ideal)) (x1 : (⟨S4096x784, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (x13 : (⟨S10x4096, .f32⟩ : BufTy).Contents (Elt Ideal)) (x14 x15 x16 x17 x18 : (⟨S10, .f32⟩ : BufTy).Contents (Elt Ideal)) (i : Fin 16384) (j : Fin 10) :
    Read.val_main_v79 (F := Ideal) x0 x1 x2 x3 x4 x5 x6 x7 x8 x9 x10 x11 x12 x13 x14 x15 x16 x17 x18 (ValueIdx.ix2 i j)
      = Cert.Spec.bn (Read.val_main_v61 (F := Ideal) x0 x1 x2 x3 x4 x5 x6 x7 x8 x9 x10 x11 x12 x13 (ValueIdx.ix2 i j))
          (Cert.Spec.vec x14 j) (Cert.Spec.vec x15 j) (Cert.Spec.vec x16 j) (Cert.Spec.vec x17 j) (Cert.Spec.vec x18 j) := by
  have eb : Read.idx_main_v62 (Read.idx_main_v63 (ValueIdx.ix2 i j)) = ValueIdx.ix1 j :=
    funext fun a => Fin.ext (by match a with | ⟨0, _⟩ => rfl)
  have em : Read.idx_main_v65 (Read.idx_main_v66 (ValueIdx.ix2 i j)) = ValueIdx.ix1 j :=
    funext fun a => Fin.ext (by match a with | ⟨0, _⟩ => rfl)
  have ev : Read.idx_main_v71 (Read.idx_main_v72 (ValueIdx.ix2 i j)) = ValueIdx.ix1 j :=
    funext fun a => Fin.ext (by match a with | ⟨0, _⟩ => rfl)
  have eg : Read.idx_main_v74 (Read.idx_main_v75 (ValueIdx.ix2 i j)) = ValueIdx.ix1 j :=
    funext fun a => Fin.ext (by match a with | ⟨0, _⟩ => rfl)
  have ebe : Read.idx_main_v77 (Read.idx_main_v78 (ValueIdx.ix2 i j)) = ValueIdx.ix1 j :=
    funext fun a => Fin.ext (by match a with | ⟨0, _⟩ => rfl)
  simp only [Read.val_main_v79_apply, Read.val_main_v78_apply, Read.val_main_v77_apply, Read.val_main_v76_apply, Read.val_main_v75_apply, Read.val_main_v74_apply, Read.val_main_v73_apply, Read.val_main_v72_apply, Read.val_main_v71_apply, Read.val_main_v70_apply, Read.val_main_v69_apply, Read.val_main_v68_apply, Read.val_main_v67_apply, Read.val_main_v66_apply, Read.val_main_v65_apply, Read.val_main_v64_apply, Read.val_main_v63_apply, Read.val_main_v62_apply, Read.val_main_cst_11_apply,
    Ideal.addf_def, Ideal.subf_def, Ideal.mulf_def, Ideal.hostUnary_rsqrt_def, Ideal.ofBits_def]
  rw [eb, em, ev, eg, ebe]
  rfl

/-! ## The whole network -/

/-- The reference's result, read at a row and an output, is the network of the argument arrays. -/
theorem ref_eq_net (x0 : S16384x784.Idx → EReal) (x1 : S4096x784.Idx → EReal) (x2 x3 x4 x5 x6 : S4096.Idx → EReal)
    (x7 : S4096x4096.Idx → EReal) (x8 x9 x10 x11 x12 : S4096.Idx → EReal)
    (x13 : S10x4096.Idx → EReal) (x14 x15 x16 x17 x18 : S10.Idx → EReal) (i : Fin 16384) (o : Fin 10) :
    Read.val_main_v79 (F := Ideal) x0 x1 x2 x3 x4 x5 x6 x7 x8 x9 x10 x11 x12 x13 x14 x15 x16 x17 x18 (ValueIdx.ix2 i o)
      = Cert.Spec.net (Cert.Spec.mat x0) (Cert.Spec.mat x1) (Cert.Spec.vec x2) (Cert.Spec.vec x3) (Cert.Spec.vec x4) (Cert.Spec.vec x5) (Cert.Spec.vec x6)
          (Cert.Spec.mat x7) (Cert.Spec.vec x8) (Cert.Spec.vec x9) (Cert.Spec.vec x10) (Cert.Spec.vec x11) (Cert.Spec.vec x12)
          (Cert.Spec.mat x13) (Cert.Spec.vec x14) (Cert.Spec.vec x15) (Cert.Spec.vec x16) (Cert.Spec.vec x17) (Cert.Spec.vec x18) i o := by
  rw [l3_bn, l3_lin]
  have h : (fun k => Read.val_main_v55 (F := Ideal) x0 x1 x2 x3 x4 x5 x6 x7 x8 x9 x10 x11 x12 (ValueIdx.ix2 i k))
      = Cert.Spec.act2 (Cert.Spec.act1 (Cert.Spec.mat x0) (Cert.Spec.mat x1) (Cert.Spec.vec x2) (Cert.Spec.vec x3) (Cert.Spec.vec x4) (Cert.Spec.vec x5) (Cert.Spec.vec x6))
          (Cert.Spec.mat x7) (Cert.Spec.vec x8) (Cert.Spec.vec x9) (Cert.Spec.vec x10) (Cert.Spec.vec x11) (Cert.Spec.vec x12) i :=
    funext fun k => l2_act x0 x1 x2 x3 x4 x5 x6 x7 x8 x9 x10 x11 x12 i k
  rw [h]
  rfl

end Cert.ReferenceIdeal.RefValue

end
-- ==== Proof.Finite.lean ====
/-
  From the precondition to the finiteness of the first argument: the precondition is a conjunction of one
  "every entry is below +∞ in absolute value" per argument array; its first conjunct says that every entry
  of the first array is a real number.
-/
import proofs.«112361_j47373489275136_2_alg».proof.Defs
import proofs.«112361_j47373489275136_2_alg».proof.Proof.Gen.Pre_finite_inputs
import Idealize.ShloMosaic.Lib.ReduceAll
import Idealize.ShloMosaic.Lib.ValueIdx

noncomputable section

namespace Cert.KernelIdeal.InputFinite

open Idealize.ShloMosaic Idealize.SL.Sem Cert.Pre_finite_inputs

/-- The rank-zero shape has one index. -/
instance : Subsingleton S_.Idx := ⟨fun a b => funext fun d => d.elim0⟩

/-- An extended real whose absolute value is below `+∞` is a real number. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [hP : Cert.Pre_finite_inputs.Facts]

/-- The last stretch of the conjunction is one only if the conjunction carried into it is. -/
theorem part5_head (a18 : FVec Ideal S10 .f32) (v83 : IVec S_ 1) (v84 : FVec Ideal S10 .f32) (cst : FVec Ideal S_ .f32)
    (j : S_.Idx) (h : fn_part5 (F := Ideal) a18 v83 v84 cst j = 1#1) : v83 j = 1#1 := by
  unfold fn_part5 at h
  exact (IntOp.andi_eq_one.1 (IntOp.andi_eq_one.1 h).1).1

/-- The same for the stretch before it. -/
theorem part4_head (a14 a15 a16 a17 a18 : FVec Ideal S10 .f32) (v63 v67 : IVec S_ 1)
    (j : S_.Idx) (h : fn_part4 (F := Ideal) a14 a15 a16 a17 a18 v63 v67 j = 1#1) : v63 j = 1#1 := by
  unfold fn_part4 at h
  have h83 := part5_head _ _ _ _ j h
  exact (IntOp.andi_eq_one.1 (IntOp.andi_eq_one.1 (IntOp.andi_eq_one.1 (IntOp.andi_eq_one.1 h83).1).1).1).1

/-- The same for the third stretch. -/
theorem part3_head (a11 a12 : FVec Ideal S4096 .f32) (a13 : FVec Ideal S10x4096 .f32) (a14 a15 a16 a17 a18 : FVec Ideal S10 .f32)
    (v48 : IVec S_ 1) (v49 v50 : FVec Ideal S4096 .f32)
    (j : S_.Idx) (h : fn_part3 (F := Ideal) a11 a12 a13 a14 a15 a16 a17 a18 v48 v49 v50 j = 1#1) : v48 j = 1#1 := by
  unfold fn_part3 at h
  have h63 := part4_head _ _ _ _ _ _ _ j h
  exact (IntOp.andi_eq_one.1 (IntOp.andi_eq_one.1 (IntOp.andi_eq_one.1 h63).1).1).1

/-- The same for the second stretch. -/
theorem part2_head (a7 : FVec Ideal S4096x4096 .f32) (a8 a9 a10 a11 a12 : FVec Ideal S4096 .f32) (a13 : FVec Ideal S10x4096 .f32)
    (a14 a15 a16 a17 a18 : FVec Ideal S10 .f32) (v33 : IVec S_ 1)
    (j : S_.Idx) (h : fn_part2 (F := Ideal) a7 a8 a9 a10 a11 a12 a13 a14 a15 a16 a17 a18 v33 j = 1#1) : v33 j = 1#1 := by
  unfold fn_part2 at h
  have h48 := part3_head _ _ _ _ _ _ _ _ _ _ _ j h
  exact (IntOp.andi_eq_one.1 (IntOp.andi_eq_one.1 (IntOp.andi_eq_one.1 h48).1).1).1

/-- The same for the first stretch. -/
theorem part1_head (a4 a5 a6 : FVec Ideal S4096 .f32) (a7 : FVec Ideal S4096x4096 .f32) (a8 a9 a10 a11 a12 : FVec Ideal S4096 .f32)
    (a13 : FVec Ideal S10x4096 .f32) (a14 a15 a16 a17 a18 : FVec Ideal S10 .f32) (v13 : IVec S_ 1) (v16 : IVec S4096 1)
    (j : S_.Idx) (h : fn_part1 (F := Ideal) a4 a5 a6 a7 a8 a9 a10 a11 a12 a13 a14 a15 a16 a17 a18 v13 v16 j = 1#1) : v13 j = 1#1 := by
  unfold fn_part1 at h
  have h33 := part2_head _ _ _ _ _ _ _ _ _ _ _ _ _ j h
  exact (IntOp.andi_eq_one.1 (IntOp.andi_eq_one.1 (IntOp.andi_eq_one.1 (IntOp.andi_eq_one.1 h33).1).1).1).1

/-- Where the whole conjunction is one, every entry of the first array is a real number. -/
theorem first_real (a0 : FVec Ideal S16384x784 .f32) (a1 : FVec Ideal S4096x784 .f32) (a2 a3 a4 a5 a6 : FVec Ideal S4096 .f32)
    (a7 : FVec Ideal S4096x4096 .f32) (a8 a9 a10 a11 a12 : FVec Ideal S4096 .f32) (a13 : FVec Ideal S10x4096 .f32)
    (a14 a15 a16 a17 a18 : FVec Ideal S10 .f32) (j : S_.Idx)
    (h : fn (F := Ideal) a0 a1 a2 a3 a4 a5 a6 a7 a8 a9 a10 a11 a12 a13 a14 a15 a16 a17 a18 j = 1#1) :
    ∀ i, ∃ r : ℝ, a0 i = (r : EReal) := by
  unfold fn at h
  have h13 := part1_head _ _ _ _ _ _ _ _ _ _ _ _ _ _ _ _ _ j h
  have h3 := (IntOp.andi_eq_one.1 (IntOp.andi_eq_one.1 h13).1).1
  intro i
  exact real_of_abs_lt_inf (a0 i) (Host.reduce_andi_all _ _ _ _ j h3 i)

/-- Under the precondition every entry of the first argument array is a real number, on every device. -/
theorem x_finite (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  first_real _ _ _ _ _ _ _ _ _ _ _ _ _ _ _ _ _ _ _ ValueIdx.ix0 (congrFun (h c) ValueIdx.ix0)

end Cert.KernelIdeal.InputFinite

end
-- ==== Proof.Layer.lean ====
/-
  One layer of the network as the kernel computes it: from an activation matrix, an ALREADY BINARIZED weight matrix
  (its entries the signs of the weights) and five parameter rows. `Cert.Spec.act1` and its companions are these with the
  binarized weights `sgn ∘ W`.
-/
import proofs.«112361_j47373489275136_2_alg».proof.Proof.Spec

noncomputable section

namespace Cert.Spec

open Idealize.ShloMosaic

/-- A parameter row stored as a `1 × n` array, read at a column. -/
def row {n : ℕ} (x : (⟨2, ![1, n]⟩ : Shape).Idx → EReal) (j : Fin n) : EReal := x (ValueIdx.ix2 0 j)

/-- A layer without the final sign: the batch normalization of the product with the binarized weights. -/
def affL {B K N : ℕ} (x : Fin B → Fin K → EReal) (wb : Fin N → Fin K → EReal) (b g be mu v : Fin N → EReal)
    (i : Fin B) (j : Fin N) : EReal :=
  bn (∑ k, x i k * wb j k) (b j) (g j) (be j) (mu j) (v j)

/-- A layer with the final sign. -/
def affS {B K N : ℕ} (x : Fin B → Fin K → EReal) (wb : Fin N → Fin K → EReal) (b g be mu v : Fin N → EReal)
    (i : Fin B) (j : Fin N) : EReal :=
  sgn (affL x wb b g be mu v i j)

theorem act1_eq (x : Fin 16384 → Fin 784 → EReal) (W1 : Fin 4096 → Fin 784 → EReal) (b1 g1 be1 m1 v1 : Fin 4096 → EReal) :
    act1 x W1 b1 g1 be1 m1 v1 = affS x (fun j k => sgn (W1 j k)) b1 g1 be1 m1 v1 := rfl

theorem act2_eq (a1 : Fin 16384 → Fin 4096 → EReal) (W2 : Fin 4096 → Fin 4096 → EReal) (b2 g2 be2 m2 v2 : Fin 4096 → EReal) :
    act2 a1 W2 b2 g2 be2 m2 v2 = affS a1 (fun j k => sgn (W2 j k)) b2 g2 be2 m2 v2 := rfl

theorem out3_eq (a2 : Fin 16384 → Fin 4096 → EReal) (W3 : Fin 10 → Fin 4096 → EReal) (b3 g3 be3 m3 v3 : Fin 10 → EReal) :
    out3 a2 W3 b3 g3 be3 m3 v3 = affL a2 (fun j k => sgn (W3 j k)) b3 g3 be3 m3 v3 := rfl

end Cert.Spec

end
-- ==== Proof.L1Pay.lean ====
/-
  The first layer's block at an entry. The body splits the input into a high part and a low part and
  multiplies each against the weights; on the extended reals the high part is the input itself and the
  low part is the input minus itself, which is zero where the input is finite, so the second product
  vanishes and the block is the sign of the batch-normalized row-by-row sum.
-/
import proofs.«112361_j47373489275136_2_alg».proof.Proof.Gen.KernelIdeal.Skeleton
import proofs.«112361_j47373489275136_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.L1Pay

open Cert.KernelIdeal Cert.KernelIdeal.Gen Idealize.ShloMosaic Idealize.ShloMosaic.ValueIdx

/-- A one-row array spread down `a` rows reads, at row `p` and column `q`, the row's entry at column `q`. -/
theorem spread_row_apply {α : Type} {a b : ℕ} (x : (⟨2, ![1, b]⟩ : Shape).Idx → α)
    (h : (⟨2, ![1, b]⟩ : Shape).Broadcasts ⟨2, ![a, b]⟩) (p : Fin a) (q : Fin b) :
    broadcastTo (⟨2, ![a, b]⟩ : Shape) x h (ix2 p q) = x (ix2 0 q) := by
  refine broadcastTo_apply x h (ix2 p q) (ix2 0 q) (fun c => ?_)
  match c with
  | ⟨0, _⟩ => show (0 : ℕ) = if (1 : ℕ) = 1 then 0 else _; rw [if_pos rfl]
  | ⟨1, _⟩ =>
    show q.val = if b = 1 then 0 else q.val
    by_cases hb : b = 1
    · rw [if_pos hb]; have := q.isLt; omega
    · rw [if_neg hb]

/-- A block turned over reads, at inner position `j` and column `q`, the block at row `q`, position `j`. -/
theorem turned_apply {α : Type} {a b : ℕ} (x : (⟨2, ![a, b]⟩ : Shape).Idx → α)
    (h : (⟨2, ![a, b]⟩ : Shape).Transposes [1, 0] ⟨2, ![b, a]⟩) (j : Fin b) (q : Fin a) :
    transpose (⟨2, ![b, a]⟩ : Shape) [1, 0] x h (ix2 j q) = x (ix2 q j) := by
  refine transpose_apply [1, 0] x h (ix2 j q) (ix2 q j) (fun c => ?_)
  match c with
  | ⟨0, _⟩ => rfl
  | ⟨1, _⟩ => rfl

/-- The left factor's row is the entry's row. -/
theorem left_row (i : S256x4096.Idx) (c : dot_S256x784_S784x4096_S256x4096_1_0_0_1_n_n.contr.Idx) : (dot_S256x784_S784x4096_S256x4096_1_0_0_1_n_n.lhsIdx i c 0).val = (i 0).val := by
  unfold DotDims.lhsIdx
  rw [dif_neg (show ¬(0 : Fin S256x784.rank) ∈ dot_S256x784_S784x4096_S256x4096_1_0_0_1_n_n.lhsBatch by decide),
    dif_pos (show (0 : Fin S256x784.rank) ∈ dot_S256x784_S784x4096_S256x4096_1_0_0_1_n_n.lhsNonContracting by decide)]
  rfl

/-- The right factor's column is the entry's column. -/
theorem right_col (i : S256x4096.Idx) (c : dot_S256x784_S784x4096_S256x4096_1_0_0_1_n_n.contr.Idx) : (dot_S256x784_S784x4096_S256x4096_1_0_0_1_n_n.rhsIdx i c 1).val = (i 1).val := by
  unfold DotDims.rhsIdx
  rw [dif_neg (show ¬(1 : Fin S784x4096.rank) ∈ dot_S256x784_S784x4096_S256x4096_1_0_0_1_n_n.rhsBatch by decide),
    dif_pos (show (1 : Fin S784x4096.rank) ∈ dot_S256x784_S784x4096_S256x4096_1_0_0_1_n_n.rhsNonContracting by decide)]
  rfl

/-- The product of an input block with a turned weights' block, from zero: the row-by-row sum. -/
theorem product_apply (x : FVec Ideal S256x784 .bf16) (w : FVec Ideal S784x4096 .bf16) (p : Fin 256) (q : Fin 4096) :
    matmul (F := Ideal) dot_S256x784_S784x4096_S256x4096_1_0_0_1_n_n none x w (constant S256x4096 .f32 0x00000000#32) (ix2 p q)
      = ∑ j : Fin 784, x (ix2 p j) * w (ix2 j q) := by
  simp only [matmul]
  rw [Ideal.matmul_constant_zero_apply, ← Equiv.sum_comp (contrEquiv1 dot_S256x784_S784x4096_S256x4096_1_0_0_1_n_n 784 rfl rfl).symm]
  refine Finset.sum_congr rfl fun k _ => ?_
  have hk := contrEquiv1_symm_val dot_S256x784_S784x4096_S256x4096_1_0_0_1_n_n 784 rfl rfl k
  have el : dot_S256x784_S784x4096_S256x4096_1_0_0_1_n_n.lhsIdx (ix2 p q) ((contrEquiv1 dot_S256x784_S784x4096_S256x4096_1_0_0_1_n_n 784 rfl rfl).symm k) = ix2 p k :=
    funext fun a => Fin.ext (by
      match a with
      | ⟨0, _⟩ => exact left_row _ _
      | ⟨1, _⟩ => exact (dot_S256x784_S784x4096_S256x4096_1_0_0_1_n_n.lhsIdx_val_of_single rfl _ _).trans hk)
  have er : dot_S256x784_S784x4096_S256x4096_1_0_0_1_n_n.rhsIdx (ix2 p q) ((contrEquiv1 dot_S256x784_S784x4096_S256x4096_1_0_0_1_n_n 784 rfl rfl).symm k) = ix2 k q :=
    funext fun a => Fin.ext (by
      match a with
      | ⟨0, _⟩ => exact (dot_S256x784_S784x4096_S256x4096_1_0_0_1_n_n.rhsIdx_val_of_single rfl _ _).trans hk
      | ⟨1, _⟩ => exact right_col _ _)
  rw [el, er]

/-- The same with the weights' block turned over in front: row `p` of the input against row `q` of the weights. -/
theorem product_turned_apply (x : FVec Ideal S256x784 .bf16) (w : FVec Ideal S4096x784 .bf16) (p : Fin 256) (q : Fin 4096) :
    matmul (F := Ideal) dot_S256x784_S784x4096_S256x4096_1_0_0_1_n_n none x (transpose S784x4096 [1, 0] w transposes_S4096x784_p1_0_S784x4096)
        (constant S256x4096 .f32 0x00000000#32) (ix2 p q)
      = ∑ j : Fin 784, x (ix2 p j) * w (ix2 q j) := by
  rw [product_apply]
  exact Finset.sum_congr rfl fun j _ => by rw [turned_apply]

/-- The batch normalization of a block at an entry: the block's entry with the column's five parameters, the
    operations in the order the body takes them. -/
theorem normalized_apply (h : FVec Ideal S256x4096 .f32) (vb vm vv vg vbe : FVec Ideal S1x4096 .f32) (p : Fin 256) (q : Fin 4096) :
    addf (mulf (mulf (subf (addf h (broadcastTo S256x4096 vb broadcasts_S1x4096_S256x4096)) (broadcastTo S256x4096 vm broadcasts_S1x4096_S256x4096))
        (broadcastTo S256x4096 (rsqrt (addf vv (broadcast S1x4096 (Scalar.ofBits .f32 0x3727C5AC#32)))) broadcasts_S1x4096_S256x4096))
        (broadcastTo S256x4096 vg broadcasts_S1x4096_S256x4096)) (broadcastTo S256x4096 vbe broadcasts_S1x4096_S256x4096) (ix2 p q)
      = Cert.Spec.bn (h (ix2 p q)) (vb (ix2 0 q)) (vg (ix2 0 q)) (vbe (ix2 0 q)) (vm (ix2 0 q)) (vv (ix2 0 q)) := by
  unfold Cert.Spec.bn
  rw [addf_apply, mulf_apply, mulf_apply, subf_apply, addf_apply]
  rw [spread_row_apply, spread_row_apply, spread_row_apply, spread_row_apply, spread_row_apply]
  rfl

/-- A finite extended real minus itself is zero (the infinities are the exceptions). -/
theorem finite_sub_self {x : EReal} (hx : ∃ r : ℝ, x = (r : EReal)) : x - x = 0 := by
  obtain ⟨r, rfl⟩ := hx
  rw [← EReal.coe_sub, sub_self, EReal.coe_zero]

/-- The batch-normalized pre-activation at an entry: the low part's product vanishes on a finite input. -/
theorem k0_pay2_apply (v0 : Vec Ideal S256x784 .f32) (hfin : ∀ i, ∃ r : ℝ, v0 i = (r : EReal))
    (v5 : Vec Ideal S4096x784 .bf16) (v12 v16 v20 v27 v31 : Vec Ideal S1x4096 .f32) (p : Fin 256) (q : Fin 4096) :
    k0_pay2 (F := Ideal) v0 v5 v12 v16 v20 v27 v31 (ix2 p q)
      = Cert.Spec.bn (∑ j : Fin 784, v0 (ix2 p j) * v5 (ix2 q j)) (v12 (ix2 0 q)) (v27 (ix2 0 q)) (v31 (ix2 0 q))
          (v16 (ix2 0 q)) (v20 (ix2 0 q)) := by
  unfold Gen.k0_pay2
  rw [shapeCast_self v5, shapeCast_self v12, shapeCast_self v16, shapeCast_self v20, shapeCast_self v27, shapeCast_self v31]
  refine (normalized_apply _ v12 v16 v20 v27 v31 p q).trans ?_
  refine congrArg (fun h => Cert.Spec.bn h (v12 (ix2 0 q)) (v27 (ix2 0 q)) (v31 (ix2 0 q)) (v16 (ix2 0 q)) (v20 (ix2 0 q))) ?_
  rw [addf_apply, product_turned_apply, product_turned_apply]
  have hlow : ∑ j : Fin 784, (truncf .bf16 (subf v0 v0) bitsLt_bf16_f32 : FVec Ideal S256x784 .bf16) (ix2 p j) * v5 (ix2 q j) = 0 :=
    Finset.sum_eq_zero fun j _ => by
      show (v0 (ix2 p j) - v0 (ix2 p j)) * v5 (ix2 q j) = 0
      rw [finite_sub_self (hfin (ix2 p j)), zero_mul]
  rw [hlow, add_zero]
  rfl

/-- The stored block: the sign of the batch-normalized pre-activation. -/
theorem k0_pay1_apply (v0 : Vec Ideal S256x784 .f32) (hfin : ∀ i, ∃ r : ℝ, v0 i = (r : EReal))
    (v5 : Vec Ideal S4096x784 .bf16) (v12 v16 v20 v27 v31 : Vec Ideal S1x4096 .f32) (p : Fin 256) (q : Fin 4096) :
    k0_pay1 (F := Ideal) (k0_pay2 v0 v5 v12 v16 v20 v27 v31) (k0_pay3 v0 v5 v12 v16 v20 v27 v31)
        (k0_pay4 v0 v5 v12 v16 v20 v27 v31) (Scalar.ofBits .f32 0x00000000#32) (ix2 p q)
      = Cert.Spec.sgn (Cert.Spec.bn (∑ j : Fin 784, v0 (ix2 p j) * v5 (ix2 q j)) (v12 (ix2 0 q)) (v27 (ix2 0 q))
          (v31 (ix2 0 q)) (v16 (ix2 0 q)) (v20 (ix2 0 q))) := by
  unfold Gen.k0_pay1 Gen.k0_pay3 Gen.k0_pay4
  refine (Ideal.jnp_sign_eq_sign_f32 _).trans ?_
  exact congrArg Ideal.sign (k0_pay2_apply v0 hfin v5 v12 v16 v20 v27 v31 p q)

end Cert.KernelIdeal.L1Pay

end
-- ==== Proof.L1Value.lean ====
import proofs.«112361_j47373489275136_2_alg».proof.Proof.L1Frame
import proofs.«112361_j47373489275136_2_alg».proof.Proof.L1Pay
import proofs.«112361_j47373489275136_2_alg».proof.Proof.Layer
import Idealize.ShloMosaic.Lib.Pipeline.Value
import Idealize.ShloMosaic.Lib.ValueIdx
import Idealize.ShloMosaic.Lib.Tactic

/-! # The first layer's output array

The first layer's grid has 64 points; point `t` stores rows `256·t … 256·t + 255` of the activations, all 4096 columns,
from the same rows of the input and the whole weight matrix and parameter rows. The blocks tile the output array,
so after the last point the array is one function of the operand arrays: at row `i` and column `j` the sign of the
batch normalization, with column `j`'s parameters, of the input's row `i` against the weights' row `j`. The sign is
computed by the kernel through a comparison that is the order's sign only where the value is a number, which is why
the input is taken to be finite.
-/

set_option maxRecDepth 16384

noncomputable section

namespace Cert.KernelIdeal.L1V

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

-- what the TensorCore's buffers hold when the layer's grid starts
variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-! ## The layer as one function of its operand arrays -/

/-- The first layer as a function of whole arrays: input `a0`, binarized weights `a1`, and the rows bias `a2`, scale `a3`,
    shift `a4`, running mean `a5`, running variance `a6`. -/
def layer (a0 : S16384x784.Idx → EReal) (a1 : S4096x784.Idx → EReal) (a2 a3 a4 a5 a6 : S1x4096.Idx → EReal) :
    S16384x4096.Idx → EReal := fun i =>
  Cert.Spec.affS (B := 16384) (K := 784) (N := 4096) (Cert.Spec.mat a0) (Cert.Spec.mat a1) (Cert.Spec.row a2) (Cert.Spec.row a3)
    (Cert.Spec.row a4) (Cert.Spec.row a5) (Cert.Spec.row a6) (i 0) (i 1)

/-! ## One entry of the block a grid point stores -/

/-- Entry `(p, q)` of the stored block, from the operands' blocks, the input's block finite: the sign of the batch
    normalization of the row-by-row product. -/
theorem stored_entry (x0 : Vec Ideal S256x784 .f32) (hfin : ∀ i, ∃ r : ℝ, x0 i = (r : EReal)) (x1 : Vec Ideal S4096x784 .bf16)
    (x2 x3 x4 x5 x6 : Vec Ideal S1x4096 .f32) (p : Fin 256) (q : Fin 4096) :
    L1.stored x0 x1 x2 x3 x4 x5 x6 (ix2 p q)
      = Cert.Spec.sgn (Cert.Spec.bn (∑ j : Fin 784, x0 (ix2 p j) * x1 (ix2 q j)) (x2 (ix2 0 q)) (x3 (ix2 0 q)) (x4 (ix2 0 q))
          (x5 (ix2 0 q)) (x6 (ix2 0 q))) := by
  unfold L1.stored
  rw [View.canon_unit_zero zero_offsets]
  simp only [View.ld_unit_zero (S := S256x784) zero_offsets, View.ld_unit_zero (S := S4096x784) zero_offsets,
    View.ld_unit_zero (S := S1x4096) zero_offsets]
  exact L1Pay.k0_pay1_apply x0 hfin x1 x2 x5 x6 x3 x4 p q

/-! ## Where the blocks sit in their arrays -/

/-- The block indices over the grid: the output's and the first operand's row block is the grid point's number, and
    every other block index is zero. -/
theorem block_indices : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The first operand's block at point `t` is rows `256·t … 256·t + 255` of its array. -/
theorem rows_block (c : Dev nD) (t : Fin cfg0.N) (p : Fin 256) (j : Fin 784) (r : Fin 16384)
    (hr : r.val = 256 * t.val + p.val) :
    (L1.blk V c 0 t : Vec Ideal S256x784 .f32) (ix2 p j)
      = (V c (Pipeline.arrRef spec0 0) : S16384x784.Idx → EReal) (ix2 r j) := by
  obtain ⟨-, -, e0, e1, -⟩ := block_indices t
  show V c (Pipeline.arrRef spec0 0) (((cfg0.win 0).blk t).view.emb (ix2 p j)) = _
  refine congrArg _ ?_
  funext a; apply Fin.ext
  match a with
  | ⟨0, _⟩ => show win0_0.index t (0 : Fin 2) * 256 + 1 * p.val = r.val; rw [e0, hr]; omega
  | ⟨1, _⟩ => show win0_0.index t (1 : Fin 2) * 784 + 1 * j.val = j.val; rw [e1]; omega

/-- The weights' block at every point is the whole weight array. -/
theorem weights_block (c : Dev nD) (t : Fin cfg0.N) (y : S4096x784.Idx) :
    (L1.blk V c 1 t : Vec Ideal S4096x784 .bf16) y = (V c (Pipeline.arrRef spec0 1) : S4096x784.Idx → EReal) y := by
  obtain ⟨-, -, -, -, e0, e1, -⟩ := block_indices t
  show V c (Pipeline.arrRef spec0 1) (((cfg0.win 1).blk t).view.emb y) = _
  refine congrArg _ ?_
  funext a; apply Fin.ext
  match a with
  | ⟨0, _⟩ => show win0_1.index t (0 : Fin 2) * 4096 + 1 * (y 0).val = (y 0).val; rw [e0]; omega
  | ⟨1, _⟩ => show win0_1.index t (1 : Fin 2) * 784 + 1 * (y 1).val = (y 1).val; rw [e1]; omega

/-- Parameter row 1's block at every point is the whole row. -/
theorem row2_block (c : Dev nD) (t : Fin cfg0.N) (y : S1x4096.Idx) :
    (L1.blk V c 2 t : Vec Ideal S1x4096 .f32) y = (V c (Pipeline.arrRef spec0 2) : S1x4096.Idx → EReal) y := by
  obtain ⟨-, -, -, -, -, -, e0, e1, -⟩ := block_indices t
  show V c (Pipeline.arrRef spec0 2) (((cfg0.win 2).blk t).view.emb y) = _
  refine congrArg _ ?_
  funext a; apply Fin.ext
  match a with
  | ⟨0, _⟩ => show win0_2.index t (0 : Fin 2) * 1 + 1 * (y 0).val = (y 0).val; rw [e0]; omega
  | ⟨1, _⟩ => show win0_2.index t (1 : Fin 2) * 4096 + 1 * (y 1).val = (y 1).val; rw [e1]; omega

/-- Parameter row 2's block at every point is the whole row. -/
theorem row3_block (c : Dev nD) (t : Fin cfg0.N) (y : S1x4096.Idx) :
    (L1.blk V c 3 t : Vec Ideal S1x4096 .f32) y = (V c (Pipeline.arrRef spec0 3) : S1x4096.Idx → EReal) y := by
  obtain ⟨-, -, -, -, -, -, -, -, e0, e1, -⟩ := block_indices t
  show V c (Pipeline.arrRef spec0 3) (((cfg0.win 3).blk t).view.emb y) = _
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 4096 + 1 * (y 1).val = (y 1).val; rw [e1]; omega

/-- Parameter row 3's block at every point is the whole row. -/
theorem row4_block (c : Dev nD) (t : Fin cfg0.N) (y : S1x4096.Idx) :
    (L1.blk V c 4 t : Vec Ideal S1x4096 .f32) y = (V c (Pipeline.arrRef spec0 4) : S1x4096.Idx → EReal) y := by
  obtain ⟨-, -, -, -, -, -, -, -, -, -, e0, e1, -⟩ := block_indices t
  show V c (Pipeline.arrRef spec0 4) (((cfg0.win 4).blk t).view.emb y) = _
  refine congrArg _ ?_
  funext a; apply Fin.ext
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

/-- Parameter row 4's block at every point is the whole row. -/
theorem row5_block (c : Dev nD) (t : Fin cfg0.N) (y : S1x4096.Idx) :
    (L1.blk V c 5 t : Vec Ideal S1x4096 .f32) y = (V c (Pipeline.arrRef spec0 5) : S1x4096.Idx → EReal) y := by
  obtain ⟨-, -, -, -, -, -, -, -, -, -, -, -, e0, e1, -⟩ := block_indices t
  show V c (Pipeline.arrRef spec0 5) (((cfg0.win 5).blk t).view.emb y) = _
  refine congrArg _ ?_
  funext a; apply Fin.ext
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

/-- Parameter row 5's block at every point is the whole row. -/
theorem row6_block (c : Dev nD) (t : Fin cfg0.N) (y : S1x4096.Idx) :
    (L1.blk V c 6 t : Vec Ideal S1x4096 .f32) y = (V c (Pipeline.arrRef spec0 6) : S1x4096.Idx → EReal) y := by
  obtain ⟨-, -, -, -, -, -, -, -, -, -, -, -, -, -, e0, e1⟩ := block_indices t
  show V c (Pipeline.arrRef spec0 6) (((cfg0.win 6).blk t).view.emb y) = _
  refine congrArg _ ?_
  funext a; apply Fin.ext
  match a with
  | ⟨0, _⟩ => show win0_6.index t (0 : Fin 2) * 1 + 1 * (y 0).val = (y 0).val; rw [e0]; omega
  | ⟨1, _⟩ => show win0_6.index t (1 : Fin 2) * 4096 + 1 * (y 1).val = (y 1).val; rw [e1]; omega

/-- One entry of a stored block against the layer's function: if the operands' blocks are the rows `256·T …` of the first
    array and the whole of the others, entry `y` of the stored block is the layer's function at the array index `i`
    that sits `256·T` rows below `y`. -/
theorem stored_eq_layer (x0 : Vec Ideal S256x784 .f32) (x1 : Vec Ideal S4096x784 .bf16) (x2 x3 x4 x5 x6 : Vec Ideal S1x4096 .f32)
    (hfin : ∀ z, ∃ r : ℝ, x0 z = (r : EReal))
    (a0 : S16384x784.Idx → EReal) (a1 : S4096x784.Idx → EReal) (a2 a3 a4 a5 a6 : S1x4096.Idx → EReal)
    (T : ℕ) (y : S256x4096.Idx) (i : S16384x4096.Idx)
    (h0 : (i 0).val = 256 * T + (y 0).val) (h1 : (i 1).val = (y 1).val)
    (hx0 : ∀ (p : Fin 256) (j : Fin 784) (r : Fin 16384), r.val = 256 * T + p.val → x0 (ix2 p j) = a0 (ix2 r j))
    (hx1 : ∀ z, x1 z = a1 z) (hx2 : ∀ z, x2 z = a2 z) (hx3 : ∀ z, x3 z = a3 z) (hx4 : ∀ z, x4 z = a4 z)
    (hx5 : ∀ z, x5 z = a5 z) (hx6 : ∀ z, x6 z = a6 z) :
    L1.stored x0 x1 x2 x3 x4 x5 x6 y = layer a0 a1 a2 a3 a4 a5 a6 i := by
  obtain ⟨p, q, rfl⟩ : ∃ (p : Fin 256) (q : Fin 4096), y = ix2 p q := ⟨y 0, y 1, eq_ix2 y⟩
  obtain ⟨r, s, rfl⟩ : ∃ (r : Fin 16384) (s : Fin 4096), i = ix2 r s := ⟨i 0, i 1, eq_ix2 i⟩
  obtain rfl : s = q := Fin.ext h1
  rw [stored_entry x0 hfin x1 x2 x3 x4 x5 x6 p s]
  show Cert.Spec.sgn (Cert.Spec.bn (∑ j : Fin 784, x0 (ix2 p j) * x1 (ix2 s j)) (x2 (ix2 0 s)) (x3 (ix2 0 s)) (x4 (ix2 0 s)) (x5 (ix2 0 s)) (x6 (ix2 0 s)))
    = Cert.Spec.sgn (Cert.Spec.bn (∑ k : Fin 784, a0 (ix2 r k) * a1 (ix2 s k)) (a2 (ix2 0 s)) (a3 (ix2 0 s)) (a4 (ix2 0 s)) (a5 (ix2 0 s)) (a6 (ix2 0 s)))
  rw [hx2, hx3, hx4, hx5, hx6]
  rw [Finset.sum_congr rfl fun j _ => by rw [hx0 p j r h0, hx1]]

/-! ## What a grid point writes back -/

/-- The block point `t` writes back is block `t` of the layer's function of the operand arrays. -/
theorem flushed_eq (c : Dev nD) (hfin : ∀ i : S16384x784.Idx, ∃ r : ℝ, (V c (Pipeline.arrRef spec0 0) : S16384x784.Idx → EReal) i = (r : EReal)) (t : Fin cfg0.N) :
    (L1.dat (F := Ideal) V c).flushed 7 t = ((cfg0.win 7).blk t).view.read (Elt Ideal)
      (layer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6))) := by
  show (cfg0.win 7).cut (grid0.coords t) ((L1.dat (F := Ideal) V c).after 7 t) = _
  rw [L1.dat_after_out]
  obtain ⟨e0, e1, -⟩ := block_indices t
  funext y
  show L1.stored (L1.blk V c 0 t) (L1.blk V c 1 t) (L1.blk V c 2 t) (L1.blk V c 3 t) (L1.blk V c 4 t)
      (L1.blk V c 5 t) (L1.blk V c 6 t) y
    = layer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) (((cfg0.win 7).blk t).view.emb y)
  refine stored_eq_layer (L1.blk V c 0 t) (L1.blk V c 1 t) (L1.blk V c 2 t) (L1.blk V c 3 t) (L1.blk V c 4 t) (L1.blk V c 5 t)
    (L1.blk V c 6 t) (fun z => hfin (((cfg0.win 0).blk t).view.emb z)) _ _ _ _ _ _ _ t.val y _ ?_ ?_
    (fun p j r hr => rows_block V c t p j r hr) (weights_block V c t) (row2_block V c t) (row3_block V c t)
    (row4_block V c t) (row5_block V c t) (row6_block V c t)
  · show win0_7.index t (0 : Fin 2) * 256 + 1 * (y 0).val = 256 * t.val + (y 0).val; rw [e0]; omega
  · show win0_7.index t (1 : Fin 2) * 4096 + 1 * (y 1).val = (y 1).val; rw [e1]; omega

/-! ## The blocks tile the output array -/

/-- An index of the output array is in point `t`'s block iff each coordinate is in the block's range on its axis. -/
theorem mem_block (t : Fin cfg0.N) (i : S16384x4096.Idx) :
    i ∈ ((cfg0.win 7).blk t).view.set ↔ ∀ a : Fin 2, win0_7.index t a * S256x4096.size a ≤ (i a).val
      ∧ (i a).val < win0_7.index t a * S256x4096.size a + S256x4096.size a := by
  show i ∈ ((View.whole main_v9).slice (win0_7.rect t)).set ↔ _
  rw [View.set_slice_whole, Rect.mem_set_unit]
  exact Iff.rfl

/-- Row `r` of the output is in the block of point `r / 256`, which is written back. -/
theorem covered (i : S16384x4096.Idx) :
    ∃ t : Fin cfg0.N, (cfg0.win 7).flush t = true ∧ i ∈ ((cfg0.win 7).blk t).view.set := by
  have hi0 : (i 0).val < 16384 := (i 0).isLt
  have hi1 : (i 1).val < 4096 := (i 1).isLt
  let t : Fin cfg0.N := ⟨(i 0).val / 256, by rw [show cfg0.N = 64 from N_0]; omega⟩
  obtain ⟨e0, e1, -⟩ := block_indices t
  refine ⟨t, flush0_7 t, ?_⟩
  rw [mem_block]
  intro a
  match a with
  | ⟨0, _⟩ =>
    show win0_7.index t (0 : Fin 2) * 256 ≤ (i 0).val ∧ (i 0).val < win0_7.index t (0 : Fin 2) * 256 + 256
    rw [e0]; show (i 0).val / 256 * 256 ≤ (i 0).val ∧ (i 0).val < (i 0).val / 256 * 256 + 256; omega
  | ⟨1, _⟩ =>
    show win0_7.index t (1 : Fin 2) * 4096 ≤ (i 1).val ∧ (i 1).val < win0_7.index t (1 : Fin 2) * 4096 + 4096
    rw [e1]; omega

/-! ## The output array after the layer -/

/-- After the last grid point the output array holds the layer's function of the operand arrays. -/
theorem out_whole (c : Dev nD) (hfin : ∀ i : S16384x784.Idx, ∃ r : ℝ, (V c (Pipeline.arrRef spec0 0) : S16384x784.Idx → EReal) i = (r : EReal)) :
    (L1.dat (F := Ideal) V c).arrAt 7 cfg0.N
      = layer (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6)) :=
  (L1.dat (F := Ideal) V c).arrAt_eq_of_cover 7 _ (fun t _ => flushed_eq V c hfin t) covered

/-- Entry by entry: row `i`, column `o` of the output array is the layer of the operand arrays there. -/
theorem out_array (c : Dev nD) (hfin : ∀ i : S16384x784.Idx, ∃ r : ℝ, (V c (Pipeline.arrRef spec0 0) : S16384x784.Idx → EReal) i = (r : EReal)) (i : Fin 16384) (o : Fin 4096) :
    (L1.dat (F := Ideal) V c).arrAt 7 cfg0.N (ix2 i o)
      = Cert.Spec.affS (Cert.Spec.mat (V c (Pipeline.arrRef spec0 0) : S16384x784.Idx → EReal))
          (Cert.Spec.mat (V c (Pipeline.arrRef spec0 1) : S4096x784.Idx → EReal))
          (Cert.Spec.row (V c (Pipeline.arrRef spec0 2) : S1x4096.Idx → EReal))
          (Cert.Spec.row (V c (Pipeline.arrRef spec0 3) : S1x4096.Idx → EReal))
          (Cert.Spec.row (V c (Pipeline.arrRef spec0 4) : S1x4096.Idx → EReal))
          (Cert.Spec.row (V c (Pipeline.arrRef spec0 5) : S1x4096.Idx → EReal))
          (Cert.Spec.row (V c (Pipeline.arrRef spec0 6) : S1x4096.Idx → EReal)) i o :=
  congrFun (out_whole V c hfin) (ix2 i o)

end Cert.KernelIdeal.L1V

end
-- ==== Proof.L2Pay.lean ====
/-
  The second layer's three blocks at an entry: the cleared accumulator, the accumulator after one more
  stretch of 2048 inner positions, and the sign of the batch-normalized accumulator.
-/
import proofs.«112361_j47373489275136_2_alg».proof.Proof.Gen.KernelIdeal.Skeleton
import proofs.«112361_j47373489275136_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.L2Pay

open Cert.KernelIdeal Cert.KernelIdeal.Gen Idealize.ShloMosaic Idealize.ShloMosaic.ValueIdx

/-- A one-row array spread down `a` rows reads, at row `p` and column `q`, the row's entry at column `q`. -/
theorem spread_row_apply {α : Type} {a b : ℕ} (x : (⟨2, ![1, b]⟩ : Shape).Idx → α)
    (h : (⟨2, ![1, b]⟩ : Shape).Broadcasts ⟨2, ![a, b]⟩) (p : Fin a) (q : Fin b) :
    broadcastTo (⟨2, ![a, b]⟩ : Shape) x h (ix2 p q) = x (ix2 0 q) := by
  refine broadcastTo_apply x h (ix2 p q) (ix2 0 q) (fun c => ?_)
  match c with
  | ⟨0, _⟩ => show (0 : ℕ) = if (1 : ℕ) = 1 then 0 else _; rw [if_pos rfl]
  | ⟨1, _⟩ =>
    show q.val = if b = 1 then 0 else q.val
    by_cases hb : b = 1
    · rw [if_pos hb]; have := q.isLt; omega
    · rw [if_neg hb]

/-- A block turned over reads, at inner position `j` and column `q`, the block at row `q`, position `j`. -/
theorem turned_apply {α : Type} {a b : ℕ} (x : (⟨2, ![a, b]⟩ : Shape).Idx → α)
    (h : (⟨2, ![a, b]⟩ : Shape).Transposes [1, 0] ⟨2, ![b, a]⟩) (j : Fin b) (q : Fin a) :
    transpose (⟨2, ![b, a]⟩ : Shape) [1, 0] x h (ix2 j q) = x (ix2 q j) := by
  refine transpose_apply [1, 0] x h (ix2 j q) (ix2 q j) (fun c => ?_)
  match c with
  | ⟨0, _⟩ => rfl
  | ⟨1, _⟩ => rfl

/-- The left factor's row is the entry's row. -/
theorem left_row (i : S1024x1024.Idx) (c : dot_S1024x2048_S2048x1024_S1024x1024_1_0_0_1_n_n.contr.Idx) : (dot_S1024x2048_S2048x1024_S1024x1024_1_0_0_1_n_n.lhsIdx i c 0).val = (i 0).val := by
  unfold DotDims.lhsIdx
  rw [dif_neg (show ¬(0 : Fin S1024x2048.rank) ∈ dot_S1024x2048_S2048x1024_S1024x1024_1_0_0_1_n_n.lhsBatch by decide),
    dif_pos (show (0 : Fin S1024x2048.rank) ∈ dot_S1024x2048_S2048x1024_S1024x1024_1_0_0_1_n_n.lhsNonContracting by decide)]
  rfl

/-- The right factor's column is the entry's column. -/
theorem right_col (i : S1024x1024.Idx) (c : dot_S1024x2048_S2048x1024_S1024x1024_1_0_0_1_n_n.contr.Idx) : (dot_S1024x2048_S2048x1024_S1024x1024_1_0_0_1_n_n.rhsIdx i c 1).val = (i 1).val := by
  unfold DotDims.rhsIdx
  rw [dif_neg (show ¬(1 : Fin S2048x1024.rank) ∈ dot_S1024x2048_S2048x1024_S1024x1024_1_0_0_1_n_n.rhsBatch by decide),
    dif_pos (show (1 : Fin S2048x1024.rank) ∈ dot_S1024x2048_S2048x1024_S1024x1024_1_0_0_1_n_n.rhsNonContracting by decide)]
  rfl

/-- The product of an activations' block with a turned weights' block, from zero: the row-by-row sum. -/
theorem product_apply (x : FVec Ideal S1024x2048 .bf16) (w : FVec Ideal S2048x1024 .bf16) (p q : Fin 1024) :
    matmul (F := Ideal) dot_S1024x2048_S2048x1024_S1024x1024_1_0_0_1_n_n none x w (constant S1024x1024 .f32 0x00000000#32) (ix2 p q)
      = ∑ j : Fin 2048, x (ix2 p j) * w (ix2 j q) := by
  simp only [matmul]
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k :=
    funext fun a => Fin.ext (by
      match a with
      | ⟨0, _⟩ => exact left_row _ _
      | ⟨1, _⟩ => exact (dot_S1024x2048_S2048x1024_S1024x1024_1_0_0_1_n_n.lhsIdx_val_of_single rfl _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q :=
    funext fun a => Fin.ext (by
      match a with
      | ⟨0, _⟩ => exact (dot_S1024x2048_S2048x1024_S1024x1024_1_0_0_1_n_n.rhsIdx_val_of_single rfl _ _).trans hk
      | ⟨1, _⟩ => exact right_col _ _)
  rw [el, er]

/-- The same with the weights' block turned over in front: row `p` of the activations against row `q` of the weights. -/
theorem product_turned_apply (x : FVec Ideal S1024x2048 .bf16) (w : FVec Ideal S1024x2048 .bf16) (p q : Fin 1024) :
    matmul (F := Ideal) dot_S1024x2048_S2048x1024_S1024x1024_1_0_0_1_n_n none x (transpose S2048x1024 [1, 0] w transposes_S1024x2048_p1_0_S2048x1024)
        (constant S1024x1024 .f32 0x00000000#32) (ix2 p q)
      = ∑ j : Fin 2048, x (ix2 p j) * w (ix2 q j) := by
  rw [product_apply]
  exact Finset.sum_congr rfl fun j _ => by rw [turned_apply]

/-- The batch normalization of a block at an entry: the block's entry with the column's five parameters, the
    operations in the order the body takes them. -/
theorem normalized_apply (h : FVec Ideal S1024x1024 .f32) (vb vm vv vg vbe : FVec Ideal S1x1024 .f32) (p : Fin 1024) (q : Fin 1024) :
    addf (mulf (mulf (subf (addf h (broadcastTo S1024x1024 vb broadcasts_S1x1024_S1024x1024)) (broadcastTo S1024x1024 vm broadcasts_S1x1024_S1024x1024))
        (broadcastTo S1024x1024 (rsqrt (addf vv (broadcast S1x1024 (Scalar.ofBits .f32 0x3727C5AC#32)))) broadcasts_S1x1024_S1024x1024))
        (broadcastTo S1024x1024 vg broadcasts_S1x1024_S1024x1024)) (broadcastTo S1024x1024 vbe broadcasts_S1x1024_S1024x1024) (ix2 p q)
      = Cert.Spec.bn (h (ix2 p q)) (vb (ix2 0 q)) (vg (ix2 0 q)) (vbe (ix2 0 q)) (vm (ix2 0 q)) (vv (ix2 0 q)) := by
  unfold Cert.Spec.bn
  rw [addf_apply, mulf_apply, mulf_apply, subf_apply, addf_apply]
  rw [spread_row_apply, spread_row_apply, spread_row_apply, spread_row_apply, spread_row_apply]
  rfl

/-- The cleared accumulator is zero at every entry. -/
theorem k1_pay1_apply (p q : Fin 1024) : k1_pay1 (F := Ideal) (ix2 p q) = 0 := by
  unfold Gen.k1_pay1
  rw [shapeCast_self]
  exact Ideal.ofBits_zero_f32

/-- One step of the accumulation: the carried entry plus this stretch's row-by-row sum. -/
theorem k1_pay2_apply (v3 : Vec Ideal S1024x1024 .f32) (v4 v6 : Vec Ideal S1024x2048 .bf16) (p q : Fin 1024) :
    k1_pay2 (F := Ideal) v3 v4 v6 (ix2 p q) = v3 (ix2 p q) + ∑ j : Fin 2048, v4 (ix2 p j) * v6 (ix2 q j) := by
  unfold Gen.k1_pay2
  rw [shapeCast_self v4, shapeCast_self v6, shapeCast_self]
  rw [addf_apply, product_turned_apply]

/-- The stored block: the sign of the batch-normalized accumulator. -/
theorem k1_pay3_apply (v17 : Vec Ideal S1024x1024 .f32) (v18 v22 v26 v33 v37 : Vec Ideal S1x1024 .f32) (p q : Fin 1024) :
    k1_pay3 (F := Ideal) v17 v18 v22 v26 v33 v37 (ix2 p q)
      = Cert.Spec.sgn (Cert.Spec.bn (v17 (ix2 p q)) (v18 (ix2 0 q)) (v33 (ix2 0 q)) (v37 (ix2 0 q))
          (v22 (ix2 0 q)) (v26 (ix2 0 q))) := by
  unfold Gen.k1_pay3
  rw [shapeCast_self v18, shapeCast_self v22, shapeCast_self v26, shapeCast_self v33, shapeCast_self v37]
  refine (Ideal.jnp_sign_eq_sign_f32 _).trans ?_
  exact congrArg Ideal.sign (normalized_apply v17 v18 v22 v26 v33 v37 p q)

end Cert.KernelIdeal.L2Pay

end
-- ==== Proof.L2Value.lean ====
import proofs.«112361_j47373489275136_2_alg».proof.Proof.L2Frame
import proofs.«112361_j47373489275136_2_alg».proof.Proof.L2Pay
import proofs.«112361_j47373489275136_2_alg».proof.Proof.Layer
import Idealize.ShloMosaic.Lib.Pipeline.Value
import Idealize.ShloMosaic.Lib.ValueIdx
import Idealize.ShloMosaic.Lib.Tactic

noncomputable section

namespace Cert.KernelIdeal.L2V

open Cert.KernelIdeal Cert.KernelIdeal.Gen Cert.KernelIdeal.L2Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, in closed form over the grid -/

/-- The grid is 16 × 4 × 2 with the reduction coordinate fastest: at point `t` the row block is `t / 8`, the column
    block `t / 2 % 4`, the reduction half `t % 2`. -/
theorem idx_facts : ∀ t : Fin cfg1.N,
    win1_0.index t (0 : Fin 2) = t.val / 8 ∧ win1_0.index t (1 : Fin 2) = t.val % 2
    ∧ win1_1.index t (0 : Fin 2) = t.val / 2 % 4 ∧ win1_1.index t (1 : Fin 2) = t.val % 2
    ∧ win1_2.index t (0 : Fin 2) = 0 ∧ win1_2.index t (1 : Fin 2) = t.val / 2 % 4
    ∧ win1_3.index t (0 : Fin 2) = 0 ∧ win1_3.index t (1 : Fin 2) = t.val / 2 % 4
    ∧ win1_4.index t (0 : Fin 2) = 0 ∧ win1_4.index t (1 : Fin 2) = t.val / 2 % 4
    ∧ win1_5.index t (0 : Fin 2) = 0 ∧ win1_5.index t (1 : Fin 2) = t.val / 2 % 4
    ∧ win1_6.index t (0 : Fin 2) = 0 ∧ win1_6.index t (1 : Fin 2) = t.val / 2 % 4
    ∧ win1_7.index t (0 : Fin 2) = t.val / 8 ∧ win1_7.index t (1 : Fin 2) = t.val / 2 % 4 :=
  (by decide +kernel : ∀ t : Fin grid1.N, _)

/-! ## The accumulation step and the stored block, as the payloads -/

theorem accStep_eq (p : Vec Ideal S1024x1024 .f32) (x0 x1 : Vec Ideal S1024x2048 .bf16) :
    L2.accStep p x0 x1 = k1_pay2 p x0 x1 := by
  unfold L2.accStep
  rw [View.canon_unit_zero hz]
  simp only [View.ld_unit_zero (S := S1024x2048) hz]

theorem stored_eq (a : Vec Ideal S1024x1024 .f32) (b mm vv g be : Vec Ideal S1x1024 .f32) :
    L2.stored a b mm vv g be = k1_pay3 a b mm vv g be := by
  unfold L2.stored
  rw [View.canon_unit_zero hz]
  simp only [View.ld_unit_zero (S := S1024x1024) hz, View.ld_unit_zero (S := S1x1024) hz]

/-! ## The windows' blocks, entry by entry -/

/-- An entry of the activations' block: row block `t / 8`, reduction half `t % 2`. -/
theorem blk0_apply (c : Dev nD) (t : Fin cfg1.N) (p : Fin 1024) (j : Fin 2048)
    (hi : t.val / 8 * 1024 + p.val < 16384) (hj : t.val % 2 * 2048 + j.val < 4096) :
    L2.blk V c 0 t (ix2 p j) = Cert.Spec.mat (V c (Pipeline.arrRef spec1 0)) ⟨t.val / 8 * 1024 + p.val, hi⟩ ⟨t.val % 2 * 2048 + j.val, hj⟩ := by
  have e0 : win1_0.index t (0 : Fin 2) = t.val / 8 := by have := idx_facts t; omega
  have e1 : win1_0.index t (1 : Fin 2) = t.val % 2 := by have := idx_facts t; omega
  unfold L2.blk Cert.Spec.mat
  rw [View.read_apply]
  show V c (Pipeline.arrRef spec1 0) _ = V c (Pipeline.arrRef spec1 0) _
  congr 1
  funext a; apply Fin.ext
  match a with
  | ⟨0, _⟩ => show win1_0.index t (0 : Fin 2) * 1024 + 1 * p.val = t.val / 8 * 1024 + p.val; rw [e0]; omega
  | ⟨1, _⟩ => show win1_0.index t (1 : Fin 2) * 2048 + 1 * j.val = t.val % 2 * 2048 + j.val; rw [e1]; omega

/-- An entry of the weights' block: its rows are the output's columns, column block `t / 2 % 4`. -/
theorem blk1_apply (c : Dev nD) (t : Fin cfg1.N) (q : Fin 1024) (j : Fin 2048)
    (hi : t.val / 2 % 4 * 1024 + q.val < 4096) (hj : t.val % 2 * 2048 + j.val < 4096) :
    L2.blk V c 1 t (ix2 q j) = Cert.Spec.mat (V c (Pipeline.arrRef spec1 1)) ⟨t.val / 2 % 4 * 1024 + q.val, hi⟩ ⟨t.val % 2 * 2048 + j.val, hj⟩ := by
  have e0 : win1_1.index t (0 : Fin 2) = t.val / 2 % 4 := by have := idx_facts t; omega
  have e1 : win1_1.index t (1 : Fin 2) = t.val % 2 := by have := idx_facts t; omega
  unfold L2.blk Cert.Spec.mat
  rw [View.read_apply]
  show V c (Pipeline.arrRef spec1 1) _ = V c (Pipeline.arrRef spec1 1) _
  congr 1
  funext a; apply Fin.ext
  match a with
  | ⟨0, _⟩ => show win1_1.index t (0 : Fin 2) * 1024 + 1 * q.val = t.val / 2 % 4 * 1024 + q.val; rw [e0]; omega
  | ⟨1, _⟩ => show win1_1.index t (1 : Fin 2) * 2048 + 1 * j.val = t.val % 2 * 2048 + j.val; rw [e1]; omega

/-- An entry of a parameter row's block: column block `t / 2 % 4`. -/
theorem blk2_apply (c : Dev nD) (t : Fin cfg1.N) (q : Fin 1024) (hj : t.val / 2 % 4 * 1024 + q.val < 4096) :
    L2.blk V c 2 t (ix2 (0 : Fin 1) q) = Cert.Spec.row (V c (Pipeline.arrRef spec1 2)) ⟨t.val / 2 % 4 * 1024 + q.val, hj⟩ := by
  have e0 : win1_2.index t (0 : Fin 2) = 0 := by have := idx_facts t; omega
  have e1 : win1_2.index t (1 : Fin 2) = t.val / 2 % 4 := by have := idx_facts t; omega
  unfold L2.blk Cert.Spec.row
  rw [View.read_apply]
  show V c (Pipeline.arrRef spec1 2) _ = V c (Pipeline.arrRef spec1 2) _
  congr 1
  funext a; apply Fin.ext
  match a with
  | ⟨0, _⟩ => show win1_2.index t (0 : Fin 2) * 1 + 1 * (0 : Fin 1).val = (0 : Fin 1).val; rw [e0]; simp
  | ⟨1, _⟩ => show win1_2.index t (1 : Fin 2) * 1024 + 1 * q.val = t.val / 2 % 4 * 1024 + q.val; rw [e1]; omega

theorem blk3_apply (c : Dev nD) (t : Fin cfg1.N) (q : Fin 1024) (hj : t.val / 2 % 4 * 1024 + q.val < 4096) :
    L2.blk V c 3 t (ix2 (0 : Fin 1) q) = Cert.Spec.row (V c (Pipeline.arrRef spec1 3)) ⟨t.val / 2 % 4 * 1024 + q.val, hj⟩ := by
  have e0 : win1_3.index t (0 : Fin 2) = 0 := by have := idx_facts t; omega
  have e1 : win1_3.index t (1 : Fin 2) = t.val / 2 % 4 := by have := idx_facts t; omega
  unfold L2.blk Cert.Spec.row
  rw [View.read_apply]
  show V c (Pipeline.arrRef spec1 3) _ = V c (Pipeline.arrRef spec1 3) _
  congr 1
  funext a; apply Fin.ext
  match a with
  | ⟨0, _⟩ => show win1_3.index t (0 : Fin 2) * 1 + 1 * (0 : Fin 1).val = (0 : Fin 1).val; rw [e0]; simp
  | ⟨1, _⟩ => show win1_3.index t (1 : Fin 2) * 1024 + 1 * q.val = t.val / 2 % 4 * 1024 + q.val; rw [e1]; omega

theorem blk4_apply (c : Dev nD) (t : Fin cfg1.N) (q : Fin 1024) (hj : t.val / 2 % 4 * 1024 + q.val < 4096) :
    L2.blk V c 4 t (ix2 (0 : Fin 1) q) = Cert.Spec.row (V c (Pipeline.arrRef spec1 4)) ⟨t.val / 2 % 4 * 1024 + q.val, hj⟩ := by
  have e0 : win1_4.index t (0 : Fin 2) = 0 := by have := idx_facts t; omega
  have e1 : win1_4.index t (1 : Fin 2) = t.val / 2 % 4 := by have := idx_facts t; omega
  unfold L2.blk Cert.Spec.row
  rw [View.read_apply]
  show V c (Pipeline.arrRef spec1 4) _ = V c (Pipeline.arrRef spec1 4) _
  congr 1
  funext a; apply Fin.ext
  match a with
  | ⟨0, _⟩ => show win1_4.index t (0 : Fin 2) * 1 + 1 * (0 : Fin 1).val = (0 : Fin 1).val; rw [e0]; simp
  | ⟨1, _⟩ => show win1_4.index t (1 : Fin 2) * 1024 + 1 * q.val = t.val / 2 % 4 * 1024 + q.val; rw [e1]; omega

theorem blk5_apply (c : Dev nD) (t : Fin cfg1.N) (q : Fin 1024) (hj : t.val / 2 % 4 * 1024 + q.val < 4096) :
    L2.blk V c 5 t (ix2 (0 : Fin 1) q) = Cert.Spec.row (V c (Pipeline.arrRef spec1 5)) ⟨t.val / 2 % 4 * 1024 + q.val, hj⟩ := by
  have e0 : win1_5.index t (0 : Fin 2) = 0 := by have := idx_facts t; omega
  have e1 : win1_5.index t (1 : Fin 2) = t.val / 2 % 4 := by have := idx_facts t; omega
  unfold L2.blk Cert.Spec.row
  rw [View.read_apply]
  show V c (Pipeline.arrRef spec1 5) _ = V c (Pipeline.arrRef spec1 5) _
  congr 1
  funext a; apply Fin.ext
  match a with
  | ⟨0, _⟩ => show win1_5.index t (0 : Fin 2) * 1 + 1 * (0 : Fin 1).val = (0 : Fin 1).val; rw [e0]; simp
  | ⟨1, _⟩ => show win1_5.index t (1 : Fin 2) * 1024 + 1 * q.val = t.val / 2 % 4 * 1024 + q.val; rw [e1]; omega

theorem blk6_apply (c : Dev nD) (t : Fin cfg1.N) (q : Fin 1024) (hj : t.val / 2 % 4 * 1024 + q.val < 4096) :
    L2.blk V c 6 t (ix2 (0 : Fin 1) q) = Cert.Spec.row (V c (Pipeline.arrRef spec1 6)) ⟨t.val / 2 % 4 * 1024 + q.val, hj⟩ := by
  have e0 : win1_6.index t (0 : Fin 2) = 0 := by have := idx_facts t; omega
  have e1 : win1_6.index t (1 : Fin 2) = t.val / 2 % 4 := by have := idx_facts t; omega
  unfold L2.blk Cert.Spec.row
  rw [View.read_apply]
  show V c (Pipeline.arrRef spec1 6) _ = V c (Pipeline.arrRef spec1 6) _
  congr 1
  funext a; apply Fin.ext
  match a with
  | ⟨0, _⟩ => show win1_6.index t (0 : Fin 2) * 1 + 1 * (0 : Fin 1).val = (0 : Fin 1).val; rw [e0]; simp
  | ⟨1, _⟩ => show win1_6.index t (1 : Fin 2) * 1024 + 1 * q.val = t.val / 2 % 4 * 1024 + q.val; rw [e1]; omega

/-! ## The finished sums -/

theorem mat_congr {a b : ℕ} (x : (⟨2, ![a, b]⟩ : Shape).Idx → EReal) {i i' : Fin a} {j j' : Fin b}
    (hi : i.val = i'.val) (hj : j.val = j'.val) : Cert.Spec.mat x i j = Cert.Spec.mat x i' j' := by
  rw [Fin.ext hi, Fin.ext hj]

/-- One point's product, entry by entry: half of the inner positions, those the point's reduction coordinate selects. -/
theorem half_sum (c : Dev nD) (t : Fin cfg1.N) (p q : Fin 1024) (i : Fin 16384) (j : Fin 4096)
    (hi : i.val = t.val / 8 * 1024 + p.val) (hj : j.val = t.val / 2 % 4 * 1024 + q.val)
    (f : Fin 2048 → Fin 4096) (hf : ∀ k, (f k).val = t.val % 2 * 2048 + k.val)
    (x0 x1 : Vec Ideal S1024x2048 .bf16) (h0 : x0 = L2.blk V c 0 t) (h1 : x1 = L2.blk V c 1 t) :
    ∑ k : Fin 2048, x0 (ix2 p k) * x1 (ix2 q k)
      = ∑ k : Fin 2048, (Cert.Spec.mat (V c (Pipeline.arrRef spec1 0))) i (f k) * (Cert.Spec.mat (V c (Pipeline.arrRef spec1 1))) j (f k) := by
  subst h0 h1
  refine Finset.sum_congr rfl fun k _ => ?_
  have hk := hf k
  have hfk := (f k).isLt
  have hi' := i.isLt
  have hj' := j.isLt
  rw [blk0_apply V c t p k (by omega) (by omega), blk1_apply V c t q k (by omega) (by omega)]
  exact congrArg₂ (· * ·) (mat_congr _ (by dsimp only; omega) (by dsimp only; omega)) (mat_congr _ (by dsimp only; omega) (by dsimp only; omega))

/-- At a point that ends a reduction the scratch holds the whole inner product: zero, plus the first half's sum (left
    by the point before), plus the second half's. -/
theorem acc_entry (c : Dev nD) (t : Fin cfg1.N) (h1 : t.val % 2 = 1) (p q : Fin 1024) (i : Fin 16384) (j : Fin 4096)
    (hi : i.val = t.val / 8 * 1024 + p.val) (hj : j.val = t.val / 2 % 4 * 1024 + q.val) :
    L2.acc V c t.val t.isLt (ix2 p q) = ∑ k : Fin 4096, (Cert.Spec.mat (V c (Pipeline.arrRef spec1 0))) i k * (Cert.Spec.mat (V c (Pipeline.arrRef spec1 1))) j k := by
  have hN : cfg1.N = 128 := N_1
  have ht := t.isLt
  have hpos : t.val - 1 < cfg1.N := by omega
  have hev : (⟨t.val - 1, hpos⟩ : Fin cfg1.N).val % 2 = 0 := by dsimp only; omega
  rw [L2.acc_odd V c t h1, accStep_eq, k1_pay2_apply]
  rw [View.ld_unit_zero (S := S1024x1024) hz]
  rw [show L2.acc V c (t.val - 1) _ = _ from L2.acc_even V c ⟨t.val - 1, hpos⟩ hev, accStep_eq, k1_pay2_apply, k1_pay1_apply, zero_add]
  rw [half_sum V c ⟨t.val - 1, hpos⟩ p q i j (by dsimp only; omega) (by dsimp only; omega) (Fin.castAdd 2048) (fun k => by rw [Fin.coe_castAdd]; dsimp only; omega) (L2.blk V c 0 ⟨t.val - 1, hpos⟩) (L2.blk V c 1 ⟨t.val - 1, hpos⟩) rfl rfl,
    half_sum V c t p q i j hi hj (Fin.natAdd 2048) (fun k => by rw [Fin.coe_natAdd]; omega) (L2.blk V c 0 t) (L2.blk V c 1 t) rfl rfl]
  exact (Fin.sum_univ_add (fun k : Fin (2048 + 2048) => (Cert.Spec.mat (V c (Pipeline.arrRef spec1 0))) i k * (Cert.Spec.mat (V c (Pipeline.arrRef spec1 1))) j k)).symm

/-! ## The array the region leaves -/

/-- The second layer's activations as one function of the arrays the region finds. -/
def G (c : Dev nD) : Buf (Elt Ideal) ((cfg1.win 7).arr.view.loc (c.tc : Thread nD τ)) :=
  fun (idx : S16384x4096.Idx) => Cert.Spec.affS (Cert.Spec.mat (V c (Pipeline.arrRef spec1 0))) (Cert.Spec.mat (V c (Pipeline.arrRef spec1 1))) (Cert.Spec.row (V c (Pipeline.arrRef spec1 2))) (Cert.Spec.row (V c (Pipeline.arrRef spec1 3))) (Cert.Spec.row (V c (Pipeline.arrRef spec1 4))) (Cert.Spec.row (V c (Pipeline.arrRef spec1 5))) (Cert.Spec.row (V c (Pipeline.arrRef spec1 6))) (idx 0) (idx 1)

/-- What a point that ends a reduction writes back is its block of that function. -/
theorem flushed_eq (c : Dev nD) (t : Fin cfg1.N) (hf : (cfg1.win 7).flush t = true) :
    (L2.dat (F := Ideal) V c).flushed 7 t = ((cfg1.win 7).blk t).view.read (Elt Ideal) (G V c) := by
  have h1 : t.val % 2 = 1 := (flush1_7 t).mp hf
  have hN : cfg1.N = 128 := N_1
  have ht := t.isLt
  have e0 : win1_7.index t (0 : Fin 2) = t.val / 8 := by have := idx_facts t; omega
  have e1 : win1_7.index t (1 : Fin 2) = t.val / 2 % 4 := by have := idx_facts t; omega
  show (cfg1.win 7).cut (grid1.coords t) ((L2.dat (F := Ideal) V c).after 7 t) = _
  rw [L2.after_7, stored_eq]
  funext y
  obtain ⟨p, q, rfl⟩ : ∃ (p : Fin 1024) (q : Fin 1024), y = ix2 p q := ⟨y 0, y 1, eq_ix2 y⟩
  have hp := p.isLt
  have hq := q.isLt
  have bi : t.val / 8 * 1024 + p.val < 16384 := by omega
  have bj : t.val / 2 % 4 * 1024 + q.val < 4096 := by omega
  have hemb : ((cfg1.win 7).blk t).view.emb (ix2 p q) = (ix2 (⟨t.val / 8 * 1024 + p.val, bi⟩ : Fin 16384) (⟨t.val / 2 % 4 * 1024 + q.val, bj⟩ : Fin 4096) : S16384x4096.Idx) := by
    funext a; apply Fin.ext
    match a with
    | ⟨0, _⟩ => show win1_7.index t (0 : Fin 2) * 1024 + 1 * p.val = t.val / 8 * 1024 + p.val; rw [e0]; omega
    | ⟨1, _⟩ => show win1_7.index t (1 : Fin 2) * 1024 + 1 * q.val = t.val / 2 % 4 * 1024 + q.val; rw [e1]; omega
  show k1_pay3 (F := Ideal) (L2.acc V c t.val t.isLt) (L2.blk V c 2 t) (L2.blk V c 5 t) (L2.blk V c 6 t) (L2.blk V c 3 t) (L2.blk V c 4 t) (ix2 p q)
    = G V c (((cfg1.win 7).blk t).view.emb (ix2 p q))
  rw [hemb, k1_pay3_apply, acc_entry V c t h1 p q ⟨_, bi⟩ ⟨_, bj⟩ rfl rfl,
    blk2_apply V c t q bj, blk3_apply V c t q bj, blk4_apply V c t q bj, blk5_apply V c t q bj, blk6_apply V c t q bj]
  rfl

/-- Every entry of the array lies in the block of the point that ends its reduction. -/
theorem covered (i : S16384x4096.Idx) :
    ∃ t : Fin cfg1.N, (cfg1.win 7).flush t = true ∧ i ∈ ((cfg1.win 7).blk t).view.set := by
  have h0 : (i 0).val < 16384 := (i 0).isLt
  have h1 : (i 1).val < 4096 := (i 1).isLt
  have hN : cfg1.N = 128 := N_1
  obtain ⟨t, ht⟩ : ∃ t : Fin cfg1.N, t.val = ((i 0).val / 1024 * 4 + (i 1).val / 1024) * 2 + 1 := ⟨⟨_, by omega⟩, rfl⟩
  have e0 : win1_7.index t (0 : Fin 2) = t.val / 8 := by have := idx_facts t; omega
  have e1 : win1_7.index t (1 : Fin 2) = t.val / 2 % 4 := by have := idx_facts t; omega
  refine ⟨t, (flush1_7 t).mpr (by omega), ?_⟩
  show i ∈ ((View.whole main_v15).slice (win1_7.rect t)).set
  rw [View.set_slice_whole, Rect.mem_set_unit]
  intro a
  match a with
  | ⟨0, _⟩ => show win1_7.index t (0 : Fin 2) * 1024 ≤ (i 0).val ∧ (i 0).val < win1_7.index t (0 : Fin 2) * 1024 + 1024; rw [e0]; omega
  | ⟨1, _⟩ => show win1_7.index t (1 : Fin 2) * 1024 ≤ (i 1).val ∧ (i 1).val < win1_7.index t (1 : Fin 2) * 1024 + 1024; rw [e1]; omega

/-- THE SECOND LAYER'S ARRAY after the region: every entry the sign of the batch-normalized inner product. -/
theorem out_array (c : Dev nD) (i : Fin 16384) (j : Fin 4096) :
    (L2.dat (F := Ideal) V c).arrAt 7 cfg1.N (ix2 i j)
      = Cert.Spec.affS (Cert.Spec.mat (V c (Pipeline.arrRef spec1 0))) (Cert.Spec.mat (V c (Pipeline.arrRef spec1 1))) (Cert.Spec.row (V c (Pipeline.arrRef spec1 2))) (Cert.Spec.row (V c (Pipeline.arrRef spec1 3))) (Cert.Spec.row (V c (Pipeline.arrRef spec1 4))) (Cert.Spec.row (V c (Pipeline.arrRef spec1 5))) (Cert.Spec.row (V c (Pipeline.arrRef spec1 6))) i j := by
  have h := congrFun ((L2.dat (F := Ideal) V c).arrAt_eq_of_cover 7 (G V c) (flushed_eq V c) covered) (ix2 i j)
  exact h

end Cert.KernelIdeal.L2V

end
-- ==== Proof.L3Pay.lean ====
/-
  The third layer's block at an entry: the activations' row against the weights' row, summed over the
  4096 inner positions, then batch-normalized with the column's five parameters.
-/
import proofs.«112361_j47373489275136_2_alg».proof.Proof.Gen.KernelIdeal.Skeleton
import proofs.«112361_j47373489275136_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.L3Pay

open Cert.KernelIdeal Cert.KernelIdeal.Gen Idealize.ShloMosaic Idealize.ShloMosaic.ValueIdx

/-- A one-row array spread down `a` rows reads, at row `p` and column `q`, the row's entry at column `q`. -/
theorem spread_row_apply {α : Type} {a b : ℕ} (x : (⟨2, ![1, b]⟩ : Shape).Idx → α)
    (h : (⟨2, ![1, b]⟩ : Shape).Broadcasts ⟨2, ![a, b]⟩) (p : Fin a) (q : Fin b) :
    broadcastTo (⟨2, ![a, b]⟩ : Shape) x h (ix2 p q) = x (ix2 0 q) := by
  refine broadcastTo_apply x h (ix2 p q) (ix2 0 q) (fun c => ?_)
  match c with
  | ⟨0, _⟩ => show (0 : ℕ) = if (1 : ℕ) = 1 then 0 else _; rw [if_pos rfl]
  | ⟨1, _⟩ =>
    show q.val = if b = 1 then 0 else q.val
    by_cases hb : b = 1
    · rw [if_pos hb]; have := q.isLt; omega
    · rw [if_neg hb]

/-- A block turned over reads, at inner position `j` and column `q`, the block at row `q`, position `j`. -/
theorem turned_apply {α : Type} {a b : ℕ} (x : (⟨2, ![a, b]⟩ : Shape).Idx → α)
    (h : (⟨2, ![a, b]⟩ : Shape).Transposes [1, 0] ⟨2, ![b, a]⟩) (j : Fin b) (q : Fin a) :
    transpose (⟨2, ![b, a]⟩ : Shape) [1, 0] x h (ix2 j q) = x (ix2 q j) := by
  refine transpose_apply [1, 0] x h (ix2 j q) (ix2 q j) (fun c => ?_)
  match c with
  | ⟨0, _⟩ => rfl
  | ⟨1, _⟩ => rfl

/-- The left factor's row is the entry's row. -/
theorem left_row (i : S1024x128.Idx) (c : dot_S1024x4096_S4096x128_S1024x128_1_0_0_1_n_n.contr.Idx) : (dot_S1024x4096_S4096x128_S1024x128_1_0_0_1_n_n.lhsIdx i c 0).val = (i 0).val := by
  unfold DotDims.lhsIdx
  rw [dif_neg (show ¬(0 : Fin S1024x4096.rank) ∈ dot_S1024x4096_S4096x128_S1024x128_1_0_0_1_n_n.lhsBatch by decide),
    dif_pos (show (0 : Fin S1024x4096.rank) ∈ dot_S1024x4096_S4096x128_S1024x128_1_0_0_1_n_n.lhsNonContracting by decide)]
  rfl

/-- The right factor's column is the entry's column. -/
theorem right_col (i : S1024x128.Idx) (c : dot_S1024x4096_S4096x128_S1024x128_1_0_0_1_n_n.contr.Idx) : (dot_S1024x4096_S4096x128_S1024x128_1_0_0_1_n_n.rhsIdx i c 1).val = (i 1).val := by
  unfold DotDims.rhsIdx
  rw [dif_neg (show ¬(1 : Fin S4096x128.rank) ∈ dot_S1024x4096_S4096x128_S1024x128_1_0_0_1_n_n.rhsBatch by decide),
    dif_pos (show (1 : Fin S4096x128.rank) ∈ dot_S1024x4096_S4096x128_S1024x128_1_0_0_1_n_n.rhsNonContracting by decide)]
  rfl

/-- The product of the activations' block with the turned weights' block, from zero: the row-by-row sum. -/
theorem product_apply (x : FVec Ideal S1024x4096 .bf16) (w : FVec Ideal S4096x128 .bf16) (p : Fin 1024) (q : Fin 128) :
    matmul (F := Ideal) dot_S1024x4096_S4096x128_S1024x128_1_0_0_1_n_n none x w (constant S1024x128 .f32 0x00000000#32) (ix2 p q)
      = ∑ j : Fin 4096, x (ix2 p j) * w (ix2 j q) := by
  simp only [matmul]
  rw [Ideal.matmul_constant_zero_apply, ← Equiv.sum_comp (contrEquiv1 dot_S1024x4096_S4096x128_S1024x128_1_0_0_1_n_n 4096 rfl rfl).symm]
  refine Finset.sum_congr rfl fun k _ => ?_
  have hk := contrEquiv1_symm_val dot_S1024x4096_S4096x128_S1024x128_1_0_0_1_n_n 4096 rfl rfl k
  have el : dot_S1024x4096_S4096x128_S1024x128_1_0_0_1_n_n.lhsIdx (ix2 p q) ((contrEquiv1 dot_S1024x4096_S4096x128_S1024x128_1_0_0_1_n_n 4096 rfl rfl).symm k) = ix2 p k :=
    funext fun a => Fin.ext (by
      match a with
      | ⟨0, _⟩ => exact left_row _ _
      | ⟨1, _⟩ => exact (dot_S1024x4096_S4096x128_S1024x128_1_0_0_1_n_n.lhsIdx_val_of_single rfl _ _).trans hk)
  have er : dot_S1024x4096_S4096x128_S1024x128_1_0_0_1_n_n.rhsIdx (ix2 p q) ((contrEquiv1 dot_S1024x4096_S4096x128_S1024x128_1_0_0_1_n_n 4096 rfl rfl).symm k) = ix2 k q :=
    funext fun a => Fin.ext (by
      match a with
      | ⟨0, _⟩ => exact (dot_S1024x4096_S4096x128_S1024x128_1_0_0_1_n_n.rhsIdx_val_of_single rfl _ _).trans hk
      | ⟨1, _⟩ => exact right_col _ _)
  rw [el, er]

/-- The same with the weights' block turned over in front: row `p` of the activations against row `q` of the weights. -/
theorem product_turned_apply (x : FVec Ideal S1024x4096 .bf16) (w : FVec Ideal S128x4096 .bf16) (p : Fin 1024) (q : Fin 128) :
    matmul (F := Ideal) dot_S1024x4096_S4096x128_S1024x128_1_0_0_1_n_n none x (transpose S4096x128 [1, 0] w transposes_S128x4096_p1_0_S4096x128)
        (constant S1024x128 .f32 0x00000000#32) (ix2 p q)
      = ∑ j : Fin 4096, x (ix2 p j) * w (ix2 q j) := by
  rw [product_apply]
  exact Finset.sum_congr rfl fun j _ => by rw [turned_apply]

/-- The third layer's block at row `p`, column `q`. -/
theorem k2_pay1_apply (v0 : Vec Ideal S1024x4096 .bf16) (v2 : Vec Ideal S128x4096 .bf16)
    (v6 v10 v14 v21 v25 : Vec Ideal S1x128 .f32) (p : Fin 1024) (q : Fin 128) :
    k2_pay1 (F := Ideal) v0 v2 v6 v10 v14 v21 v25 (ix2 p q)
      = Cert.Spec.bn (∑ j : Fin 4096, v0 (ix2 p j) * v2 (ix2 q j)) (v6 (ix2 0 q)) (v21 (ix2 0 q)) (v25 (ix2 0 q))
          (v10 (ix2 0 q)) (v14 (ix2 0 q)) := by
  unfold Gen.k2_pay1 Cert.Spec.bn
  rw [shapeCast_self v0, shapeCast_self v2, shapeCast_self v6, shapeCast_self v10, shapeCast_self v14, shapeCast_self v21,
    shapeCast_self v25]
  rw [addf_apply, mulf_apply, mulf_apply, subf_apply, addf_apply, product_turned_apply]
  rw [spread_row_apply, spread_row_apply, spread_row_apply, spread_row_apply, spread_row_apply]
  rfl

end Cert.KernelIdeal.L3Pay

end
-- ==== Proof.L3Value.lean ====
import proofs.«112361_j47373489275136_2_alg».proof.Proof.L3Frame
import proofs.«112361_j47373489275136_2_alg».proof.Proof.L3Pay
import proofs.«112361_j47373489275136_2_alg».proof.Proof.Layer
import Idealize.ShloMosaic.Lib.Pipeline.Value
import Idealize.ShloMosaic.Lib.ValueIdx
import Idealize.ShloMosaic.Lib.Tactic

/-! # The third layer's output array

The third layer's grid has 16 points; point `t` stores rows `1024·t … 1024·t + 1023` of the output, all 128 columns,
from the same rows of the activations and the whole weight matrix and parameter rows. The blocks tile the output
array, so after the last point the array is one function of the operand arrays: at row `i` and column `o` the
batch normalization, with column `o`'s parameters, of the activations' row `i` against the weights' row `o`.
-/

set_option maxRecDepth 16384

noncomputable section

namespace Cert.KernelIdeal.L3V

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

-- what the TensorCore's buffers hold when the layer's grid starts
variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-! ## The layer as one function of its operand arrays -/

/-- The third layer as a function of whole arrays: activations `a0`, binarized weights `a1`, and the rows bias `a2`, scale
    `a3`, shift `a4`, running mean `a5`, running variance `a6`. -/
def layer (a0 : S16384x4096.Idx → EReal) (a1 : S128x4096.Idx → EReal) (a2 a3 a4 a5 a6 : S1x128.Idx → EReal) :
    S16384x128.Idx → EReal := fun i =>
  Cert.Spec.affL (B := 16384) (K := 4096) (N := 128) (Cert.Spec.mat a0) (Cert.Spec.mat a1) (Cert.Spec.row a2) (Cert.Spec.row a3)
    (Cert.Spec.row a4) (Cert.Spec.row a5) (Cert.Spec.row a6) (i 0) (i 1)

/-! ## One entry of the block a grid point stores -/

/-- Entry `(p, q)` of the stored block, from the operands' blocks: the batch normalization of the row-by-row product. -/
theorem stored_entry (x0 : Vec Ideal S1024x4096 .bf16) (x1 : Vec Ideal S128x4096 .bf16) (x2 x3 x4 x5 x6 : Vec Ideal S1x128 .f32)
    (p : Fin 1024) (q : Fin 128) :
    L3.stored x0 x1 x2 x3 x4 x5 x6 (ix2 p q)
      = Cert.Spec.bn (∑ j : Fin 4096, x0 (ix2 p j) * x1 (ix2 q j)) (x2 (ix2 0 q)) (x3 (ix2 0 q)) (x4 (ix2 0 q))
          (x5 (ix2 0 q)) (x6 (ix2 0 q)) := by
  unfold L3.stored
  rw [View.canon_unit_zero zero_offsets]
  simp only [View.ld_unit_zero (S := S1024x4096) zero_offsets, View.ld_unit_zero (S := S128x4096) zero_offsets,
    View.ld_unit_zero (S := S1x128) zero_offsets]
  exact L3Pay.k2_pay1_apply x0 x1 x2 x5 x6 x3 x4 p q

/-! ## Where the blocks sit in their arrays -/

/-- The block indices over the grid: the output's and the first operand's row block is the grid point's number, and
    every other block index is zero. -/
theorem block_indices : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The first operand's block at point `t` is rows `1024·t … 1024·t + 1023` of its array. -/
theorem rows_block (c : Dev nD) (t : Fin cfg2.N) (p : Fin 1024) (j : Fin 4096) (r : Fin 16384)
    (hr : r.val = 1024 * t.val + p.val) :
    (L3.blk V c 0 t : Vec Ideal S1024x4096 .bf16) (ix2 p j)
      = (V c (Pipeline.arrRef spec2 0) : S16384x4096.Idx → EReal) (ix2 r j) := by
  obtain ⟨-, -, e0, e1, -⟩ := block_indices t
  show V c (Pipeline.arrRef spec2 0) (((cfg2.win 0).blk t).view.emb (ix2 p j)) = _
  refine congrArg _ ?_
  funext a; apply Fin.ext
  match a with
  | ⟨0, _⟩ => show win2_0.index t (0 : Fin 2) * 1024 + 1 * p.val = r.val; rw [e0, hr]; omega
  | ⟨1, _⟩ => show win2_0.index t (1 : Fin 2) * 4096 + 1 * j.val = j.val; rw [e1]; omega

/-- The weights' block at every point is the whole weight array. -/
theorem weights_block (c : Dev nD) (t : Fin cfg2.N) (y : S128x4096.Idx) :
    (L3.blk V c 1 t : Vec Ideal S128x4096 .bf16) y = (V c (Pipeline.arrRef spec2 1) : S128x4096.Idx → EReal) y := by
  obtain ⟨-, -, -, -, e0, e1, -⟩ := block_indices t
  show V c (Pipeline.arrRef spec2 1) (((cfg2.win 1).blk t).view.emb y) = _
  refine congrArg _ ?_
  funext a; apply Fin.ext
  match a with
  | ⟨0, _⟩ => show win2_1.index t (0 : Fin 2) * 128 + 1 * (y 0).val = (y 0).val; rw [e0]; omega
  | ⟨1, _⟩ => show win2_1.index t (1 : Fin 2) * 4096 + 1 * (y 1).val = (y 1).val; rw [e1]; omega

/-- Parameter row 1's block at every point is the whole row. -/
theorem row2_block (c : Dev nD) (t : Fin cfg2.N) (y : S1x128.Idx) :
    (L3.blk V c 2 t : Vec Ideal S1x128 .f32) y = (V c (Pipeline.arrRef spec2 2) : S1x128.Idx → EReal) y := by
  obtain ⟨-, -, -, -, -, -, e0, e1, -⟩ := block_indices t
  show V c (Pipeline.arrRef spec2 2) (((cfg2.win 2).blk t).view.emb y) = _
  refine congrArg _ ?_
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Parameter row 2's block at every point is the whole row. -/
theorem row3_block (c : Dev nD) (t : Fin cfg2.N) (y : S1x128.Idx) :
    (L3.blk V c 3 t : Vec Ideal S1x128 .f32) y = (V c (Pipeline.arrRef spec2 3) : S1x128.Idx → EReal) y := by
  obtain ⟨-, -, -, -, -, -, -, -, e0, e1, -⟩ := block_indices t
  show V c (Pipeline.arrRef spec2 3) (((cfg2.win 3).blk t).view.emb y) = _
  refine congrArg _ ?_
  funext a; apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- Parameter row 3's block at every point is the whole row. -/
theorem row4_block (c : Dev nD) (t : Fin cfg2.N) (y : S1x128.Idx) :
    (L3.blk V c 4 t : Vec Ideal S1x128 .f32) y = (V c (Pipeline.arrRef spec2 4) : S1x128.Idx → EReal) y := by
  obtain ⟨-, -, -, -, -, -, -, -, -, -, e0, e1, -⟩ := block_indices t
  show V c (Pipeline.arrRef spec2 4) (((cfg2.win 4).blk t).view.emb y) = _
  refine congrArg _ ?_
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Parameter row 4's block at every point is the whole row. -/
theorem row5_block (c : Dev nD) (t : Fin cfg2.N) (y : S1x128.Idx) :
    (L3.blk V c 5 t : Vec Ideal S1x128 .f32) y = (V c (Pipeline.arrRef spec2 5) : S1x128.Idx → EReal) y := by
  obtain ⟨-, -, -, -, -, -, -, -, -, -, -, -, e0, e1, -⟩ := block_indices t
  show V c (Pipeline.arrRef spec2 5) (((cfg2.win 5).blk t).view.emb y) = _
  refine congrArg _ ?_
  funext a; apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- Parameter row 5's block at every point is the whole row. -/
theorem row6_block (c : Dev nD) (t : Fin cfg2.N) (y : S1x128.Idx) :
    (L3.blk V c 6 t : Vec Ideal S1x128 .f32) y = (V c (Pipeline.arrRef spec2 6) : S1x128.Idx → EReal) y := by
  obtain ⟨-, -, -, -, -, -, -, -, -, -, -, -, -, -, e0, e1⟩ := block_indices t
  show V c (Pipeline.arrRef spec2 6) (((cfg2.win 6).blk t).view.emb y) = _
  refine congrArg _ ?_
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- One entry of a stored block against the layer's function: if the operands' blocks are the rows `1024·T …` of the first
    array and the whole of the others, entry `y` of the stored block is the layer's function at the array index `i`
    that sits `1024·T` rows below `y`. -/
theorem stored_eq_layer (x0 : Vec Ideal S1024x4096 .bf16) (x1 : Vec Ideal S128x4096 .bf16) (x2 x3 x4 x5 x6 : Vec Ideal S1x128 .f32)
    (a0 : S16384x4096.Idx → EReal) (a1 : S128x4096.Idx → EReal) (a2 a3 a4 a5 a6 : S1x128.Idx → EReal)
    (T : ℕ) (y : S1024x128.Idx) (i : S16384x128.Idx)
    (h0 : (i 0).val = 1024 * T + (y 0).val) (h1 : (i 1).val = (y 1).val)
    (hx0 : ∀ (p : Fin 1024) (j : Fin 4096) (r : Fin 16384), r.val = 1024 * T + p.val → x0 (ix2 p j) = a0 (ix2 r j))
    (hx1 : ∀ z, x1 z = a1 z) (hx2 : ∀ z, x2 z = a2 z) (hx3 : ∀ z, x3 z = a3 z) (hx4 : ∀ z, x4 z = a4 z)
    (hx5 : ∀ z, x5 z = a5 z) (hx6 : ∀ z, x6 z = a6 z) :
    L3.stored x0 x1 x2 x3 x4 x5 x6 y = layer a0 a1 a2 a3 a4 a5 a6 i := by
  obtain ⟨p, q, rfl⟩ : ∃ (p : Fin 1024) (q : Fin 128), y = ix2 p q := ⟨y 0, y 1, eq_ix2 y⟩
  obtain ⟨r, s, rfl⟩ : ∃ (r : Fin 16384) (s : Fin 128), i = ix2 r s := ⟨i 0, i 1, eq_ix2 i⟩
  obtain rfl : s = q := Fin.ext h1
  rw [stored_entry x0 x1 x2 x3 x4 x5 x6 p s]
  show Cert.Spec.bn (∑ j : Fin 4096, x0 (ix2 p j) * x1 (ix2 s j)) (x2 (ix2 0 s)) (x3 (ix2 0 s)) (x4 (ix2 0 s)) (x5 (ix2 0 s)) (x6 (ix2 0 s))
    = Cert.Spec.bn (∑ k : Fin 4096, a0 (ix2 r k) * a1 (ix2 s k)) (a2 (ix2 0 s)) (a3 (ix2 0 s)) (a4 (ix2 0 s)) (a5 (ix2 0 s)) (a6 (ix2 0 s))
  rw [hx2, hx3, hx4, hx5, hx6]
  rw [Finset.sum_congr rfl fun j _ => by rw [hx0 p j r h0, hx1]]

/-! ## What a grid point writes back -/

/-- The block point `t` writes back is block `t` of the layer's function of the operand arrays. -/
theorem flushed_eq (c : Dev nD) (t : Fin cfg2.N) :
    (L3.dat (F := Ideal) V c).flushed 7 t = ((cfg2.win 7).blk t).view.read (Elt Ideal)
      (layer (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 7).cut (grid2.coords t) ((L3.dat (F := Ideal) V c).after 7 t) = _
  rw [L3.dat_after_out]
  obtain ⟨e0, e1, -⟩ := block_indices t
  funext y
  show L3.stored (L3.blk V c 0 t) (L3.blk V c 1 t) (L3.blk V c 2 t) (L3.blk V c 3 t) (L3.blk V c 4 t)
      (L3.blk V c 5 t) (L3.blk V c 6 t) y
    = layer (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (((cfg2.win 7).blk t).view.emb y)
  refine stored_eq_layer _ _ _ _ _ _ _ _ _ _ _ _ _ _ t.val y _ ?_ ?_
    (fun p j r hr => rows_block V c t p j r hr) (weights_block V c t) (row2_block V c t) (row3_block V c t)
    (row4_block V c t) (row5_block V c t) (row6_block V c t)
  · show win2_7.index t (0 : Fin 2) * 1024 + 1 * (y 0).val = 1024 * t.val + (y 0).val; rw [e0]; omega
  · show win2_7.index t (1 : Fin 2) * 128 + 1 * (y 1).val = (y 1).val; rw [e1]; omega

/-! ## The blocks tile the output array -/

/-- An index of the output array is in point `t`'s block iff each coordinate is in the block's range on its axis. -/
theorem mem_block (t : Fin cfg2.N) (i : S16384x128.Idx) :
    i ∈ ((cfg2.win 7).blk t).view.set ↔ ∀ a : Fin 2, win2_7.index t a * S1024x128.size a ≤ (i a).val
      ∧ (i a).val < win2_7.index t a * S1024x128.size a + S1024x128.size a := by
  show i ∈ ((View.whole main_v29).slice (win2_7.rect t)).set ↔ _
  rw [View.set_slice_whole, Rect.mem_set_unit]
  exact Iff.rfl

/-- Row `r` of the output is in the block of point `r / 1024`, which is written back. -/
theorem covered (i : S16384x128.Idx) :
    ∃ t : Fin cfg2.N, (cfg2.win 7).flush t = true ∧ i ∈ ((cfg2.win 7).blk t).view.set := by
  have hi0 : (i 0).val < 16384 := (i 0).isLt
  have hi1 : (i 1).val < 128 := (i 1).isLt
  let t : Fin cfg2.N := ⟨(i 0).val / 1024, by rw [show cfg2.N = 16 from N_2]; omega⟩
  obtain ⟨e0, e1, -⟩ := block_indices t
  refine ⟨t, flush2_7 t, ?_⟩
  rw [mem_block]
  intro a
  match a with
  | ⟨0, _⟩ =>
    show win2_7.index t (0 : Fin 2) * 1024 ≤ (i 0).val ∧ (i 0).val < win2_7.index t (0 : Fin 2) * 1024 + 1024
    rw [e0]; show (i 0).val / 1024 * 1024 ≤ (i 0).val ∧ (i 0).val < (i 0).val / 1024 * 1024 + 1024; omega
  | ⟨1, _⟩ =>
    show win2_7.index t (1 : Fin 2) * 128 ≤ (i 1).val ∧ (i 1).val < win2_7.index t (1 : Fin 2) * 128 + 128
    rw [e1]; omega

/-! ## The output array after the layer -/

/-- After the last grid point the output array holds the layer's function of the operand arrays. -/
theorem out_whole (c : Dev nD) :
    (L3.dat (F := Ideal) V c).arrAt 7 cfg2.N
      = layer (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) :=
  (L3.dat (F := Ideal) V c).arrAt_eq_of_cover 7 _ (fun t _ => flushed_eq V c t) covered

/-- Entry by entry: row `i`, column `o` of the output array is the layer of the operand arrays there. -/
theorem out_array (c : Dev nD) (i : Fin 16384) (o : Fin 128) :
    (L3.dat (F := Ideal) V c).arrAt 7 cfg2.N (ix2 i o)
      = Cert.Spec.affL (Cert.Spec.mat (V c (Pipeline.arrRef spec2 0) : S16384x4096.Idx → EReal))
          (Cert.Spec.mat (V c (Pipeline.arrRef spec2 1) : S128x4096.Idx → EReal))
          (Cert.Spec.row (V c (Pipeline.arrRef spec2 2) : S1x128.Idx → EReal))
          (Cert.Spec.row (V c (Pipeline.arrRef spec2 3) : S1x128.Idx → EReal))
          (Cert.Spec.row (V c (Pipeline.arrRef spec2 4) : S1x128.Idx → EReal))
          (Cert.Spec.row (V c (Pipeline.arrRef spec2 5) : S1x128.Idx → EReal))
          (Cert.Spec.row (V c (Pipeline.arrRef spec2 6) : S1x128.Idx → EReal)) i o :=
  congrFun (out_whole V c) (ix2 i o)

end Cert.KernelIdeal.L3V

end
-- ==== Proof.HostValue.lean ====
/-
  What the host operations between the three layers leave in the arrays the layers read: the signs of the weights,
  the five parameter vectors of each layer laid out as one row, the third layer's arrays padded to 128 outputs, and,
  at the end, the first ten columns of the third layer's output.
-/
import proofs.«112361_j47373489275136_2_alg».proof.Proof.Gen.KernelIdeal.Regions
import proofs.«112361_j47373489275136_2_alg».proof.Proof.Spec
import proofs.«112361_j47373489275136_2_alg».proof.Proof.Layer
import Idealize.ShloMosaic.Lib.StableHlo.Run
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value
import Idealize.ShloMosaic.PureOps.Ideal.Laws

noncomputable section

namespace Cert.KernelIdeal.HostV

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (outs : Outs (F := Ideal)) (c : Dev nD)

/-! ## Two shapes of step -/

/-- A vector laid out as one row, read at a column, is the vector there. -/
theorem row_shapeCast {a : ℕ} (x : (⟨1, ![a]⟩ : Shape).Idx → EReal) (h : (⟨1, ![a]⟩ : Shape).ShapeCasts ⟨2, ![1, a]⟩) (j : Fin a) :
    Cert.Spec.row (shapeCast ⟨2, ![1, a]⟩ x h) j = Cert.Spec.vec x j :=
  shapeCast_a_1a_apply x h 0 j

/-- The sign of a matrix narrowed to the shorter format, read at a row and a column, is the sign of the entry:
    on the extended reals narrowing changes nothing. -/
theorem mat_trunc_sign {a b : ℕ} (x : (⟨2, ![a, b]⟩ : Shape).Idx → EReal) (j : Fin a) (k : Fin b) :
    Cert.Spec.mat (truncf (F := Ideal) (s := ⟨2, ![a, b]⟩) (φ := .f32) .bf16 (Host.sign (F := Ideal) x) bitsLt_bf16_f32) j k
      = Cert.Spec.sgn (Cert.Spec.mat x j k) := rfl

/-- A matrix padded with further rows below, read at one of its own rows, is the matrix there. -/
theorem mat_pad_rows {n N b : ℕ} {hi : Fin 2 → ℕ} (x : (⟨2, ![n, b]⟩ : Shape).Idx → EReal) {u : Shape} (v : u.Idx → EReal)
    (h : (⟨2, ![n, b]⟩ : Shape).Pads ![0, 0] hi ![0, 0] ⟨2, ![N, b]⟩) (hu : 0 < u.numel) (j : Fin n) (hj : j.val < N) (k : Fin b) :
    Cert.Spec.mat (pad ⟨2, ![N, b]⟩ ![0, 0] hi ![0, 0] x v h hu) ⟨j.val, hj⟩ k = Cert.Spec.mat x j k :=
  pad_apply_of_inside _ _ _ x v h hu _ (ix2 j k) (fun a => by
    match a with
    | ⟨0, _⟩ => show j.val = 0 + j.val * (0 + 1); omega
    | ⟨1, _⟩ => show k.val = 0 + k.val * (0 + 1); omega)

/-- A vector padded with further entries behind, read at one of its own positions, is the vector there. -/
theorem vec_pad_tail {n N : ℕ} {hi : Fin 1 → ℕ} (x : (⟨1, ![n]⟩ : Shape).Idx → EReal) {u : Shape} (v : u.Idx → EReal)
    (h : (⟨1, ![n]⟩ : Shape).Pads ![0] hi ![0] ⟨1, ![N]⟩) (hu : 0 < u.numel) (j : Fin n) (hj : j.val < N) :
    Cert.Spec.vec (pad ⟨1, ![N]⟩ ![0] hi ![0] x v h hu) ⟨j.val, hj⟩ = Cert.Spec.vec x j :=
  pad_apply_of_inside _ _ _ x v h hu _ (ix1 j) (fun a => by
    match a with
    | ⟨0, _⟩ => show j.val = 0 + j.val * (0 + 1); omega)

/-! ## The first layer's arrays -/

/-- The first layer reads the input as it was launched. -/
theorem e0_x : (V1 m c main_arg0 : S16384x784.Idx → EReal) = m ((c.tc : Thread nD τ).loc main_arg0) := by
  dsimp only [Gen.V1, Gen.hostOps0]; after_results

/-- The first layer's weight array holds the signs of the first weight matrix. -/
theorem e0_w (j : Fin 4096) (k : Fin 784) :
    Cert.Spec.mat (V1 m c main_v1 : S4096x784.Idx → EReal) j k = Cert.Spec.sgn (Cert.Spec.mat (m ((c.tc : Thread nD τ).loc main_arg1) : S4096x784.Idx → EReal) j k) := by
  have e : (V1 m c main_v1 : S4096x784.Idx → EReal)
      = truncf (F := Ideal) .bf16 (Host.sign (F := Ideal) (m ((c.tc : Thread nD τ).loc main_arg1) : S4096x784.Idx → EReal)) bitsLt_bf16_f32 := by
    dsimp only [Gen.V1, Gen.hostOps0]; after_results
  rw [e]; exact mat_trunc_sign _ j k

/-- The first layer's bias row is the bias vector. -/
theorem e0_b (j : Fin 4096) :
    Cert.Spec.row (V1 m c main_v4 : S1x4096.Idx → EReal) j = Cert.Spec.vec (m ((c.tc : Thread nD τ).loc main_arg2) : S4096.Idx → EReal) j := by
  have e : (V1 m c main_v4 : S1x4096.Idx → EReal) = shapeCast S1x4096 (m ((c.tc : Thread nD τ).loc main_arg2) : S4096.Idx → EReal) shapeCasts_S4096_S1x4096 := by
    dsimp only [Gen.V1, Gen.hostOps0]; after_results; rfl
  rw [e]; exact row_shapeCast _ _ j

/-- The first layer's scale row is the scale vector. -/
theorem e0_g (j : Fin 4096) :
    Cert.Spec.row (V1 m c main_v5 : S1x4096.Idx → EReal) j = Cert.Spec.vec (m ((c.tc : Thread nD τ).loc main_arg3) : S4096.Idx → EReal) j := by
  have e : (V1 m c main_v5 : S1x4096.Idx → EReal) = shapeCast S1x4096 (m ((c.tc : Thread nD τ).loc main_arg3) : S4096.Idx → EReal) shapeCasts_S4096_S1x4096 := by
    dsimp only [Gen.V1, Gen.hostOps0]; after_results; rfl
  rw [e]; exact row_shapeCast _ _ j

/-- The first layer's shift row is the shift vector. -/
theorem e0_be (j : Fin 4096) :
    Cert.Spec.row (V1 m c main_v6 : S1x4096.Idx → EReal) j = Cert.Spec.vec (m ((c.tc : Thread nD τ).loc main_arg4) : S4096.Idx → EReal) j := by
  have e : (V1 m c main_v6 : S1x4096.Idx → EReal) = shapeCast S1x4096 (m ((c.tc : Thread nD τ).loc main_arg4) : S4096.Idx → EReal) shapeCasts_S4096_S1x4096 := by
    dsimp only [Gen.V1, Gen.hostOps0]; after_results; rfl
  rw [e]; exact row_shapeCast _ _ j

/-- The first layer's running mean row is the running mean vector. -/
theorem e0_mu (j : Fin 4096) :
    Cert.Spec.row (V1 m c main_v7 : S1x4096.Idx → EReal) j = Cert.Spec.vec (m ((c.tc : Thread nD τ).loc main_arg5) : S4096.Idx → EReal) j := by
  have e : (V1 m c main_v7 : S1x4096.Idx → EReal) = shapeCast S1x4096 (m ((c.tc : Thread nD τ).loc main_arg5) : S4096.Idx → EReal) shapeCasts_S4096_S1x4096 := by
    dsimp only [Gen.V1, Gen.hostOps0]; after_results; rfl
  rw [e]; exact row_shapeCast _ _ j

/-- The first layer's running variance row is the running variance vector. -/
theorem e0_v (j : Fin 4096) :
    Cert.Spec.row (V1 m c main_v8 : S1x4096.Idx → EReal) j = Cert.Spec.vec (m ((c.tc : Thread nD τ).loc main_arg6) : S4096.Idx → EReal) j := by
  have e : (V1 m c main_v8 : S1x4096.Idx → EReal) = shapeCast S1x4096 (m ((c.tc : Thread nD τ).loc main_arg6) : S4096.Idx → EReal) shapeCasts_S4096_S1x4096 := by
    dsimp only [Gen.V1, Gen.hostOps0]; after_results; rfl
  rw [e]; exact row_shapeCast _ _ j

/-! ## The result -/

/-- The program's result is the first ten columns of what the third layer leaves. -/
theorem result_slice (i : Fin 16384) (o : Fin 10) :
    (V19 m outs c main_v30 : S16384x10.Idx → EReal) (ix2 i o)
      = (outs 18 main_v29 c : S16384x128.Idx → EReal) (ix2 i ⟨o.val, Nat.lt_of_lt_of_le o.isLt (by decide)⟩) := by
  have e : (V19 m outs c main_v30 : S16384x10.Idx → EReal)
      = extractStridedSlice S16384x10 ![0, 0] (outs 18 main_v29 c : S16384x128.Idx → EReal) slices_S16384x128_S16384x10_0_0 := by
    dsimp only [Gen.V19, Gen.hostOps3]; after_results
    dsimp only [Gen.V18]; rw [Function.update_self]
  rw [e]
  exact slice2_axis1_apply 0 _ _ i o _ (Nat.zero_add _).symm

/-! ## The second layer's arrays -/

/-- The second layer reads what the first layer left. -/
theorem e1_x : (V3 m outs c main_v9 : S16384x4096.Idx → EReal) = outs 2 main_v9 c := by
  rw [V3_of m outs c _ (by decide)]
  dsimp only [Gen.V2]; rw [Function.update_self]

/-- The second layer's weight array holds the signs of the second weight matrix. -/
theorem e1_w (j : Fin 4096) (k : Fin 4096) :
    Cert.Spec.mat (V3 m outs c main_v3 : S4096x4096.Idx → EReal) j k = Cert.Spec.sgn (Cert.Spec.mat (m ((c.tc : Thread nD τ).loc main_arg7) : S4096x4096.Idx → EReal) j k) := by
  have e : (V3 m outs c main_v3 : S4096x4096.Idx → EReal)
      = truncf (F := Ideal) .bf16 (Host.sign (F := Ideal) (m ((c.tc : Thread nD τ).loc main_arg7) : S4096x4096.Idx → EReal)) bitsLt_bf16_f32 := by
    rw [V3_of m outs c _ (by decide), V2_of m outs c _ (by decide)]
    dsimp only [Gen.V1, Gen.hostOps0]; after_results
  rw [e]; exact mat_trunc_sign _ j k

/-- The second layer's bias row is the bias vector. -/
theorem e1_b (j : Fin 4096) :
    Cert.Spec.row (V3 m outs c main_v10 : S1x4096.Idx → EReal) j = Cert.Spec.vec (m ((c.tc : Thread nD τ).loc main_arg8) : S4096.Idx → EReal) j := by
  have ha : (V2 m outs c main_arg8 : S4096.Idx → EReal) = m ((c.tc : Thread nD τ).loc main_arg8) := by
    rw [V2_of m outs c _ (by decide), V1_of m c _ (by decide)]
  have e : (V3 m outs c main_v10 : S1x4096.Idx → EReal) = shapeCast S1x4096 (V2 m outs c main_arg8 : S4096.Idx → EReal) shapeCasts_S4096_S1x4096 := by
    dsimp only [Gen.V3, Gen.hostOps1]; after_results; rfl
  rw [e, ha]; exact row_shapeCast _ _ j

/-- The second layer's scale row is the scale vector. -/
theorem e1_g (j : Fin 4096) :
    Cert.Spec.row (V3 m outs c main_v11 : S1x4096.Idx → EReal) j = Cert.Spec.vec (m ((c.tc : Thread nD τ).loc main_arg9) : S4096.Idx → EReal) j := by
  have ha : (V2 m outs c main_arg9 : S4096.Idx → EReal) = m ((c.tc : Thread nD τ).loc main_arg9) := by
    rw [V2_of m outs c _ (by decide), V1_of m c _ (by decide)]
  have e : (V3 m outs c main_v11 : S1x4096.Idx → EReal) = shapeCast S1x4096 (V2 m outs c main_arg9 : S4096.Idx → EReal) shapeCasts_S4096_S1x4096 := by
    dsimp only [Gen.V3, Gen.hostOps1]; after_results; rfl
  rw [e, ha]; exact row_shapeCast _ _ j

/-- The second layer's shift row is the shift vector. -/
theorem e1_be (j : Fin 4096) :
    Cert.Spec.row (V3 m outs c main_v12 : S1x4096.Idx → EReal) j = Cert.Spec.vec (m ((c.tc : Thread nD τ).loc main_arg10) : S4096.Idx → EReal) j := by
  have ha : (V2 m outs c main_arg10 : S4096.Idx → EReal) = m ((c.tc : Thread nD τ).loc main_arg10) := by
    rw [V2_of m outs c _ (by decide), V1_of m c _ (by decide)]
  have e : (V3 m outs c main_v12 : S1x4096.Idx → EReal) = shapeCast S1x4096 (V2 m outs c main_arg10 : S4096.Idx → EReal) shapeCasts_S4096_S1x4096 := by
    dsimp only [Gen.V3, Gen.hostOps1]; after_results; rfl
  rw [e, ha]; exact row_shapeCast _ _ j

/-- The second layer's running mean row is the running mean vector. -/
theorem e1_mu (j : Fin 4096) :
    Cert.Spec.row (V3 m outs c main_v13 : S1x4096.Idx → EReal) j = Cert.Spec.vec (m ((c.tc : Thread nD τ).loc main_arg11) : S4096.Idx → EReal) j := by
  have ha : (V2 m outs c main_arg11 : S4096.Idx → EReal) = m ((c.tc : Thread nD τ).loc main_arg11) := by
    rw [V2_of m outs c _ (by decide), V1_of m c _ (by decide)]
  have e : (V3 m outs c main_v13 : S1x4096.Idx → EReal) = shapeCast S1x4096 (V2 m outs c main_arg11 : S4096.Idx → EReal) shapeCasts_S4096_S1x4096 := by
    dsimp only [Gen.V3, Gen.hostOps1]; after_results; rfl
  rw [e, ha]; exact row_shapeCast _ _ j

/-- The second layer's running variance row is the running variance vector. -/
theorem e1_v (j : Fin 4096) :
    Cert.Spec.row (V3 m outs c main_v14 : S1x4096.Idx → EReal) j = Cert.Spec.vec (m ((c.tc : Thread nD τ).loc main_arg12) : S4096.Idx → EReal) j := by
  have ha : (V2 m outs c main_arg12 : S4096.Idx → EReal) = m ((c.tc : Thread nD τ).loc main_arg12) := by
    rw [V2_of m outs c _ (by decide), V1_of m c _ (by decide)]
  have e : (V3 m outs c main_v14 : S1x4096.Idx → EReal) = shapeCast S1x4096 (V2 m outs c main_arg12 : S4096.Idx → EReal) shapeCasts_S4096_S1x4096 := by
    dsimp only [Gen.V3, Gen.hostOps1]; after_results; rfl
  rw [e, ha]; exact row_shapeCast _ _ j

/-! ## The third layer's arrays -/

/-- The third layer reads what the second layer left. -/
theorem e2_x : (V17 m outs c main_v15 : S16384x4096.Idx → EReal) = outs 4 main_v15 c := by
  rw [V17_of m outs c _ (by decide), V16_of m outs c _ (by decide), V15_of m outs c _ (by decide), V14_of m outs c _ (by decide), V13_of m outs c _ (by decide), V12_of m outs c _ (by decide), V11_of m outs c _ (by decide), V10_of m outs c _ (by decide), V9_of m outs c _ (by decide), V8_of m outs c _ (by decide), V7_of m outs c _ (by decide), V6_of m outs c _ (by decide), V5_of m outs c _ (by decide)]
  dsimp only [Gen.V4]; rw [Function.update_self]

/-- The third layer's weight array, on its first ten rows, holds the signs of the third weight matrix. -/
theorem e2_w (j : Fin 10) (k : Fin 4096) :
    Cert.Spec.mat (V17 m outs c main_v23 : S128x4096.Idx → EReal) ⟨j.val, Nat.lt_of_lt_of_le j.isLt (by decide)⟩ k
      = Cert.Spec.sgn (Cert.Spec.mat (m ((c.tc : Thread nD τ).loc main_arg13) : S10x4096.Idx → EReal) j k) := by
  have ha : (V4 m outs c main_arg13 : S10x4096.Idx → EReal) = m ((c.tc : Thread nD τ).loc main_arg13) := by
    rw [V4_of m outs c _ (by decide), V3_of m outs c _ (by decide), V2_of m outs c _ (by decide), V1_of m c _ (by decide)]
  have e : (V17 m outs c main_v23 : S128x4096.Idx → EReal)
      = truncf (F := Ideal) .bf16 (Host.sign (F := Ideal)
          (pad S128x4096 ![0, 0] ![118, 0] ![0, 0] (V4 m outs c main_arg13 : S10x4096.Idx → EReal) (sitofp (F := Ideal) .f32 (constantI S_ 32 0#32))
            pads_S10x4096_S128x4096_01180_000 h_S_)) bitsLt_bf16_f32 := by
    dsimp only [Gen.V17, Gen.hostOps2_12]; after_results; rfl
  rw [e, ha, mat_trunc_sign]
  exact congrArg Cert.Spec.sgn (mat_pad_rows _ _ _ _ j _ k)

/-- The third layer's bias row, on its first ten columns, is the bias vector. -/
theorem e2_b (j : Fin 10) :
    Cert.Spec.row (V17 m outs c main_v24 : S1x128.Idx → EReal) ⟨j.val, Nat.lt_of_lt_of_le j.isLt (by decide)⟩
      = Cert.Spec.vec (m ((c.tc : Thread nD τ).loc main_arg14) : S10.Idx → EReal) j := by
  have ha : (V4 m outs c main_arg14 : S10.Idx → EReal) = m ((c.tc : Thread nD τ).loc main_arg14) := by
    rw [V4_of m outs c _ (by decide), V3_of m outs c _ (by decide), V2_of m outs c _ (by decide), V1_of m c _ (by decide)]
  have e : (V17 m outs c main_v24 : S1x128.Idx → EReal)
      = shapeCast S1x128 (pad S128 ![0] ![118] ![0] (V4 m outs c main_arg14 : S10.Idx → EReal) (sitofp (F := Ideal) .f32 (constantI S_ 32 0#32))
          pads_S10_S128_01180 h_S_) shapeCasts_S128_S1x128 := by
    dsimp only [Gen.V17, Gen.hostOps2_12]; after_results; rfl
  rw [e, ha, row_shapeCast]
  exact vec_pad_tail _ _ _ _ j _

/-- The third layer's scale row, on its first ten columns, is the scale vector. -/
theorem e2_g (j : Fin 10) :
    Cert.Spec.row (V17 m outs c main_v25 : S1x128.Idx → EReal) ⟨j.val, Nat.lt_of_lt_of_le j.isLt (by decide)⟩
      = Cert.Spec.vec (m ((c.tc : Thread nD τ).loc main_arg15) : S10.Idx → EReal) j := by
  have ha : (V4 m outs c main_arg15 : S10.Idx → EReal) = m ((c.tc : Thread nD τ).loc main_arg15) := by
    rw [V4_of m outs c _ (by decide), V3_of m outs c _ (by decide), V2_of m outs c _ (by decide), V1_of m c _ (by decide)]
  have e : (V17 m outs c main_v25 : S1x128.Idx → EReal)
      = shapeCast S1x128 (pad S128 ![0] ![118] ![0] (V4 m outs c main_arg15 : S10.Idx → EReal) (sitofp (F := Ideal) .f32 (constantI S_ 32 0#32))
          pads_S10_S128_01180 h_S_) shapeCasts_S128_S1x128 := by
    dsimp only [Gen.V17, Gen.hostOps2_12]; after_results; rfl
  rw [e, ha, row_shapeCast]
  exact vec_pad_tail _ _ _ _ j _

/-- The third layer's shift row, on its first ten columns, is the shift vector. -/
theorem e2_be (j : Fin 10) :
    Cert.Spec.row (V17 m outs c main_v26 : S1x128.Idx → EReal) ⟨j.val, Nat.lt_of_lt_of_le j.isLt (by decide)⟩
      = Cert.Spec.vec (m ((c.tc : Thread nD τ).loc main_arg16) : S10.Idx → EReal) j := by
  have ha : (V4 m outs c main_arg16 : S10.Idx → EReal) = m ((c.tc : Thread nD τ).loc main_arg16) := by
    rw [V4_of m outs c _ (by decide), V3_of m outs c _ (by decide), V2_of m outs c _ (by decide), V1_of m c _ (by decide)]
  have e : (V17 m outs c main_v26 : S1x128.Idx → EReal)
      = shapeCast S1x128 (pad S128 ![0] ![118] ![0] (V4 m outs c main_arg16 : S10.Idx → EReal) (sitofp (F := Ideal) .f32 (constantI S_ 32 0#32))
          pads_S10_S128_01180 h_S_) shapeCasts_S128_S1x128 := by
    dsimp only [Gen.V17, Gen.hostOps2_12]; after_results; rfl
  rw [e, ha, row_shapeCast]
  exact vec_pad_tail _ _ _ _ j _

/-- The third layer's running mean row, on its first ten columns, is the running mean vector. -/
theorem e2_mu (j : Fin 10) :
    Cert.Spec.row (V17 m outs c main_v27 : S1x128.Idx → EReal) ⟨j.val, Nat.lt_of_lt_of_le j.isLt (by decide)⟩
      = Cert.Spec.vec (m ((c.tc : Thread nD τ).loc main_arg17) : S10.Idx → EReal) j := by
  have ha : (V4 m outs c main_arg17 : S10.Idx → EReal) = m ((c.tc : Thread nD τ).loc main_arg17) := by
    rw [V4_of m outs c _ (by decide), V3_of m outs c _ (by decide), V2_of m outs c _ (by decide), V1_of m c _ (by decide)]
  have e : (V17 m outs c main_v27 : S1x128.Idx → EReal)
      = shapeCast S1x128 (pad S128 ![0] ![118] ![0] (V4 m outs c main_arg17 : S10.Idx → EReal) (sitofp (F := Ideal) .f32 (constantI S_ 32 0#32))
          pads_S10_S128_01180 h_S_) shapeCasts_S128_S1x128 := by
    dsimp only [Gen.V17, Gen.hostOps2_12]; after_results; rfl
  rw [e, ha, row_shapeCast]
  exact vec_pad_tail _ _ _ _ j _

/-- The third layer's running variance row, on its first ten columns, is the running variance vector. -/
theorem e2_v (j : Fin 10) :
    Cert.Spec.row (V17 m outs c main_v28 : S1x128.Idx → EReal) ⟨j.val, Nat.lt_of_lt_of_le j.isLt (by decide)⟩
      = Cert.Spec.vec (m ((c.tc : Thread nD τ).loc main_arg18) : S10.Idx → EReal) j := by
  have ha : (V4 m outs c main_arg18 : S10.Idx → EReal) = m ((c.tc : Thread nD τ).loc main_arg18) := by
    rw [V4_of m outs c _ (by decide), V3_of m outs c _ (by decide), V2_of m outs c _ (by decide), V1_of m c _ (by decide)]
  have e : (V17 m outs c main_v28 : S1x128.Idx → EReal)
      = shapeCast S1x128 (pad S128 ![0] ![118] ![0] (V4 m outs c main_arg18 : S10.Idx → EReal) (id (constant (F := Ideal) S_ .f32 0x3F800000#32))
          pads_S10_S128_01180 h_S_) shapeCasts_S128_S1x128 := by
    dsimp only [Gen.V17, Gen.hostOps2_12]; after_results; rfl
  rw [e, ha, row_shapeCast]
  exact vec_pad_tail _ _ _ _ j _

end Cert.KernelIdeal.HostV

end
-- ==== Proof.Whole.lean ====
/-
  The value claim. The network `Cert.Spec.net` of the nineteen argument arrays is what both idealized programs leave in
  their result buffers: the reference by reading its host operations one at a time, the kernel program by following the
  three regions — each leaves in its output array one layer of the network applied to its entry arrays — through the
  host stretches that binarize the weights, lay the parameter vectors out as rows, pad the last layer and slice the result.
-/
import proofs.«112361_j47373489275136_2_alg».proof.Proof.Frames
import proofs.«112361_j47373489275136_2_alg».proof.Proof.RefValue
import proofs.«112361_j47373489275136_2_alg».proof.Proof.Finite
import proofs.«112361_j47373489275136_2_alg».proof.Proof.Layer
import proofs.«112361_j47373489275136_2_alg».proof.Proof.L1Value
import proofs.«112361_j47373489275136_2_alg».proof.Proof.L2Value
import proofs.«112361_j47373489275136_2_alg».proof.Proof.L3Value
import proofs.«112361_j47373489275136_2_alg».proof.Proof.HostValue

noncomputable section

namespace Cert.Whole

open Idealize.ShloMosaic Idealize.ShloMosaic.TcCoe Idealize.ShloMosaic.ValueIdx Idealize.SL.Sem

/-- The network read off nineteen raw argument buffers, as a result buffer's contents. -/
def netOf (x0 : Cert.ReferenceIdeal.S16384x784.Idx → EReal) (x1 : Cert.ReferenceIdeal.S4096x784.Idx → EReal) (x2 : Cert.ReferenceIdeal.S4096.Idx → EReal) (x3 : Cert.ReferenceIdeal.S4096.Idx → EReal) (x4 : Cert.ReferenceIdeal.S4096.Idx → EReal) (x5 : Cert.ReferenceIdeal.S4096.Idx → EReal) (x6 : Cert.ReferenceIdeal.S4096.Idx → EReal) (x7 : Cert.ReferenceIdeal.S4096x4096.Idx → EReal) (x8 : Cert.ReferenceIdeal.S4096.Idx → EReal) (x9 : Cert.ReferenceIdeal.S4096.Idx → EReal) (x10 : Cert.ReferenceIdeal.S4096.Idx → EReal) (x11 : Cert.ReferenceIdeal.S4096.Idx → EReal) (x12 : Cert.ReferenceIdeal.S4096.Idx → EReal) (x13 : Cert.ReferenceIdeal.S10x4096.Idx → EReal) (x14 : Cert.ReferenceIdeal.S10.Idx → EReal) (x15 : Cert.ReferenceIdeal.S10.Idx → EReal) (x16 : Cert.ReferenceIdeal.S10.Idx → EReal) (x17 : Cert.ReferenceIdeal.S10.Idx → EReal) (x18 : Cert.ReferenceIdeal.S10.Idx → EReal) :
    (⟨2, ![16384, 10]⟩ : Shape).Idx → EReal :=
  fun idx => Cert.Spec.net (Cert.Spec.mat x0) (Cert.Spec.mat x1) (Cert.Spec.vec x2) (Cert.Spec.vec x3) (Cert.Spec.vec x4) (Cert.Spec.vec x5) (Cert.Spec.vec x6) (Cert.Spec.mat x7) (Cert.Spec.vec x8) (Cert.Spec.vec x9) (Cert.Spec.vec x10) (Cert.Spec.vec x11) (Cert.Spec.vec x12) (Cert.Spec.mat x13) (Cert.Spec.vec x14) (Cert.Spec.vec x15) (Cert.Spec.vec x16) (Cert.Spec.vec x17) (Cert.Spec.vec x18) (idx 0) (idx 1)

theorem netOf_apply (x0 : Cert.ReferenceIdeal.S16384x784.Idx → EReal) (x1 : Cert.ReferenceIdeal.S4096x784.Idx → EReal) (x2 : Cert.ReferenceIdeal.S4096.Idx → EReal) (x3 : Cert.ReferenceIdeal.S4096.Idx → EReal) (x4 : Cert.ReferenceIdeal.S4096.Idx → EReal) (x5 : Cert.ReferenceIdeal.S4096.Idx → EReal) (x6 : Cert.ReferenceIdeal.S4096.Idx → EReal) (x7 : Cert.ReferenceIdeal.S4096x4096.Idx → EReal) (x8 : Cert.ReferenceIdeal.S4096.Idx → EReal) (x9 : Cert.ReferenceIdeal.S4096.Idx → EReal) (x10 : Cert.ReferenceIdeal.S4096.Idx → EReal) (x11 : Cert.ReferenceIdeal.S4096.Idx → EReal) (x12 : Cert.ReferenceIdeal.S4096.Idx → EReal) (x13 : Cert.ReferenceIdeal.S10x4096.Idx → EReal) (x14 : Cert.ReferenceIdeal.S10.Idx → EReal) (x15 : Cert.ReferenceIdeal.S10.Idx → EReal) (x16 : Cert.ReferenceIdeal.S10.Idx → EReal) (x17 : Cert.ReferenceIdeal.S10.Idx → EReal) (x18 : Cert.ReferenceIdeal.S10.Idx → EReal) (i : Fin 16384) (o : Fin 10) :
    netOf x0 x1 x2 x3 x4 x5 x6 x7 x8 x9 x10 x11 x12 x13 x14 x15 x16 x17 x18 (ix2 i o) = Cert.Spec.net (Cert.Spec.mat x0) (Cert.Spec.mat x1) (Cert.Spec.vec x2) (Cert.Spec.vec x3) (Cert.Spec.vec x4) (Cert.Spec.vec x5) (Cert.Spec.vec x6) (Cert.Spec.mat x7) (Cert.Spec.vec x8) (Cert.Spec.vec x9) (Cert.Spec.vec x10) (Cert.Spec.vec x11) (Cert.Spec.vec x12) (Cert.Spec.mat x13) (Cert.Spec.vec x14) (Cert.Spec.vec x15) (Cert.Spec.vec x16) (Cert.Spec.vec x17) (Cert.Spec.vec x18) i o := rfl

/-- The reference's result term is the network of its argument buffers. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v79 (F := Ideal) m c = netOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) := by
  rw [Cert.ReferenceIdeal.Read.val_main_v79_eq]
  funext idx
  obtain ⟨i, o, rfl⟩ : ∃ (i : Fin 16384) (o : Fin 10), idx = ix2 i o := ⟨idx 0, idx 1, eq_ix2 idx⟩
  rw [netOf_apply]
  exact Cert.ReferenceIdeal.RefValue.ref_eq_net _ _ _ _ _ _ _ _ _ _ _ _ _ _ _ _ _ _ _ i o

/-- Two layers agree at an entry when their activations' rows, their weights' rows and their five parameters agree
    there; the two may be stored at different widths (a padded and an unpadded weight matrix). -/
theorem affL_congr {B K N N' : ℕ} {x x' : Fin B → Fin K → EReal} {wb : Fin N → Fin K → EReal} {wb' : Fin N' → Fin K → EReal}
    {b g be mu v : Fin N → EReal} {b' g' be' mu' v' : Fin N' → EReal} (i : Fin B) (j : Fin N) (j' : Fin N')
    (hx : ∀ k, x i k = x' i k) (hw : ∀ k, wb j k = wb' j' k)
    (hb : b j = b' j') (hg : g j = g' j') (hbe : be j = be' j') (hmu : mu j = mu' j') (hv : v j = v' j') :
    Cert.Spec.affL x wb b g be mu v i j = Cert.Spec.affL x' wb' b' g' be' mu' v' i j' := by
  unfold Cert.Spec.affL
  rw [hb, hg, hbe, hmu, hv, Finset.sum_congr rfl (fun k _ => by rw [hx k, hw k])]

section Kernel

open Cert.KernelIdeal Cert.KernelIdeal.Gen Cert.KernelIdeal.Net

variable [hP : Cert.Pre_finite_inputs.Facts]

/-- The first argument array is finite where region 0 reads it. -/
theorem x_fin (m : (ℓ : Loc nD τ sig) → Buf (Elt Ideal) ℓ) (hpre : Cert.Pre_KernelIdeal m) (c : Dev nD) :
    ∀ idx, ∃ r : ℝ, (atTc (V1 m) c (Pipeline.arrRef spec0 0) : S16384x784.Idx → EReal) idx = (r : EReal) := by
  intro idx
  show ∃ r : ℝ, (V1 m c main_arg0 : S16384x784.Idx → EReal) idx = (r : EReal)
  rw [Cert.KernelIdeal.HostV.e0_x m c]
  exact Cert.KernelIdeal.InputFinite.x_finite m hpre c idx

/-- What region 0 leaves in its output array: the first hidden layer's activations. -/
theorem a1_eq (m : (ℓ : Loc nD τ sig) → Buf (Elt Ideal) ℓ) (hpre : Cert.Pre_KernelIdeal m) (c : Dev nD) (i : Fin 16384) (j : Fin 4096) :
    Cert.Spec.mat (W2 m c main_v9 : S16384x4096.Idx → EReal) i j
      = Cert.Spec.act1 (Cert.Spec.mat (m ((c.tc : Thread nD τ).loc main_arg0))) (Cert.Spec.mat (m ((c.tc : Thread nD τ).loc main_arg1))) (Cert.Spec.vec (m ((c.tc : Thread nD τ).loc main_arg2))) (Cert.Spec.vec (m ((c.tc : Thread nD τ).loc main_arg3))) (Cert.Spec.vec (m ((c.tc : Thread nD τ).loc main_arg4))) (Cert.Spec.vec (m ((c.tc : Thread nD τ).loc main_arg5))) (Cert.Spec.vec (m ((c.tc : Thread nD τ).loc main_arg6))) i j := by
  have hW : (W2 m c main_v9 : S16384x4096.Idx → EReal) = (L1.dat (F := Ideal) (atTc (V1 m)) c).arrAt 7 cfg0.N := by
    unfold W2; exact Pipeline.withArrays_arr spec0 launch0.win.arr_inj c _ _ 7
  show (W2 m c main_v9 : S16384x4096.Idx → EReal) (ix2 i j) = _
  rw [hW, Cert.KernelIdeal.L1V.out_array (atTc (V1 m)) c (x_fin m hpre c) i j, Cert.Spec.act1_eq]
  unfold Cert.Spec.affS Cert.Spec.affL
  have h0 : ∀ k, Cert.Spec.mat (atTc (V1 m) c (Pipeline.arrRef spec0 0) : S16384x784.Idx → EReal) i k = Cert.Spec.mat (m ((c.tc : Thread nD τ).loc main_arg0)) i k := fun k => by
    show Cert.Spec.mat (V1 m c main_arg0 : S16384x784.Idx → EReal) i k = _
    rw [Cert.KernelIdeal.HostV.e0_x m c]
  have h1 : ∀ k, Cert.Spec.mat (atTc (V1 m) c (Pipeline.arrRef spec0 1) : S4096x784.Idx → EReal) j k = Cert.Spec.sgn (Cert.Spec.mat (m ((c.tc : Thread nD τ).loc main_arg1)) j k) :=
    fun k => Cert.KernelIdeal.HostV.e0_w m c j k
  have hb : Cert.Spec.row (atTc (V1 m) c (Pipeline.arrRef spec0 2) : S1x4096.Idx → EReal) j = Cert.Spec.vec (m ((c.tc : Thread nD τ).loc main_arg2)) j := Cert.KernelIdeal.HostV.e0_b m c j
  have hg : Cert.Spec.row (atTc (V1 m) c (Pipeline.arrRef spec0 3) : S1x4096.Idx → EReal) j = Cert.Spec.vec (m ((c.tc : Thread nD τ).loc main_arg3)) j := Cert.KernelIdeal.HostV.e0_g m c j
  have hbe : Cert.Spec.row (atTc (V1 m) c (Pipeline.arrRef spec0 4) : S1x4096.Idx → EReal) j = Cert.Spec.vec (m ((c.tc : Thread nD τ).loc main_arg4)) j := Cert.KernelIdeal.HostV.e0_be m c j
  have hmu : Cert.Spec.row (atTc (V1 m) c (Pipeline.arrRef spec0 5) : S1x4096.Idx → EReal) j = Cert.Spec.vec (m ((c.tc : Thread nD τ).loc main_arg5)) j := Cert.KernelIdeal.HostV.e0_mu m c j
  have hv : Cert.Spec.row (atTc (V1 m) c (Pipeline.arrRef spec0 6) : S1x4096.Idx → EReal) j = Cert.Spec.vec (m ((c.tc : Thread nD τ).loc main_arg6)) j := Cert.KernelIdeal.HostV.e0_v m c j
  rw [hb, hg, hbe, hmu, hv, Finset.sum_congr rfl (fun k _ => by rw [h0 k, h1 k])]

/-- What region 1 leaves in its output array: the second hidden layer's activations, from what region 0 left. -/
theorem a2_eq (m : (ℓ : Loc nD τ sig) → Buf (Elt Ideal) ℓ) (c : Dev nD) (i : Fin 16384) (j : Fin 4096) :
    Cert.Spec.mat (W4 m c main_v15 : S16384x4096.Idx → EReal) i j
      = Cert.Spec.act2 (Cert.Spec.mat (W2 m c main_v9 : S16384x4096.Idx → EReal)) (Cert.Spec.mat (m ((c.tc : Thread nD τ).loc main_arg7))) (Cert.Spec.vec (m ((c.tc : Thread nD τ).loc main_arg8))) (Cert.Spec.vec (m ((c.tc : Thread nD τ).loc main_arg9))) (Cert.Spec.vec (m ((c.tc : Thread nD τ).loc main_arg10))) (Cert.Spec.vec (m ((c.tc : Thread nD τ).loc main_arg11))) (Cert.Spec.vec (m ((c.tc : Thread nD τ).loc main_arg12))) i j := by
  have hW : (W4 m c main_v15 : S16384x4096.Idx → EReal) = (L2.dat (F := Ideal) (atTc (V3 m (o1 m))) c).arrAt 7 cfg1.N := by
    unfold W4; exact Pipeline.withArrays_arr spec1 launch1.win.arr_inj c _ _ 7
  show (W4 m c main_v15 : S16384x4096.Idx → EReal) (ix2 i j) = _
  rw [hW, Cert.KernelIdeal.L2V.out_array (atTc (V3 m (o1 m))) c i j, Cert.Spec.act2_eq]
  unfold Cert.Spec.affS Cert.Spec.affL
  have h0 : ∀ k, Cert.Spec.mat (atTc (V3 m (o1 m)) c (Pipeline.arrRef spec1 0) : S16384x4096.Idx → EReal) i k = Cert.Spec.mat (W2 m c main_v9 : S16384x4096.Idx → EReal) i k := fun k => by
    show Cert.Spec.mat (V3 m (o1 m) c main_v9 : S16384x4096.Idx → EReal) i k = _
    rw [Cert.KernelIdeal.HostV.e1_x m (o1 m) c]; rfl
  have h1 : ∀ k, Cert.Spec.mat (atTc (V3 m (o1 m)) c (Pipeline.arrRef spec1 1) : S4096x4096.Idx → EReal) j k = Cert.Spec.sgn (Cert.Spec.mat (m ((c.tc : Thread nD τ).loc main_arg7)) j k) :=
    fun k => Cert.KernelIdeal.HostV.e1_w m (o1 m) c j k
  have hb : Cert.Spec.row (atTc (V3 m (o1 m)) c (Pipeline.arrRef spec1 2) : S1x4096.Idx → EReal) j = Cert.Spec.vec (m ((c.tc : Thread nD τ).loc main_arg8)) j := Cert.KernelIdeal.HostV.e1_b m (o1 m) c j
  have hg : Cert.Spec.row (atTc (V3 m (o1 m)) c (Pipeline.arrRef spec1 3) : S1x4096.Idx → EReal) j = Cert.Spec.vec (m ((c.tc : Thread nD τ).loc main_arg9)) j := Cert.KernelIdeal.HostV.e1_g m (o1 m) c j
  have hbe : Cert.Spec.row (atTc (V3 m (o1 m)) c (Pipeline.arrRef spec1 4) : S1x4096.Idx → EReal) j = Cert.Spec.vec (m ((c.tc : Thread nD τ).loc main_arg10)) j := Cert.KernelIdeal.HostV.e1_be m (o1 m) c j
  have hmu : Cert.Spec.row (atTc (V3 m (o1 m)) c (Pipeline.arrRef spec1 5) : S1x4096.Idx → EReal) j = Cert.Spec.vec (m ((c.tc : Thread nD τ).loc main_arg11)) j := Cert.KernelIdeal.HostV.e1_mu m (o1 m) c j
  have hv : Cert.Spec.row (atTc (V3 m (o1 m)) c (Pipeline.arrRef spec1 6) : S1x4096.Idx → EReal) j = Cert.Spec.vec (m ((c.tc : Thread nD τ).loc main_arg12)) j := Cert.KernelIdeal.HostV.e1_v m (o1 m) c j
  rw [hb, hg, hbe, hmu, hv, Finset.sum_congr rfl (fun k _ => by rw [h0 k, h1 k])]

/-- The kernel program's result buffer, at the end of its run, is the network of its argument buffers. -/
theorem kernel_value (m : (ℓ : Loc nD τ sig) → Buf (Elt Ideal) ℓ) (hpre : Cert.Pre_KernelIdeal m) (c : Dev nD) :
    V19 m (outs m) c main_v30 = netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
  funext idx
  obtain ⟨i, o, rfl⟩ : ∃ (i : Fin 16384) (o : Fin 10), idx = ix2 i o := ⟨idx 0, idx 1, eq_ix2 idx⟩
  rw [netOf_apply]
  refine (Cert.KernelIdeal.HostV.result_slice m (outs m) c i o).trans ?_
  have hW : (outs m 18 main_v29 c : S16384x128.Idx → EReal) = (L3.dat (F := Ideal) (atTc (V17 m (o2 m))) c).arrAt 7 cfg2.N := by
    show (W18 m c main_v29 : S16384x128.Idx → EReal) = _
    unfold W18; exact Pipeline.withArrays_arr spec2 launch2.win.arr_inj c _ _ 7
  rw [hW, Cert.KernelIdeal.L3V.out_array (atTc (V17 m (o2 m))) c i _]
  unfold Cert.Spec.net
  rw [Cert.Spec.out3_eq]
  have h0 : ∀ k, Cert.Spec.mat (atTc (V17 m (o2 m)) c (Pipeline.arrRef spec2 0) : S16384x4096.Idx → EReal) i k
      = Cert.Spec.act2 (Cert.Spec.act1 (Cert.Spec.mat (m ((c.tc : Thread nD τ).loc main_arg0))) (Cert.Spec.mat (m ((c.tc : Thread nD τ).loc main_arg1))) (Cert.Spec.vec (m ((c.tc : Thread nD τ).loc main_arg2))) (Cert.Spec.vec (m ((c.tc : Thread nD τ).loc main_arg3))) (Cert.Spec.vec (m ((c.tc : Thread nD τ).loc main_arg4))) (Cert.Spec.vec (m ((c.tc : Thread nD τ).loc main_arg5))) (Cert.Spec.vec (m ((c.tc : Thread nD τ).loc main_arg6))))
          (Cert.Spec.mat (m ((c.tc : Thread nD τ).loc main_arg7))) (Cert.Spec.vec (m ((c.tc : Thread nD τ).loc main_arg8))) (Cert.Spec.vec (m ((c.tc : Thread nD τ).loc main_arg9))) (Cert.Spec.vec (m ((c.tc : Thread nD τ).loc main_arg10))) (Cert.Spec.vec (m ((c.tc : Thread nD τ).loc main_arg11))) (Cert.Spec.vec (m ((c.tc : Thread nD τ).loc main_arg12))) i k := fun k => by
    have e : (V17 m (o2 m) c main_v15 : S16384x4096.Idx → EReal) = (W4 m c main_v15 : S16384x4096.Idx → EReal) := by
      rw [Cert.KernelIdeal.HostV.e2_x m (o2 m) c]; rfl
    show Cert.Spec.mat (V17 m (o2 m) c main_v15 : S16384x4096.Idx → EReal) i k = _
    rw [e, a2_eq m c i k]
    exact congrArg (fun a => Cert.Spec.act2 a _ _ _ _ _ _ i k) (funext fun i' => funext fun j' => a1_eq m hpre c i' j')
  have h1 : ∀ k, Cert.Spec.mat (atTc (V17 m (o2 m)) c (Pipeline.arrRef spec2 1) : S128x4096.Idx → EReal) ⟨o.val, Nat.lt_of_lt_of_le o.isLt (by decide)⟩ k = Cert.Spec.sgn (Cert.Spec.mat (m ((c.tc : Thread nD τ).loc main_arg13)) o k) :=
    fun k => Cert.KernelIdeal.HostV.e2_w m (o2 m) c o k
  have hb : Cert.Spec.row (atTc (V17 m (o2 m)) c (Pipeline.arrRef spec2 2) : S1x128.Idx → EReal) ⟨o.val, Nat.lt_of_lt_of_le o.isLt (by decide)⟩ = Cert.Spec.vec (m ((c.tc : Thread nD τ).loc main_arg14)) o := Cert.KernelIdeal.HostV.e2_b m (o2 m) c o
  have hg : Cert.Spec.row (atTc (V17 m (o2 m)) c (Pipeline.arrRef spec2 3) : S1x128.Idx → EReal) ⟨o.val, Nat.lt_of_lt_of_le o.isLt (by decide)⟩ = Cert.Spec.vec (m ((c.tc : Thread nD τ).loc main_arg15)) o := Cert.KernelIdeal.HostV.e2_g m (o2 m) c o
  have hbe : Cert.Spec.row (atTc (V17 m (o2 m)) c (Pipeline.arrRef spec2 4) : S1x128.Idx → EReal) ⟨o.val, Nat.lt_of_lt_of_le o.isLt (by decide)⟩ = Cert.Spec.vec (m ((c.tc : Thread nD τ).loc main_arg16)) o := Cert.KernelIdeal.HostV.e2_be m (o2 m) c o
  have hmu : Cert.Spec.row (atTc (V17 m (o2 m)) c (Pipeline.arrRef spec2 5) : S1x128.Idx → EReal) ⟨o.val, Nat.lt_of_lt_of_le o.isLt (by decide)⟩ = Cert.Spec.vec (m ((c.tc : Thread nD τ).loc main_arg17)) o := Cert.KernelIdeal.HostV.e2_mu m (o2 m) c o
  have hv : Cert.Spec.row (atTc (V17 m (o2 m)) c (Pipeline.arrRef spec2 6) : S1x128.Idx → EReal) ⟨o.val, Nat.lt_of_lt_of_le o.isLt (by decide)⟩ = Cert.Spec.vec (m ((c.tc : Thread nD τ).loc main_arg18)) o := Cert.KernelIdeal.HostV.e2_v m (o2 m) c o
  exact affL_congr i _ o h0 h1 hb hg hbe hmu hv

end Kernel

end Cert.Whole

namespace Cert.Proof.Value

open Idealize.ShloMosaic Idealize.SL.Sem

variable [hKernelIdeal : Cert.KernelIdeal.Facts] [hReferenceIdeal : Cert.ReferenceIdeal.Facts] [hPre : Cert.Pre_finite_inputs.Facts]

/-- From memories agreeing on the arguments both idealized programs run to the end with the network of the arguments in
    their result buffers and the arguments unchanged. -/
theorem algebraic : Cert.algebraic_KernelIdeal_ReferenceIdeal := by
  intro m ρ m' ρ' hpre hagree
  refine ⟨fun c => Cert.Whole.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono (fun r h c =>
      ⟨(h c (Proc.devRef .tc Cert.KernelIdeal.main_v30) (Finset.mem_filter.mpr ⟨StableHlo.devRef_mem_tcRefs Cert.KernelIdeal.main_v30, by decide⟩)).trans
          (Cert.Whole.kernel_value m hpre c),
        Cert.KernelIdeal.Net.args_kept m _ r.2 c (h c)⟩) (Cert.KernelIdeal.Net.run (F := Ideal) m ρ)
  · refine (θ_run Cert.ReferenceIdeal.defs _ _).mono (fun _ h c => ⟨(h c).1.trans ?_, (h c).2⟩)
      (Cert.ReferenceIdeal.Value.run (F := Ideal) m' ρ')
    rw [Cert.Whole.ref_value m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

end Cert.Proof.Value

end
-- ==== Proof.lean ====
/-
  The certificate of a three-layer binarized network: a kernel program of three grid regions (one per layer: the first
  splits its real input into a part representable in the narrow format and a remainder and multiplies both against the
  binarized weights; the second accumulates its product over two halves of the contraction axis in a buffer kept between
  grid points; the third works on a weight matrix padded to 128 rows) against a plain host program.

  On the extended reals both compute, layer by layer, the batch normalization of the activations' product with the SIGNS
  of the weights — in the same order of operations, so that no law beyond associativity and commutativity of the sum is
  needed, except in one place: the remainder `x - x` of the first layer's input vanishes only because the input is
  finite, which the precondition provides. The reference's straight-through binarization `clip x + (sgn x - clip x)` is
  the sign because the clip is a real number; the kernel's select form of the sign is the sign; the padding lies outside
  the ten columns the result keeps.

  The three frames read the arguments back off each program's run, whose final memory is named buffer by buffer; the
  idealization conjunct is its three rules' statements; the value conjunct states both results as `Cert.Spec.net` of
  the argument arrays.
-/
import proofs.«112361_j47373489275136_2_alg».proof.Defs
import proofs.«112361_j47373489275136_2_alg».proof.Proof.Gen.Kernel
import proofs.«112361_j47373489275136_2_alg».proof.Proof.Gen.KernelIdeal
import proofs.«112361_j47373489275136_2_alg».proof.Proof.Gen.ReferenceIdeal
import proofs.«112361_j47373489275136_2_alg».proof.Proof.Gen.Pre_finite_inputs
import proofs.«112361_j47373489275136_2_alg».proof.Proof.Frames
import proofs.«112361_j47373489275136_2_alg».proof.Proof.Whole

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_kernel (hKernel := Cert.Kernel.Gen.facts) (hPre := Cert.Pre_finite_inputs.Gen.facts),
    Cert.Proof.Frames.frame_kernelIdeal (hKernelIdeal := Cert.KernelIdeal.Gen.facts) (hPre := Cert.Pre_finite_inputs.Gen.facts),
    Cert.Proof.Frames.frame_reference (hReferenceIdeal := Cert.ReferenceIdeal.Gen.facts) (hPre := Cert.Pre_finite_inputs.Gen.facts),
    Cert.Proof.Frames.preserves,
    Cert.Proof.Value.algebraic (hKernelIdeal := Cert.KernelIdeal.Gen.facts) (hReferenceIdeal := Cert.ReferenceIdeal.Gen.facts)
      (hPre := Cert.Pre_finite_inputs.Gen.facts)⟩

end Cert.Proof

end
